-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8x1x128 : Shape := ⟨3, ![8, 1, 128]⟩
abbrev S1024x256 : Shape := ⟨2, ![1024, 256]⟩
abbrev S1024x1 : Shape := ⟨2, ![1024, 1]⟩
abbrev S1x1024 : Shape := ⟨2, ![1, 1024]⟩
abbrev S1x1x128 : Shape := ⟨3, ![1, 1, 128]⟩
abbrev S1024x1024 : Shape := ⟨2, ![1024, 1024]⟩
abbrev S1024 : Shape := ⟨1, ![1024]⟩
abbrev S1 : Shape := ⟨1, ![1]⟩
abbrev S1x1 : Shape := ⟨2, ![1, 1]⟩
abbrev S1x1x1 : Shape := ⟨3, ![1, 1, 1]⟩

abbrev nBuf : Space → Nat
  | .hbm => 30
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x256, .bf16⟩
  | .hbm, ⟨10, _⟩ => ⟨S8x1x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1x128, .f32⟩
  | .local _ .vmem, ⟨9, _⟩ => ⟨S1x1x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_cst_5 : Ref sig .tc := ⟨.hbm, 21, rfl⟩
abbrev main_v14 : Ref sig .tc := ⟨.hbm, 22, rfl⟩
abbrev main_cst_6 : Ref sig .tc := ⟨.hbm, 23, rfl⟩
abbrev main_v15 : Ref sig .tc := ⟨.hbm, 24, rfl⟩
abbrev main_cst_7 : Ref sig .tc := ⟨.hbm, 25, rfl⟩
abbrev main_v16 : Ref sig .tc := ⟨.hbm, 26, rfl⟩
abbrev main_v17 : Ref sig .tc := ⟨.hbm, 27, rfl⟩
abbrev main_cst_8 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let arg0 : BitVec 32 := BitVec.ofNat 32 (i 0).val
  let v3 : BitVec 1 := Scalar.cmpi .eq arg1 arg0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let arg0 : BitVec 32 := BitVec.ofNat 32 (i 0).val
  let v6 : BitVec 1 := Scalar.cmpi .sgt arg1 arg0
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  bitsLt_bf16_f32 : FTy.bits .bf16 < FTy.bits .f32
  inb_S1x1x128_S1x1x128_0_0_0 : ∀ a, (![0, 0, 0] : Fin 3 → Nat) a + S1x1x128.size a ≤ S1x1x128.size a
  h_S1x1x128 : 0 < S1x1x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S1x1x128_d2_w32 : S1x1x128.Iotas .tc 32 [2]
  shapeCasts_S1x1_S1x1x1 : S1x1.ShapeCasts S1x1x1
  broadcasts_S1x1x1_S1x1x128 : S1x1x1.Broadcasts S1x1x128
  shapeCasts_S1x1x128_S1x1x128 : S1x1x128.ShapeCasts S1x1x128
  reducesTo_S8x1x128_S_d0_1_2 : S8x1x128.ReducesTo [0, 1, 2] S_
  reducesTo_S8192_S_d0 : S8192.ReducesTo [0] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S256x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_cst_7 : Ref sig .tc := ⟨.hbm, 32, rfl⟩
abbrev main_v23 : Ref sig .tc := ⟨.hbm, 33, rfl⟩
abbrev main_cst_8 : Ref sig .tc := ⟨.hbm, 34, rfl⟩
abbrev main_v24 : Ref sig .tc := ⟨.hbm, 35, rfl⟩
abbrev main_cst_9 : Ref sig .tc := ⟨.hbm, 36, rfl⟩
abbrev main_v25 : Ref sig .tc := ⟨.hbm, 37, rfl⟩
abbrev main_v26 : Ref sig .tc := ⟨.hbm, 38, rfl⟩
abbrev main_cst_10 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BitsFrame.Setup.lean ====
/-
  The region's surroundings, stated once for the kernel program as printed: what the TensorCore's buffers hold when the
  one kernel region is entered (the nine host operations before it applied to the launch memory: the row sums of
  squares, their halves as a column and as a row, the argument rounded for the matrix unit), and that the program is
  those operations, the region, and the nineteen host operations after it (the sum of the per-row-block partial sums,
  the division by n², the correction terms).
-/
import proofs.«153800_j78932908965970_2_alg».proof.Proof.Gen.Kernel.Launch
import proofs.«153800_j78932908965970_2_alg».proof.Proof.Gen.Kernel.Skeleton
import proofs.«153800_j78932908965970_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered, as a valuation: the launch memory after the host
    operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the earlier host operations, the region, the later host operations: it reduces to the region
    continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

end Cert.Kernel.Hand

end
-- ==== Proof.BitsFrame.Launch.lean ====
/-
  The launch of the one kernel region when two of its input windows read ONE array (the rounded argument, once by row
  block and once by column block): the array's full share is dealt in two halves to the two windows at the region's
  entry, and put together again at its exit, where the later host operations run.
-/
import proofs.«153800_j78932908965970_2_alg».proof.Proof.BitsFrame.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares: the two windows on the shared array hold its two halves; every other window's array is held whole. -/
def qs : Fin 5 → PosShare TreeShare := fun
  | ⟨0, _⟩ => fullShare.left
  | ⟨1, _⟩ => fullShare.right
  | ⟨2, _⟩ => fullShare
  | ⟨3, _⟩ => fullShare
  | ⟨4, _⟩ => fullShare

/-- The four DISTINCT arrays, as a window family of their own: windows 1 to 4. -/
abbrev win' : Fin 4 → Pipeline.WinSpec sig grid0.rank := fun k => spec0 k.succ
theorem win'_inj : Function.Injective (Pipeline.arrRef win') := by decide
theorem img_eq : (Finset.univ.image (Pipeline.arrRef spec0) : Finset (Ref sig .tc)) = Finset.univ.image (Pipeline.arrRef win') := by decide

/-- The four distinct arrays conjoined one by one. -/
theorem bigSep_W4 {M : Type} [URA M] (Φ : Fin 4 → sProp M) : bigSep Finset.univ Φ = iprop(Φ (0 : Fin 4) ∗ Φ (1 : Fin 4) ∗ Φ (2 : Fin 4) ∗ Φ (3 : Fin 4)) :=
  BI.bigSep_univ_eq_bigSepL [(0 : Fin 4), (1 : Fin 4), (2 : Fin 4), (3 : Fin 4)] (by decide) (by decide) Φ

/-- The pipeline's arrays at the dealt shares are the four distinct arrays each held whole, when the two windows on the
    shared array are stated at the same contents. -/
theorem arrays_iff_pts {c : Dev nD} (dat : Dat τ (Elt F) Unit ℕ (UR sig nD τ) ℕ cfg0 c) (hq : dat.q = qs)
    (G : (w : Fin 5) → Buf (Elt F) ((cfg0.win w).arr.view.loc (c.tc : Thread nD τ))) (h01 : G 0 = G 1) :
    (dat.arrays G : sProp 𝕄) ⊣⊢ Pipeline.arrPts win' c (fun k => G k.succ) := by
  have hs0 : dat.share 0 = fullShare.left := by unfold Dat.share; rw [hq]; rfl
  have hs1 : dat.share 1 = fullShare.right := by unfold Dat.share; rw [hq]; rfl
  have hs2 : dat.share 2 = fullShare := by unfold Dat.share; rw [hq]; rfl
  have hs3 : dat.share 3 = fullShare := by unfold Dat.share; rw [hq]; rfl
  have hs4 : dat.share 4 = fullShare := by unfold Dat.share; rfl
  have h1 : (dat.arrays G : sProp 𝕄) = bigSep Finset.univ fun w : Fin 5 =>
      (((c.tc : Thread nD τ).loc (Pipeline.arrRef spec0 w)) ↦{dat.share w} G w : sProp 𝕄) := by
    unfold Dat.arrays
    exact bigSep_congr fun w _ => by rw [(arr_whole0 w).set_eq_univ]
  rw [h1]
  unfold Pipeline.arrPts
  rw [bigSep_W0, bigSep_W4]
  rw [hs0, hs1, hs2, hs3, hs4, h01]
  constructor
  · iintro ⟨Ha, Hb, H2, H3, H4⟩
    ihave H1 := (pointsTo_share (PosShare.mem_left_op_right fullShare)).2 $$ [Ha Hb]
    · isplitl [Ha] <;> iassumption
    isplitl [H1]; · iexact H1
    isplitl [H2]; · iexact H2
    isplitl [H3]; · iexact H3
    iexact H4
  · iintro ⟨H1, H2, H3, H4⟩
    ihave ⟨Ha, Hb⟩ := (pointsTo_share (PosShare.mem_left_op_right fullShare)).1 $$ H1
    isplitl [Ha]; · iexact Ha
    isplitl [Hb]; · iexact Hb
    isplitl [H2]; · iexact H2
    isplitl [H3]; · iexact H3
    iexact H4

/-- The later host operations touch only unscoped buffers: the four arrays and the buffers that bypass the region. -/
theorem sfx_sub : ∀ ops ∈ ([hostOps1] : List (List (HloOp τ sig (Elt F)))), ∀ op ∈ ops,
    op.bufs ⊆ Pipeline.tailRefs sig Pipeline.Prefetch.none win' := by
  rw [Pipeline.tailRefs_none win' (by decide)]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is none of the four arrays. -/
theorem sfx_keeps : ∀ ops ∈ ([hostOps1] : List (List (HloOp τ sig (Elt F)))), ∀ op ∈ ops,
    ∀ w, Proc.devRef .tc (Pipeline.arrRef win' w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- What core `c`'s buffers hold at the end: the later host operations applied to the region's exit contents — the four
    arrays at what the write-backs left, every other buffer at its region-entry contents. -/
def endVal (dats : (p : Fin 1) → (c : Dev nD) → Dat τ (Elt F) Unit ℕ (UR sig nD τ) ℕ (cfgs p) c) (c : Dev nD) (b : Ref sig .tc) :
    Buf (Elt F) ((c.tc : Thread nD τ).loc b) :=
  StableHlo.after ([hostOps1] : List (List (HloOp τ sig (Elt F)))).flatten
    (Pipeline.withArrays win' c (V0 m c) fun k => (dats 0 c).arrAt k.succ cfg0.N) (Proc.devRef .tc b)

/-- The buffers that bypass the region are the same whether the arrays are listed by window or by distinct array. -/
theorem restP_eq (c : Dev nD) (W : (b : Ref sig .tc) → Buf (Elt F) ((c.tc : Thread nD τ).loc b)) :
    (Pipeline.unscopedRestP Pipeline.Prefetch.none spec0 c W : sProp 𝕄) = Pipeline.unscopedRestP Pipeline.Prefetch.none win' c W := by
  unfold Pipeline.unscopedRestP; rw [img_eq]

set_option backward.isDefEq.respectTransparency.types false in
/-- THE RUN, for any proof data at the dealt shares whose body obligation holds: every weakly fair execution of the
    program terminates, and at the end every window's array holds what the write-backs left and every buffer that
    bypasses the region what the later host operations computed. -/
theorem run_main
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c, (dats 0 c).q = qs) (howed : ∀ c t, (dats 0 c).owed t = 0)
    (hA : ∀ c w, (dats 0 c).A w = V m c (Pipeline.arrRef spec0 w))
    (hΦ : ∀ c t, (dats 0 c).Φ t = Pipeline.ΦA spec0 c) :
    θ_run defs (onTc (τ := τ) (main (F := F))) (s₀ m ρ) (fun r => ∀ c : Dev nD,
       (∀ w, r.2.mem ((spec0 w).arr.view.loc (c.tc : Thread nD τ)) = (dats 0 c).arrAt w cfg0.N)
       ∧ ∀ b ∈ Pipeline.restRefs sig spec0, r.2.mem ((c.tc : Thread nD τ).loc b) = endVal m dats c b) := by
  classical
  have phinj : Function.Injective (cellOf (nD := nD) (τ := τ) (Pipeline.pin (fun q => (cfgs q).toPCfg (Val := Elt F)) (fun q => (cfgs q).toPCfg_adm))) := cellOf_inj
  -- the two windows on the shared array are inputs: both hold its entry contents throughout
  have h01 : ∀ c n, (dats 0 c).arrAt 0 n = (dats 0 c).arrAt 1 n := fun c n => by
    rw [(dats 0 c).arrAt_in 0 rfl n, (dats 0 c).arrAt_in 1 rfl n, hA, hA]
  exact Pipeline.θ_run_region_pf_tail (fun q => (cfgs q).toPCfg (Val := Elt F)) (fun q => (cfgs q).toPCfg_adm) dats () phinj 0
    winFacts₀0 (Pipeline.OwnSemFacts.none spec0) (Pipeline.PreFacts.none spec0) emb₁ defs₀ Variants.none m ρ main
    (fun _ => Pipeline.chain [StableHlo.seq hostOps1]) hbody block_pos0 arr_whole0 stage_whole0 howed
    (G := fun _ => iprop(emp)) (u₀ := initOf (Pipeline.cells _ phinj) (Pipeline.launchToks _ phinj))
    (hu₀ := by
      iintro Hu; imodintro
      isplitl [Hu]; · iapply (show (ownU _ : sProp 𝕄) ⊢ BI.own (emb₁ (initOf (Pipeline.cells _ phinj) (Pipeline.launchToks _ phinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      refine .trans ?_ (arrays_iff_pts (dats 0 c) (hq c) (fun w => (dats 0 c).arrAt w 0) (h01 c 0)).2
      unfold Pipeline.arrBufs Pipeline.arrPts
      rw [img_eq, show Finset.univ.image (Pipeline.arrRef win') = Finset.univ.map ⟨Pipeline.arrRef win', win'_inj⟩ from
        (Finset.map_eq_image ⟨Pipeline.arrRef win', win'_inj⟩ Finset.univ).symm, bigSep_map]
      exact Entails.of_eq (bigSep_congr fun k _ => by
        show _ = ((c.tc : Thread nD τ).loc (Pipeline.arrRef win' k) ↦{fullShare} (dats 0 c).A k.succ : sProp 𝕄)
        rw [hA]; rfl))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (endVal m dats c))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      have e := arrays_iff_pts (dats 0 c) (hq c) (fun w => (dats 0 c).arrAt w cfg0.N) (h01 c cfg0.N)
      rw [restP_eq, restP_eq]
      have ht := Pipeline.tail_seqs (fun q => (cfgs q).toPCfg (Val := Elt F)) (defs₀ (F := F)) Variants.none Pipeline.Prefetch.none win' win'_inj c
        (V0 m c) (fun k => (dats 0 c).arrAt k.succ cfg0.N) [hostOps1] sfx_sub sfx_fresh sfx_keeps Q'
      refine .trans ?_ ht
      iintro ⟨Hk, Hb, Ha, Hz⟩
      isplitl [Hk]
      · iintro ⟨Ha, Hz⟩
        iapply Hk
        isplitl [Ha]; · iapply e.2; iexact Ha
        iexact Hz
      isplitl [Hb]; · iexact Hb
      isplitl [Ha]; · iapply e.1; iexact Ha
      iexact Hz)
    (QY := fun c s => ∀ b ∈ Pipeline.restRefsP sig Pipeline.Prefetch.none spec0, s.mem ((c.tc : Thread nD τ).loc b) = endVal m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (endVal m dats c) s')
      isplitl [HU] <;> iassumption)
    (hQ := fun s h c => ⟨(h c).1, Pipeline.rest_of_restP Pipeline.Prefetch.none spec0 ((cfgs 0).toPCfg_adm (Val := Elt F)).1 c (endVal m dats c) s
      (fun k => k.elim0) (h c).2.1 (h c).2.2⟩)

/-- No host operation before the region writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any host operation after it, and it is none of the four arrays: it ends as launched. -/
theorem endVal_main_arg0 (dats : (p : Fin 1) → (c : Dev nD) → Dat τ (Elt F) Unit ℕ (UR sig nD τ) ℕ (cfgs p) c) (c : Dev nD) :
    endVal m dats c main_arg0 = m ((c : Thread nD τ).loc main_arg0) := by
  unfold endVal
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef win' w ≠ main_arg0))]
  exact V_main_arg0 m c

/-- The frame claim's post from the run's: the argument is a buffer that bypasses the region, read back at the end. -/
theorem frame_of (dats : (p : Fin 1) → (c : Dev nD) → Dat τ (Elt F) Unit ℕ (UR sig nD τ) ℕ (cfgs p) c)
    (h : θ_run defs (onTc (τ := τ) (main (F := F))) (s₀ m ρ) (fun r => ∀ c : Dev nD,
       (∀ w, r.2.mem ((spec0 w).arr.view.loc (c.tc : Thread nD τ)) = (dats 0 c).arrAt w cfg0.N)
       ∧ ∀ b ∈ Pipeline.restRefs sig spec0, r.2.mem ((c.tc : Thread nD τ).loc b) = endVal m dats c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (endVal_main_arg0 m dats c))) h

end Cert.Kernel.Hand

end
-- ==== Proof.BitsFrame.Kit.lean ====
/-
  What the case-by-case runs of the kernel body share. A grid point t has the row-block index i = t / 8 and the
  column-block index j = t % 8; the body zeroes the row block's partial sum at j = 0, adds the diagonal tile's sum
  (diagonal entries taken at exp 0 = 1) at j = i, adds twice the tile's sum at j > i (the matrix is symmetric: the
  tile below the diagonal is never visited), and does nothing at 0 < j < i. Stated here: the windows' blocks read
  off the arrays as the region finds them; each input's staging buffer at its block at every point; the three
  branch conditions in closed form over the grid; where the output window is live, idle, written back; the staging
  memrefs as the body is called with them.
-/
import proofs.«153800_j78932908965970_2_alg».proof.Proof.BitsFrame.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: unfetched, the block
    index has not moved. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: unfetched, the block
    index has not moved. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: unfetched, the block
    index has not moved. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: unfetched, the block
    index has not moved. The window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (the partial sum is zeroed): the column-block index is 0. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (the diagonal tile): the column-block index is the row-block index. -/
abbrev cond0_1 (i : grid0.Coords) : Prop := k0_cond2 i = 1#1
theorem hcond0_1 : ∀ t : Fin cfg0.N, cond0_1 (grid0.coords t) ↔ t.val % 8 = t.val / 8 :=
  (by decide +kernel : ∀ t : Fin grid0.N, cond0_1 (grid0.coords t) ↔ t.val % 8 = t.val / 8)

/-- The third branch (a tile strictly above the diagonal): the column-block index exceeds the row-block index. -/
abbrev cond0_2 (i : grid0.Coords) : Prop := k0_cond3 i = 1#1
theorem hcond0_2 : ∀ t : Fin cfg0.N, cond0_2 (grid0.coords t) ↔ t.val / 8 < t.val % 8 :=
  (by decide +kernel : ∀ t : Fin grid0.N, cond0_2 (grid0.coords t) ↔ t.val / 8 < t.val % 8)

/-! ## Where the windows are idle, and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- The output window is idle exactly at the points below the diagonal and off the first column: no branch is taken. -/
theorem idle0_4_iff : ∀ t : Fin cfg0.N, cfg0.idle 4 (grid0.coords t) = true ↔ (¬t.val % 8 = 0 ∧ ¬t.val % 8 = t.val / 8 ∧ ¬t.val / 8 < t.val % 8) :=
  (by decide +kernel : ∀ t : Fin grid0.N, cfg0.idle 4 (grid0.coords t) = true ↔ (¬t.val % 8 = 0 ∧ ¬t.val % 8 = t.val / 8 ∧ ¬t.val / 8 < t.val % 8))

/-- Case A (first column, on the diagonal): the output is stored into. -/
theorem liveAt0_4_A : ∀ t : Fin cfg0.N, cond0_0 (grid0.coords t) → cond0_1 (grid0.coords t) → ¬cond0_2 (grid0.coords t) → cfg0.idle 4 (grid0.coords t) = false := by decide +kernel
/-- Case B (strictly above the diagonal): the output is stored into. -/
theorem liveAt0_4_B : ∀ t : Fin cfg0.N, ¬cond0_0 (grid0.coords t) → ¬cond0_1 (grid0.coords t) → cond0_2 (grid0.coords t) → cfg0.idle 4 (grid0.coords t) = false := by decide +kernel
/-- Case C (first column, below the diagonal): the output is stored into. -/
theorem liveAt0_4_C : ∀ t : Fin cfg0.N, cond0_0 (grid0.coords t) → ¬cond0_1 (grid0.coords t) → ¬cond0_2 (grid0.coords t) → cfg0.idle 4 (grid0.coords t) = false := by decide +kernel
/-- Case D (on the diagonal, off the first column): the output is stored into. -/
theorem liveAt0_4_D : ∀ t : Fin cfg0.N, ¬cond0_0 (grid0.coords t) → cond0_1 (grid0.coords t) → ¬cond0_2 (grid0.coords t) → cfg0.idle 4 (grid0.coords t) = false := by decide +kernel
/-- Case E (below the diagonal, off the first column): nothing is stored, the output is idle, -/
theorem idleAt0_4_E : ∀ t : Fin cfg0.N, ¬cond0_0 (grid0.coords t) → ¬cond0_1 (grid0.coords t) → ¬cond0_2 (grid0.coords t) → cfg0.idle 4 (grid0.coords t) = true := by decide +kernel
/-- and its block is not written back there (the write-back is at the last column, which is on or above the diagonal). -/
theorem noFlush0_4_E : ∀ t : Fin cfg0.N, ¬cond0_0 (grid0.coords t) → ¬cond0_1 (grid0.coords t) → ¬cond0_2 (grid0.coords t) → (cfg0.win 4).flush t = false := by decide +kernel

/-! ## The staging memrefs the body is called with -/

/-- One staging buffer of the output window, through which its contents are stated (the choice does not matter). -/
abbrev VO0_4 : View sig .tc .vmem S1x1x128 .f32 := (Memref.whole cc0_stg4_0 : Memref sig .tc .vmem S1x1x128 .f32).view
/-- Each window's current staging memref at point `t`, spelled as the pipeline passes it, and its wholeness. -/
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

/-- The region's invariant: there is no scratch operand, so the scoped rest is empty and what remains is the
    generator register at some state. -/
theorem PhiA0_eq (c : Dev nD) :
    (Pipeline.ΦA spec0 c : sProp 𝕄) = iprop((BI.emp : sProp 𝕄) ∗ (∃ r, prngReg c r)) := by
  unfold Pipeline.ΦA; rw [scopedRest0_eq]

end Cert.Kernel.Hand

end
-- ==== Proof.BitsFrame.RunA.lean ====
/-
  The kernel body at a point of case A: first column and on the diagonal (the first grid point). The row block's
  partial sum is zeroed, then the diagonal tile's sum is added into lane 0: two stores, each of the whole block, so
  what the buffer held before does not matter.
-/
import proofs.«153800_j78932908965970_2_alg».proof.Proof.BitsFrame.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case A (last first), with the proof that on
    whole staging memrefs, the inputs' at their contents, the body runs to the continuation holding the inputs' as they
    were and the output's buffer with the pieces written. -/
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : cond0_1 i) (hc2 : ¬cond0_2 i)
    (x0 : Vec F S1024x256 .bf16) (x1 : Vec F S1024x256 .bf16) (x2 : Vec F S1024x1 .f32) (x3 : Vec F S1x1024 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.BitsFrame.RunB.lean ====
/-
  The kernel body at a point of case B: a tile strictly above the diagonal. The body loads the running partial sum,
  adds twice the tile's sum into lane 0 (the tile's mirror image below the diagonal is never visited) and stores it:
  one store of the whole block, computed from what the point before left.
-/
import proofs.«153800_j78932908965970_2_alg».proof.Proof.BitsFrame.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case B (last first), with the proof that on
    whole staging memrefs, the inputs' at their contents, the body runs to the continuation holding the inputs' as they
    were and the output's buffer with the pieces written. -/
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : cond0_2 i)
    (x0 : Vec F S1024x256 .bf16) (x1 : Vec F S1024x256 .bf16) (x2 : Vec F S1024x1 .f32) (x3 : Vec F S1x1024 .f32) (xo4 : Vec F S1x1x128 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.BitsFrame.RunC.lean ====
/-
  The kernel body at a point of case C: first column, below the diagonal. The row block's partial sum is zeroed: one
  store of the whole block, whatever the buffer held.
-/
import proofs.«153800_j78932908965970_2_alg».proof.Proof.BitsFrame.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case C (last first), with the proof that on
    whole staging memrefs, the inputs' at their contents, the body runs to the continuation holding the inputs' as they
    were and the output's buffer with the pieces written. -/
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : ¬cond0_1 i) (hc2 : ¬cond0_2 i)
    (x0 : Vec F S1024x256 .bf16) (x1 : Vec F S1024x256 .bf16) (x2 : Vec F S1024x1 .f32) (x3 : Vec F S1x1024 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.BitsFrame.RunD.lean ====
/-
  The kernel body at a point of case D: on the diagonal, off the first column. The body loads the running partial
  sum, adds the diagonal tile's sum (the diagonal entries taken at exp 0 = 1) into lane 0 and stores it: one store of
  the whole block, computed from what the point before left.
-/
import proofs.«153800_j78932908965970_2_alg».proof.Proof.BitsFrame.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case D (last first), with the proof that on
    whole staging memrefs, the inputs' at their contents, the body runs to the continuation holding the inputs' as they
    were and the output's buffer with the pieces written. -/
noncomputable def kernelRun0_D (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : cond0_1 i) (hc2 : ¬cond0_2 i)
    (x0 : Vec F S1024x256 .bf16) (x1 : Vec F S1024x256 .bf16) (x2 : Vec F S1024x1 .f32) (x3 : Vec F S1x1024 .f32) (xo4 : Vec F S1x1x128 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.BitsFrame.RunE.lean ====
/-
  The kernel body at a point of case E: below the diagonal, off the first column. No branch is taken: the body
  touches no buffer, and every staging memref is handed on as it was found.
-/
import proofs.«153800_j78932908965970_2_alg».proof.Proof.BitsFrame.RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case E (last first), with the proof that on
    whole staging memrefs, the inputs' at their contents, the body runs to the continuation holding the inputs' as they
    were and the output's buffer with the pieces written (none: the buffer is handed on at the contents it was found at). -/
noncomputable def kernelRun0_E (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : ¬cond0_2 i)
    (x0 : Vec F S1024x256 .bf16) (x1 : Vec F S1024x256 .bf16) (x2 : Vec F S1024x1 .f32) (x3 : Vec F S1x1024 .f32) :
    { L4 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4) -∗ K ⟨⟩))
          ⊢ wp frame (wpE (defs₀ (F := F)) Variants.none c none) E (cc0__mmd_kernel i arg2 harg2 arg3 harg3 arg4 harg4 arg5 harg5 arg6 harg6) K } := by
  refine ⟨[], fun xi4 E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4

end Cert.Kernel.Hand

end
-- ==== Proof.BitsFrame.Body.lean ====
/-
  The body side of the frame: what the output's staging buffer holds after the body at every grid point, the proof
  data of the pipeline, and the body obligation. Along a row block i the buffer is zeroed at column block 0 (and, for
  i = 0, the diagonal tile's sum added at once), left alone at 0 < j < i, has the diagonal tile's sum added at j = i and
  twice the tile's sum at each j > i, and is written back after j = 7; so before the body at any point with j ≠ 0 it
  holds what the body left at the point before, through the points where nothing is stored as well.
-/
import proofs.«153800_j78932908965970_2_alg».proof.Proof.BitsFrame.RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves in the output's buffer -/

/-- Case A's pieces for the output tile its block (two stores of the whole block), so they cover it. -/
theorem cover0_A_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : cond0_1 i) (hc2 : ¬cond0_2 i)
    (x0 : Vec F S1024x256 .bf16) (x1 : Vec F S1024x256 .bf16) (x2 : Vec F S1024x1 .f32) (x3 : Vec F S1x1024 .f32) (y : S1x1x128.Idx) :
    ∃ pc ∈ (kernelRun0_A c i arg2 harg2 arg3 harg3 arg4 harg4 arg5 harg5 arg6 harg6 hc0 hc1 hc2 x0 x1 x2 x3).1, y ∈ pc.1.set :=
  View.cover_of_tiledL (kernelRun0_A c i arg2 harg2 arg3 harg3 arg4 harg4 arg5 harg5 arg6 harg6 hc0 hc1 hc2 x0 x1 x2 x3).1 S1x1x128.size (by sl_kernel_rfl) y

/-- What case A leaves in the output's staging buffer: its pieces read back over junk. -/
def out0_A_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : cond0_1 i) (hc2 : ¬cond0_2 i)
    (x0 : Vec F S1024x256 .bf16) (x1 : Vec F S1024x256 .bf16) (x2 : Vec F S1024x1 .f32) (x3 : Vec F S1x1024 .f32) : Vec F S1x1x128 .f32 :=
  VO0_4.read (Elt F) (VO0_4.writes (Elt F) VO0_4.junk (kernelRun0_A c i arg2 harg2 arg3 harg3 arg4 harg4 arg5 harg5 arg6 harg6 hc0 hc1 hc2 x0 x1 x2 x3).1)

/-- Case B's pieces for the output tile its block (one store of the whole block), so they cover it. -/
theorem cover0_B_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : cond0_2 i)
    (x0 : Vec F S1024x256 .bf16) (x1 : Vec F S1024x256 .bf16) (x2 : Vec F S1024x1 .f32) (x3 : Vec F S1x1024 .f32) (xo4 : Vec F S1x1x128 .f32) (y : S1x1x128.Idx) :
    ∃ pc ∈ (kernelRun0_B c i arg2 harg2 arg3 harg3 arg4 harg4 arg5 harg5 arg6 harg6 hc0 hc1 hc2 x0 x1 x2 x3 xo4).1, y ∈ pc.1.set :=
  View.cover_of_tiledL (kernelRun0_B c i arg2 harg2 arg3 harg3 arg4 harg4 arg5 harg5 arg6 harg6 hc0 hc1 hc2 x0 x1 x2 x3 xo4).1 S1x1x128.size (by sl_kernel_rfl) y

/-- What case B leaves in the output's staging buffer: its pieces read back over junk. -/
def out0_B_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : cond0_2 i)
    (x0 : Vec F S1024x256 .bf16) (x1 : Vec F S1024x256 .bf16) (x2 : Vec F S1024x1 .f32) (x3 : Vec F S1x1024 .f32) (xo4 : Vec F S1x1x128 .f32) : Vec F S1x1x128 .f32 :=
  VO0_4.read (Elt F) (VO0_4.writes (Elt F) VO0_4.junk (kernelRun0_B c i arg2 harg2 arg3 harg3 arg4 harg4 arg5 harg5 arg6 harg6 hc0 hc1 hc2 x0 x1 x2 x3 xo4).1)

/-- Case C's pieces for the output tile its block (one store of the whole block), so they cover it. -/
theorem cover0_C_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : ¬cond0_1 i) (hc2 : ¬cond0_2 i)
    (x0 : Vec F S1024x256 .bf16) (x1 : Vec F S1024x256 .bf16) (x2 : Vec F S1024x1 .f32) (x3 : Vec F S1x1024 .f32) (y : S1x1x128.Idx) :
    ∃ pc ∈ (kernelRun0_C c i arg2 harg2 arg3 harg3 arg4 harg4 arg5 harg5 arg6 harg6 hc0 hc1 hc2 x0 x1 x2 x3).1, y ∈ pc.1.set :=
  View.cover_of_tiledL (kernelRun0_C c i arg2 harg2 arg3 harg3 arg4 harg4 arg5 harg5 arg6 harg6 hc0 hc1 hc2 x0 x1 x2 x3).1 S1x1x128.size (by sl_kernel_rfl) y

/-- What case C leaves in the output's staging buffer: its pieces read back over junk. -/
def out0_C_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : ¬cond0_1 i) (hc2 : ¬cond0_2 i)
    (x0 : Vec F S1024x256 .bf16) (x1 : Vec F S1024x256 .bf16) (x2 : Vec F S1024x1 .f32) (x3 : Vec F S1x1024 .f32) : Vec F S1x1x128 .f32 :=
  VO0_4.read (Elt F) (VO0_4.writes (Elt F) VO0_4.junk (kernelRun0_C c i arg2 harg2 arg3 harg3 arg4 harg4 arg5 harg5 arg6 harg6 hc0 hc1 hc2 x0 x1 x2 x3).1)

/-- Case D's pieces for the output tile its block (one store of the whole block), so they cover it. -/
theorem cover0_D_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : cond0_1 i) (hc2 : ¬cond0_2 i)
    (x0 : Vec F S1024x256 .bf16) (x1 : Vec F S1024x256 .bf16) (x2 : Vec F S1024x1 .f32) (x3 : Vec F S1x1024 .f32) (xo4 : Vec F S1x1x128 .f32) (y : S1x1x128.Idx) :
    ∃ pc ∈ (kernelRun0_D c i arg2 harg2 arg3 harg3 arg4 harg4 arg5 harg5 arg6 harg6 hc0 hc1 hc2 x0 x1 x2 x3 xo4).1, y ∈ pc.1.set :=
  View.cover_of_tiledL (kernelRun0_D c i arg2 harg2 arg3 harg3 arg4 harg4 arg5 harg5 arg6 harg6 hc0 hc1 hc2 x0 x1 x2 x3 xo4).1 S1x1x128.size (by sl_kernel_rfl) y

/-- What case D leaves in the output's staging buffer: its pieces read back over junk. -/
def out0_D_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : cond0_1 i) (hc2 : ¬cond0_2 i)
    (x0 : Vec F S1024x256 .bf16) (x1 : Vec F S1024x256 .bf16) (x2 : Vec F S1024x1 .f32) (x3 : Vec F S1x1024 .f32) (xo4 : Vec F S1x1x128 .f32) : Vec F S1x1x128 .f32 :=
  VO0_4.read (Elt F) (VO0_4.writes (Elt F) VO0_4.junk (kernelRun0_D c i arg2 harg2 arg3 harg3 arg4 harg4 arg5 harg5 arg6 harg6 hc0 hc1 hc2 x0 x1 x2 x3 xo4).1)

/-! ## What the output holds after each point -/

/-- THE ACCUMULATION. What the output's staging buffer holds after the body at position `n`: the case the closed
    forms select there, run at the point's memrefs and input blocks; a case that adds into the buffer (B, D) takes
    what this gives at `n - 1`, and where nothing is stored (E) the buffer still holds that. An assignment of the
    conditions no point meets is no case. -/
def outsAt0 (c : Dev nD) : (n : ℕ) → n < cfg0.N → Vec F S1x1x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) ((hcond0_1 ⟨0, hn⟩).mpr (by show 0 % 8 = 0 / 8; rfl)) (fun h => absurd ((hcond0_2 ⟨0, hn⟩).mp h) (by show ¬(0 / 8 < 0 % 8); decide)) (iblk m c 0 ⟨0, hn⟩) (iblk m c 1 ⟨0, hn⟩) (iblk m c 2 ⟨0, hn⟩) (iblk m c 3 ⟨0, hn⟩)
  | n + 1, hn =>
    if h0 : (n + 1) % 8 = 0 then
      if h1 : (n + 1) % 8 = (n + 1) / 8 then
        if h2 : (n + 1) / 8 < (n + 1) % 8 then False.elim (by omega)
        else out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩)
      else
        if h2 : (n + 1) / 8 < (n + 1) % 8 then False.elim (by omega)
        else out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 8 = (n + 1) / 8 then
        if h2 : (n + 1) / 8 < (n + 1) % 8 then False.elim (by omega)
        else out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        if h2 : (n + 1) / 8 < (n + 1) % 8 then out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
        else outsAt0 c n (Nat.lt_of_succ_lt hn)

/-- `outsAt0` at a point of case A: the partial sum zeroed, the diagonal tile's sum added. -/
theorem outsAt0_A (c : Dev nD) (t : Fin cfg0.N) (h0 : t.val % 8 = 0) (h1 : t.val % 8 = t.val / 8) (h2 : ¬t.val / 8 < t.val % 8) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) ((hcond0_1 t).mpr h1) (fun h => h2 ((hcond0_2 t).mp h)) (iblk m c 0 t) (iblk m c 1 t) (iblk m c 2 t) (iblk m c 3 t) := by
  obtain ⟨n, hn⟩ := t
  cases n with
  | zero => exact rfl
  | succ n => exact (dif_pos h0).trans ((dif_pos h1).trans ((dif_neg h2).trans (rfl)))

/-- `outsAt0` at a point of case B: twice the tile's sum added to what the point before left. -/
theorem outsAt0_B (c : Dev nD) (t : Fin cfg0.N) (h0 : ¬t.val % 8 = 0) (h1 : ¬t.val % 8 = t.val / 8) (h2 : t.val / 8 < t.val % 8) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; exact h0 (Nat.zero_mod _))
  | succ n => exact (dif_neg h0).trans ((dif_neg h1).trans ((dif_pos h2).trans (rfl)))

/-- `outsAt0` at a point of case C: the partial sum zeroed. -/
theorem outsAt0_C (c : Dev nD) (t : Fin cfg0.N) (h0 : t.val % 8 = 0) (h1 : ¬t.val % 8 = t.val / 8) (h2 : ¬t.val / 8 < t.val % 8) :
    outsAt0 m c t.val t.isLt = out0_C_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (fun h => h2 ((hcond0_2 t).mp h)) (iblk m c 0 t) (iblk m c 1 t) (iblk m c 2 t) (iblk m c 3 t) := by
  obtain ⟨n, hn⟩ := t
  cases n with
  | zero => exact (by exfalso; exact h1 (by show 0 % 8 = 0 / 8; rfl))
  | succ n => exact (dif_pos h0).trans ((dif_neg h1).trans ((dif_neg h2).trans (rfl)))

/-- `outsAt0` at a point of case D: the diagonal tile's sum added to what the point before left. -/
theorem outsAt0_D (c : Dev nD) (t : Fin cfg0.N) (h0 : ¬t.val % 8 = 0) (h1 : t.val % 8 = t.val / 8) (h2 : ¬t.val / 8 < t.val % 8) :
    outsAt0 m c t.val t.isLt = out0_D_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; exact h0 (Nat.zero_mod _))
  | succ n => exact (dif_neg h0).trans ((dif_pos h1).trans ((dif_neg h2).trans (rfl)))

/-- `outsAt0` at a point of case E: nothing stored: what the point before left. -/
theorem outsAt0_E (c : Dev nD) (t : Fin cfg0.N) (h0 : ¬t.val % 8 = 0) (h1 : ¬t.val % 8 = t.val / 8) (h2 : ¬t.val / 8 < t.val % 8) :
    outsAt0 m c t.val t.isLt = outsAt0 m c (t.val - 1) (Nat.lt_of_le_of_lt (Nat.sub_le _ _) t.isLt) := by
  obtain ⟨n, hn⟩ := t
  cases n with
  | zero => exact (by exfalso; exact h0 (Nat.zero_mod _))
  | succ n => exact (dif_neg h0).trans ((dif_neg h1).trans ((dif_neg h2).trans (rfl)))

/-! ## The pipeline's proof data -/

/-- The proof data of the one pipeline on core `c`: the arrays as the region finds them (`V`); after the body at
    point `t` each input's buffer at its block and the output's at `outsAt0`; the invariant the scoped rest and the
    generator register; nothing owed; the input arrays held at the shares `q`. -/
def dats (q : Fin 5 → PosShare TreeShare) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q := q
  owed _ := 0

/-- The proof data's arrays are the region-entry contents. -/
theorem A_eq (q : Fin 5 → PosShare TreeShare) (c : Dev nD) (w : Fin cfg0.W) : (dats m q 0 c).A w = V m c (Pipeline.arrRef spec0 w) := by
  dsimp only [dats]

/-- What the body leaves, window by window. -/
theorem after0_0 (q : Fin 5 → PosShare TreeShare) (c : Dev nD) (t : Fin cfg0.N) : (dats m q 0 c).after 0 t = iblk m c 0 t := by dsimp only [dats]
theorem after0_1 (q : Fin 5 → PosShare TreeShare) (c : Dev nD) (t : Fin cfg0.N) : (dats m q 0 c).after 1 t = iblk m c 1 t := by dsimp only [dats]
theorem after0_2 (q : Fin 5 → PosShare TreeShare) (c : Dev nD) (t : Fin cfg0.N) : (dats m q 0 c).after 2 t = iblk m c 2 t := by dsimp only [dats]
theorem after0_3 (q : Fin 5 → PosShare TreeShare) (c : Dev nD) (t : Fin cfg0.N) : (dats m q 0 c).after 3 t = iblk m c 3 t := by dsimp only [dats]
theorem after0_4 (q : Fin 5 → PosShare TreeShare) (c : Dev nD) (t : Fin cfg0.N) : (dats m q 0 c).after 4 t = outsAt0 m c t.val t.isLt := by dsimp only [dats]

/-- Each input's current staging buffer holds its block at every point, fetched there or not. -/
theorem before0_0 (q : Fin 5 → PosShare TreeShare) (c : Dev nD) (t : Fin cfg0.N) (d) : (dats m q 0 c).before 0 t d = iblk m c 0 t :=
  before0_0_of m (dats m q 0 c) (A_eq m q c 0) (after0_0 m q c) t d
theorem before0_1 (q : Fin 5 → PosShare TreeShare) (c : Dev nD) (t : Fin cfg0.N) (d) : (dats m q 0 c).before 1 t d = iblk m c 1 t :=
  before0_1_of m (dats m q 0 c) (A_eq m q c 1) (after0_1 m q c) t d
theorem before0_2 (q : Fin 5 → PosShare TreeShare) (c : Dev nD) (t : Fin cfg0.N) (d) : (dats m q 0 c).before 2 t d = iblk m c 2 t :=
  before0_2_of m (dats m q 0 c) (A_eq m q c 2) (after0_2 m q c) t d
theorem before0_3 (q : Fin 5 → PosShare TreeShare) (c : Dev nD) (t : Fin cfg0.N) (d) : (dats m q 0 c).before 3 t d = iblk m c 3 t :=
  before0_3_of m (dats m q 0 c) (A_eq m q c 3) (after0_3 m q c) t d

/-! ## The output's buffer before the body, off the first column -/

/-- Off the first column the output's buffer is not fresh: the point is not the first and the point before did not
    write the block back (the write-back is after the last column), so the buffer holds what that point left. -/
theorem before4_step {c : Dev nD} (dat : Dat τ (Elt F) Unit ℕ (UR sig nD τ) ℕ cfg0 c) (t : Fin cfg0.N) (ht : ¬t.val % 8 = 0) (d) :
    dat.before 4 t d = dat.left 4 ⟨t.val - 1, Nat.lt_of_le_of_lt (Nat.sub_le _ _) t.isLt⟩ d := by
  have ht0 : t.val ≠ 0 := fun h => ht (by rw [h])
  rw [dat.before_of_pos 4 t ht0 ((cfg0.win 4).fetch_out rfl t), if_neg]
  intro hfl
  have h7 := (flush0_4 _).mp hfl
  dsimp only at h7
  omega

/-- At a point where the output is stored into, what the body leaves for the next point is all of `after` (the window is uncut). -/
theorem left4_live {c : Dev nD} (dat : Dat τ (Elt F) Unit ℕ (UR sig nD τ) ℕ cfg0 c) (t : Fin cfg0.N) (hl : cfg0.idle 4 (grid0.coords t) = false) (d) :
    dat.left 4 t d = dat.after 4 t := by
  unfold Dat.left; rw [hl]; dsimp only
  unfold Dat.kept
  rw [Pipeline.fill_of_clip_none (cfg := cfg0) 4 _ (fun _ => rfl) d (dat.after 4 t), Window.fill_cut]

/-- At a point where nothing is stored into the output, the body leaves what it found. -/
theorem left4_idle {c : Dev nD} (dat : Dat τ (Elt F) Unit ℕ (UR sig nD τ) ℕ cfg0 c) (t : Fin cfg0.N) (hi : cfg0.idle 4 (grid0.coords t) = true) (d) :
    dat.left 4 t d = dat.before 4 t d := by
  unfold Dat.left; rw [hi]

/-- Off the first column the output's current staging buffer holds `outsAt0` at the point before: directly when that
    point stored into it, and through a run of points that store nothing by induction on the point (such a point is
    itself off the first column, and `outsAt0` there is `outsAt0` at the point before it). -/
theorem before0_4_pos (q : Fin 5 → PosShare TreeShare) (c : Dev nD) (n : ℕ) : ∀ (hn : n < cfg0.N), ¬n % 8 = 0 → ∀ d,
    (dats m q 0 c).before 4 ⟨n, hn⟩ d = outsAt0 m c (n - 1) (Nat.lt_of_le_of_lt (Nat.sub_le _ _) hn) := by
  induction n using Nat.strong_induction_on with
  | _ n ih =>
    intro hn hj d
    rw [before4_step (dats m q 0 c) ⟨n, hn⟩ hj d]
    cases hi : cfg0.idle 4 (grid0.coords ⟨n - 1, Nat.lt_of_le_of_lt (Nat.sub_le _ _) hn⟩)
    · rw [left4_live _ _ hi, after0_4]
    · rw [left4_idle _ _ hi]
      have hc := (idle0_4_iff ⟨n - 1, Nat.lt_of_le_of_lt (Nat.sub_le _ _) hn⟩).mp hi
      dsimp only at hc
      rw [ih (n - 1) (by omega) (Nat.lt_of_le_of_lt (Nat.sub_le _ _) hn) hc.1 d]
      exact (outsAt0_E m c ⟨n - 1, Nat.lt_of_le_of_lt (Nat.sub_le _ _) hn⟩ hc.1 hc.2.1 hc.2.2).symm

theorem before0_4 (q : Fin 5 → PosShare TreeShare) (c : Dev nD) (t : Fin cfg0.N) (h0 : ¬t.val % 8 = 0) (d) :
    (dats m q 0 c).before 4 t d = outsAt0 m c (t.val - 1) (Nat.lt_of_le_of_lt (Nat.sub_le _ _) t.isLt) :=
  before0_4_pos m q c t.val t.isLt h0 d

/-! ## The body obligation, at a generic point -/

/-- What the body is called with at point `t`, the windows one by one, -/
def bodyPre (q : Fin 5 → PosShare TreeShare) (c : Dev nD) (t : Fin cfg0.N) : sProp 𝕄 :=
  iprop((dats m q 0 c).Φ t.castSucc ∗ (dats m q 0 c).owesAt () t.castSucc
    ∗ (∃ d, owns (c : Thread nD τ) (ms0_0 t) fullShare ((dats m q 0 c).before 0 t d))
    ∗ (∃ d, owns (c : Thread nD τ) (ms0_1 t) fullShare ((dats m q 0 c).before 1 t d))
    ∗ (∃ d, owns (c : Thread nD τ) (ms0_2 t) fullShare ((dats m q 0 c).before 2 t d))
    ∗ (∃ d, owns (c : Thread nD τ) (ms0_3 t) fullShare ((dats m q 0 c).before 3 t d))
    ∗ (∃ d, owns (c : Thread nD τ) (ms0_4 t) fullShare ((dats m q 0 c).before 4 t d)))

/-- and what it returns. -/
def bodyPost (q : Fin 5 → PosShare TreeShare) (c : Dev nD) (t : Fin cfg0.N) : sProp 𝕄 :=
  iprop((dats m q 0 c).Φ t.succ ∗ (dats m q 0 c).owesAt () t.succ
    ∗ (dats m q 0 c).leavesExact 0 t
    ∗ (dats m q 0 c).leavesExact 1 t
    ∗ (dats m q 0 c).leavesExact 2 t
    ∗ (dats m q 0 c).leavesExact 3 t
    ∗ (dats m q 0 c).leavesExact 4 t)

set_option maxHeartbeats 4000000 in
/-- The body at any point: the inputs' memrefs hold their blocks; the closed forms say which case the point is in; a
    case that adds into the output finds there what the point before left; so that case's run applies; the invariant
    passes through unread; the core owes nothing throughout. -/
theorem sound_body (q : Fin 5 → PosShare TreeShare) (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before0_0, before0_1, before0_2, before0_3]
  rw [show (dats m q 0 c).Φ t.succ = (dats m q 0 c).Φ t.castSucc from rfl,
    show (dats m q 0 c).owesAt () t.succ = (dats m q 0 c).owesAt () t.castSucc from rfl]
  rw [show (dats m q 0 c).leavesExact 0 t = owns (c : Thread nD τ) (ms0_0 t) fullShare ((dats m q 0 c).after 0 t) from by
    unfold Dat.leavesExact; rw [liveAt0_0 t], after0_0]
  rw [show (dats m q 0 c).leavesExact 1 t = owns (c : Thread nD τ) (ms0_1 t) fullShare ((dats m q 0 c).after 1 t) from by
    unfold Dat.leavesExact; rw [liveAt0_1 t], after0_1]
  rw [show (dats m q 0 c).leavesExact 2 t = owns (c : Thread nD τ) (ms0_2 t) fullShare ((dats m q 0 c).after 2 t) from by
    unfold Dat.leavesExact; rw [liveAt0_2 t], after0_2]
  rw [show (dats m q 0 c).leavesExact 3 t = owns (c : Thread nD τ) (ms0_3 t) fullShare ((dats m q 0 c).after 3 t) from by
    unfold Dat.leavesExact; rw [liveAt0_3 t], after0_3]
  by_cases h0 : t.val % 8 = 0
  · by_cases h1 : t.val % 8 = t.val / 8
    · by_cases h2 : t.val / 8 < t.val % 8
      · exfalso; omega
      · -- case A
        rw [show (dats m q 0 c).leavesExact 4 t = owns (c : Thread nD τ) (ms0_4 t) fullShare ((dats m q 0 c).after 4 t) from by
          unfold Dat.leavesExact; rw [liveAt0_4_A t ((hcond0_0 t).mpr h0) ((hcond0_1 t).mpr h1) (fun h => h2 ((hcond0_2 t).mp h))], after0_4]
        rw [outsAt0_A m c t h0 h1 h2]
        unfold out0_A_4
        iintro ⟨HΦ, Ho, ⟨%d0, H0⟩, ⟨%d1, H1⟩, ⟨%d2, H2⟩, ⟨%d3, H3⟩, ⟨%d4, H4⟩⟩
        iapply ((kernelRun0_A c (grid0.coords t) _ _ _ _ _ _ _ _ _ _ ((hcond0_0 t).mpr h0) ((hcond0_1 t).mpr h1) (fun h => h2 ((hcond0_2 t).mp h)) (iblk m c 0 t) (iblk m c 1 t) (iblk m c 2 t) (iblk m c 3 t)).2 Set.univ _)
        isplitl [H0]; · iexact H0
        isplitl [H1]; · iexact H1
        isplitl [H2]; · iexact H2
        isplitl [H3]; · iexact H3
        isplitl [H4]; · iexists _; iexact H4
        iintro ⟨H0, H1, H2, H3, ⟨%e4, H4⟩⟩
        isplitl [HΦ]; · iexact HΦ
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_A_4 c _ _ _ _ _ _ _ _ _ _ _ _ _ _ _ _ _ _)
    · by_cases h2 : t.val / 8 < t.val % 8
      · exfalso; omega
      · -- case C
        rw [show (dats m q 0 c).leavesExact 4 t = owns (c : Thread nD τ) (ms0_4 t) fullShare ((dats m q 0 c).after 4 t) from by
          unfold Dat.leavesExact; rw [liveAt0_4_C t ((hcond0_0 t).mpr h0) (fun h => h1 ((hcond0_1 t).mp h)) (fun h => h2 ((hcond0_2 t).mp h))], after0_4]
        rw [outsAt0_C m c t h0 h1 h2]
        unfold out0_C_4
        iintro ⟨HΦ, Ho, ⟨%d0, H0⟩, ⟨%d1, H1⟩, ⟨%d2, H2⟩, ⟨%d3, H3⟩, ⟨%d4, H4⟩⟩
        iapply ((kernelRun0_C c (grid0.coords t) _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t)).2 Set.univ _)
        isplitl [H0]; · iexact H0
        isplitl [H1]; · iexact H1
        isplitl [H2]; · iexact H2
        isplitl [H3]; · iexact H3
        isplitl [H4]; · iexists _; iexact H4
        iintro ⟨H0, H1, H2, H3, ⟨%e4, H4⟩⟩
        isplitl [HΦ]; · iexact HΦ
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _)
  · by_cases h1 : t.val % 8 = t.val / 8
    · by_cases h2 : t.val / 8 < t.val % 8
      · exfalso; omega
      · -- case D
        rw [show (dats m q 0 c).leavesExact 4 t = owns (c : Thread nD τ) (ms0_4 t) fullShare ((dats m q 0 c).after 4 t) from by
          unfold Dat.leavesExact; rw [liveAt0_4_D t (fun h => h0 ((hcond0_0 t).mp h)) ((hcond0_1 t).mpr h1) (fun h => h2 ((hcond0_2 t).mp h))], after0_4]
        rw [outsAt0_D m c t h0 h1 h2]
        simp only [before0_4 m q c t h0]
        unfold out0_D_4
        iintro ⟨HΦ, Ho, ⟨%d0, H0⟩, ⟨%d1, H1⟩, ⟨%d2, H2⟩, ⟨%d3, H3⟩, ⟨%d4, H4⟩⟩
        iapply ((kernelRun0_D c (grid0.coords t) _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _).2 Set.univ _)
        isplitl [H0]; · iexact H0
        isplitl [H1]; · iexact H1
        isplitl [H2]; · iexact H2
        isplitl [H3]; · iexact H3
        isplitl [H4]; · iexact H4
        iintro ⟨H0, H1, H2, H3, ⟨%e4, H4⟩⟩
        isplitl [HΦ]; · iexact HΦ
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_D_4 c _ _ _ _ _ _ _ _ _ _ _ _ _ _ _ _ _ _ _)
    · by_cases h2 : t.val / 8 < t.val % 8
      · -- case B
        rw [show (dats m q 0 c).leavesExact 4 t = owns (c : Thread nD τ) (ms0_4 t) fullShare ((dats m q 0 c).after 4 t) from by
          unfold Dat.leavesExact; rw [liveAt0_4_B t (fun h => h0 ((hcond0_0 t).mp h)) (fun h => h1 ((hcond0_1 t).mp h)) ((hcond0_2 t).mpr h2)], after0_4]
        rw [outsAt0_B m c t h0 h1 h2]
        simp only [before0_4 m q c t h0]
        unfold out0_B_4
        iintro ⟨HΦ, Ho, ⟨%d0, H0⟩, ⟨%d1, H1⟩, ⟨%d2, H2⟩, ⟨%d3, H3⟩, ⟨%d4, H4⟩⟩
        iapply ((kernelRun0_B c (grid0.coords t) _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _).2 Set.univ _)
        isplitl [H0]; · iexact H0
        isplitl [H1]; · iexact H1
        isplitl [H2]; · iexact H2
        isplitl [H3]; · iexact H3
        isplitl [H4]; · iexact H4
        iintro ⟨H0, H1, H2, H3, ⟨%e4, H4⟩⟩
        isplitl [HΦ]; · iexact HΦ
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_B_4 c _ _ _ _ _ _ _ _ _ _ _ _ _ _ _ _ _ _ _)
      · -- case E
        rw [Dat.leavesExact_idle (dats m q 0 c) 4 t (idleAt0_4_E t (fun h => h0 ((hcond0_0 t).mp h)) (fun h => h1 ((hcond0_1 t).mp h)) (fun h => h2 ((hcond0_2 t).mp h))) (noFlush0_4_E t (fun h => h0 ((hcond0_0 t).mp h)) (fun h => h1 ((hcond0_1 t).mp h)) (fun h => h2 ((hcond0_2 t).mp h)))]
        iintro ⟨HΦ, Ho, ⟨%d0, H0⟩, ⟨%d1, H1⟩, ⟨%d2, H2⟩, ⟨%d3, H3⟩, ⟨%d4, H4⟩⟩
        iapply ((kernelRun0_E c (grid0.coords t) _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        iintro ⟨H0, H1, H2, H3, H4⟩
        isplitl [HΦ]; · iexact HΦ
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (q : Fin 5 → PosShare TreeShare) (c : Dev nD) : BodyObligation (dats (F := F) m q 0 c) (defs₀ (F := F)) Variants.none () Set.univ := fun t => by
  rw [bigSep_W0, bigSep_W0]
  exact sound_body m q c t

end Cert.Kernel.Hand

end
-- ==== Proof.BitsFrame.Frame.lean ====
/-
  The printed kernel program's run, assembled: the body's obligation at every grid point and the launch that deals the
  shared array's two halves to its two windows give the run; its frame claim is read off the argument, which bypasses
  the region; and for the value claim the run is restated with the result buffer at what the later host operations
  compute from the region's output array.
-/
import proofs.«153800_j78932908965970_2_alg».proof.Proof.BitsFrame.Launch
import proofs.«153800_j78932908965970_2_alg».proof.Proof.BitsFrame.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every weakly fair execution terminates; at the end each window's array holds what the write-backs left
    and each buffer that bypasses the region what the later host operations computed. -/
theorem run_all : θ_run defs (onTc (τ := τ) (main (F := F))) (s₀ m ρ) (fun r => ∀ c : Dev nD,
       (∀ w, r.2.mem ((spec0 w).arr.view.loc (c.tc : Thread nD τ)) = (dats m qs 0 c).arrAt w cfg0.N)
       ∧ ∀ b ∈ Pipeline.restRefs sig spec0, r.2.mem ((c.tc : Thread nD τ).loc b) = endVal m (dats m qs) c b) :=
  run_main m ρ (dats m qs) (fun c => (body_obligation m qs c).loose) (fun _ => rfl) (fun _ _ => rfl) (A_eq m qs) (fun _ _ => rfl)

/-- The frame claim: the program runs to the end without fault and its argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m qs) (run_all m ρ)

/-- The run with the result named: the result buffer and the argument are buffers that bypass the region. -/
theorem run_result : θ_run defs (onTc (τ := τ) (main (F := F))) ⟨m, fun _ => 0, ρ⟩ (fun r => ∀ c : Dev nD,
      r.2.mem ((c.tc : Thread nD τ).loc main_v18) = endVal m (dats m qs) c main_v18
      ∧ r.2.mem ((c.tc : Thread nD τ).loc main_arg0) = m ((c.tc : Thread nD τ).loc main_arg0)) :=
  (θ_run defs _ _).mono (fun _ h c =>
    ⟨(h c).2 main_v18 (Pipeline.mem_restRefs_of main_v18 (by decide) (by decide)),
     ((h c).2 main_arg0 (Pipeline.mem_restRefs_of main_arg0 (by decide) (by decide))).trans (endVal_main_arg0 m (dats m qs) c)⟩) (run_all m ρ)

end Cert.Kernel.Hand

end
-- ==== Proof.IdealFrame.Setup.lean ====
/-
  The region's surroundings, stated once for the idealized kernel program: what the TensorCore's buffers hold when the
  one kernel region is entered (the nine host operations before it applied to the launch memory: the row sums of
  squares, their halves as a column and as a row, the argument rounded for the matrix unit), and that the program is
  those operations, the region, and the nineteen host operations after it (the sum of the per-row-block partial sums,
  the division by n², the correction terms).
-/
import proofs.«153800_j78932908965970_2_alg».proof.Proof.Gen.KernelIdeal.Launch
import proofs.«153800_j78932908965970_2_alg».proof.Proof.Gen.KernelIdeal.Skeleton
import proofs.«153800_j78932908965970_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered, as a valuation: the launch memory after the host
    operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the earlier host operations, the region, the later host operations: it reduces to the region
    continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

end Cert.KernelIdeal.Hand

end
-- ==== Proof.IdealFrame.Launch.lean ====
/-
  The launch of the one kernel region when two of its input windows read ONE array (the rounded argument, once by row
  block and once by column block): the array's full share is dealt in two halves to the two windows at the region's
  entry, and put together again at its exit, where the later host operations run.
-/
import proofs.«153800_j78932908965970_2_alg».proof.Proof.IdealFrame.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares: the two windows on the shared array hold its two halves; every other window's array is held whole. -/
def qs : Fin 5 → PosShare TreeShare := fun
  | ⟨0, _⟩ => fullShare.left
  | ⟨1, _⟩ => fullShare.right
  | ⟨2, _⟩ => fullShare
  | ⟨3, _⟩ => fullShare
  | ⟨4, _⟩ => fullShare

/-- The four DISTINCT arrays, as a window family of their own: windows 1 to 4. -/
abbrev win' : Fin 4 → Pipeline.WinSpec sig grid0.rank := fun k => spec0 k.succ
theorem win'_inj : Function.Injective (Pipeline.arrRef win') := by decide
theorem img_eq : (Finset.univ.image (Pipeline.arrRef spec0) : Finset (Ref sig .tc)) = Finset.univ.image (Pipeline.arrRef win') := by decide

/-- The four distinct arrays conjoined one by one. -/
theorem bigSep_W4 {M : Type} [URA M] (Φ : Fin 4 → sProp M) : bigSep Finset.univ Φ = iprop(Φ (0 : Fin 4) ∗ Φ (1 : Fin 4) ∗ Φ (2 : Fin 4) ∗ Φ (3 : Fin 4)) :=
  BI.bigSep_univ_eq_bigSepL [(0 : Fin 4), (1 : Fin 4), (2 : Fin 4), (3 : Fin 4)] (by decide) (by decide) Φ

/-- The pipeline's arrays at the dealt shares are the four distinct arrays each held whole, when the two windows on the
    shared array are stated at the same contents. -/
theorem arrays_iff_pts {c : Dev nD} (dat : Dat τ (Elt F) Unit ℕ (UR sig nD τ) ℕ cfg0 c) (hq : dat.q = qs)
    (G : (w : Fin 5) → Buf (Elt F) ((cfg0.win w).arr.view.loc (c.tc : Thread nD τ))) (h01 : G 0 = G 1) :
    (dat.arrays G : sProp 𝕄) ⊣⊢ Pipeline.arrPts win' c (fun k => G k.succ) := by
  have hs0 : dat.share 0 = fullShare.left := by unfold Dat.share; rw [hq]; rfl
  have hs1 : dat.share 1 = fullShare.right := by unfold Dat.share; rw [hq]; rfl
  have hs2 : dat.share 2 = fullShare := by unfold Dat.share; rw [hq]; rfl
  have hs3 : dat.share 3 = fullShare := by unfold Dat.share; rw [hq]; rfl
  have hs4 : dat.share 4 = fullShare := by unfold Dat.share; rfl
  have h1 : (dat.arrays G : sProp 𝕄) = bigSep Finset.univ fun w : Fin 5 =>
      (((c.tc : Thread nD τ).loc (Pipeline.arrRef spec0 w)) ↦{dat.share w} G w : sProp 𝕄) := by
    unfold Dat.arrays
    exact bigSep_congr fun w _ => by rw [(arr_whole0 w).set_eq_univ]
  rw [h1]
  unfold Pipeline.arrPts
  rw [bigSep_W0, bigSep_W4]
  rw [hs0, hs1, hs2, hs3, hs4, h01]
  constructor
  · iintro ⟨Ha, Hb, H2, H3, H4⟩
    ihave H1 := (pointsTo_share (PosShare.mem_left_op_right fullShare)).2 $$ [Ha Hb]
    · isplitl [Ha] <;> iassumption
    isplitl [H1]; · iexact H1
    isplitl [H2]; · iexact H2
    isplitl [H3]; · iexact H3
    iexact H4
  · iintro ⟨H1, H2, H3, H4⟩
    ihave ⟨Ha, Hb⟩ := (pointsTo_share (PosShare.mem_left_op_right fullShare)).1 $$ H1
    isplitl [Ha]; · iexact Ha
    isplitl [Hb]; · iexact Hb
    isplitl [H2]; · iexact H2
    isplitl [H3]; · iexact H3
    iexact H4

/-- The later host operations touch only unscoped buffers: the four arrays and the buffers that bypass the region. -/
theorem sfx_sub : ∀ ops ∈ ([hostOps1] : List (List (HloOp τ sig (Elt F)))), ∀ op ∈ ops,
    op.bufs ⊆ Pipeline.tailRefs sig Pipeline.Prefetch.none win' := by
  rw [Pipeline.tailRefs_none win' (by decide)]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is none of the four arrays. -/
theorem sfx_keeps : ∀ ops ∈ ([hostOps1] : List (List (HloOp τ sig (Elt F)))), ∀ op ∈ ops,
    ∀ w, Proc.devRef .tc (Pipeline.arrRef win' w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- What core `c`'s buffers hold at the end: the later host operations applied to the region's exit contents — the four
    arrays at what the write-backs left, every other buffer at its region-entry contents. -/
def endVal (dats : (p : Fin 1) → (c : Dev nD) → Dat τ (Elt F) Unit ℕ (UR sig nD τ) ℕ (cfgs p) c) (c : Dev nD) (b : Ref sig .tc) :
    Buf (Elt F) ((c.tc : Thread nD τ).loc b) :=
  StableHlo.after ([hostOps1] : List (List (HloOp τ sig (Elt F)))).flatten
    (Pipeline.withArrays win' c (V0 m c) fun k => (dats 0 c).arrAt k.succ cfg0.N) (Proc.devRef .tc b)

/-- The buffers that bypass the region are the same whether the arrays are listed by window or by distinct array. -/
theorem restP_eq (c : Dev nD) (W : (b : Ref sig .tc) → Buf (Elt F) ((c.tc : Thread nD τ).loc b)) :
    (Pipeline.unscopedRestP Pipeline.Prefetch.none spec0 c W : sProp 𝕄) = Pipeline.unscopedRestP Pipeline.Prefetch.none win' c W := by
  unfold Pipeline.unscopedRestP; rw [img_eq]

set_option backward.isDefEq.respectTransparency.types false in
/-- THE RUN, for any proof data at the dealt shares whose body obligation holds: every weakly fair execution of the
    program terminates, and at the end every window's array holds what the write-backs left and every buffer that
    bypasses the region what the later host operations computed. -/
theorem run_main
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c, (dats 0 c).q = qs) (howed : ∀ c t, (dats 0 c).owed t = 0)
    (hA : ∀ c w, (dats 0 c).A w = V m c (Pipeline.arrRef spec0 w))
    (hΦ : ∀ c t, (dats 0 c).Φ t = Pipeline.ΦA spec0 c) :
    θ_run defs (onTc (τ := τ) (main (F := F))) (s₀ m ρ) (fun r => ∀ c : Dev nD,
       (∀ w, r.2.mem ((spec0 w).arr.view.loc (c.tc : Thread nD τ)) = (dats 0 c).arrAt w cfg0.N)
       ∧ ∀ b ∈ Pipeline.restRefs sig spec0, r.2.mem ((c.tc : Thread nD τ).loc b) = endVal m dats c b) := by
  classical
  have phinj : Function.Injective (cellOf (nD := nD) (τ := τ) (Pipeline.pin (fun q => (cfgs q).toPCfg (Val := Elt F)) (fun q => (cfgs q).toPCfg_adm))) := cellOf_inj
  -- the two windows on the shared array are inputs: both hold its entry contents throughout
  have h01 : ∀ c n, (dats 0 c).arrAt 0 n = (dats 0 c).arrAt 1 n := fun c n => by
    rw [(dats 0 c).arrAt_in 0 rfl n, (dats 0 c).arrAt_in 1 rfl n, hA, hA]
  exact Pipeline.θ_run_region_pf_tail (fun q => (cfgs q).toPCfg (Val := Elt F)) (fun q => (cfgs q).toPCfg_adm) dats () phinj 0
    winFacts₀0 (Pipeline.OwnSemFacts.none spec0) (Pipeline.PreFacts.none spec0) emb₁ defs₀ Variants.none m ρ main
    (fun _ => Pipeline.chain [StableHlo.seq hostOps1]) hbody block_pos0 arr_whole0 stage_whole0 howed
    (G := fun _ => iprop(emp)) (u₀ := initOf (Pipeline.cells _ phinj) (Pipeline.launchToks _ phinj))
    (hu₀ := by
      iintro Hu; imodintro
      isplitl [Hu]; · iapply (show (ownU _ : sProp 𝕄) ⊢ BI.own (emb₁ (initOf (Pipeline.cells _ phinj) (Pipeline.launchToks _ phinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      refine .trans ?_ (arrays_iff_pts (dats 0 c) (hq c) (fun w => (dats 0 c).arrAt w 0) (h01 c 0)).2
      unfold Pipeline.arrBufs Pipeline.arrPts
      rw [img_eq, show Finset.univ.image (Pipeline.arrRef win') = Finset.univ.map ⟨Pipeline.arrRef win', win'_inj⟩ from
        (Finset.map_eq_image ⟨Pipeline.arrRef win', win'_inj⟩ Finset.univ).symm, bigSep_map]
      exact Entails.of_eq (bigSep_congr fun k _ => by
        show _ = ((c.tc : Thread nD τ).loc (Pipeline.arrRef win' k) ↦{fullShare} (dats 0 c).A k.succ : sProp 𝕄)
        rw [hA]; rfl))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (endVal m dats c))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      have e := arrays_iff_pts (dats 0 c) (hq c) (fun w => (dats 0 c).arrAt w cfg0.N) (h01 c cfg0.N)
      rw [restP_eq, restP_eq]
      have ht := Pipeline.tail_seqs (fun q => (cfgs q).toPCfg (Val := Elt F)) (defs₀ (F := F)) Variants.none Pipeline.Prefetch.none win' win'_inj c
        (V0 m c) (fun k => (dats 0 c).arrAt k.succ cfg0.N) [hostOps1] sfx_sub sfx_fresh sfx_keeps Q'
      refine .trans ?_ ht
      iintro ⟨Hk, Hb, Ha, Hz⟩
      isplitl [Hk]
      · iintro ⟨Ha, Hz⟩
        iapply Hk
        isplitl [Ha]; · iapply e.2; iexact Ha
        iexact Hz
      isplitl [Hb]; · iexact Hb
      isplitl [Ha]; · iapply e.1; iexact Ha
      iexact Hz)
    (QY := fun c s => ∀ b ∈ Pipeline.restRefsP sig Pipeline.Prefetch.none spec0, s.mem ((c.tc : Thread nD τ).loc b) = endVal m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (endVal m dats c) s')
      isplitl [HU] <;> iassumption)
    (hQ := fun s h c => ⟨(h c).1, Pipeline.rest_of_restP Pipeline.Prefetch.none spec0 ((cfgs 0).toPCfg_adm (Val := Elt F)).1 c (endVal m dats c) s
      (fun k => k.elim0) (h c).2.1 (h c).2.2⟩)

/-- No host operation before the region writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any host operation after it, and it is none of the four arrays: it ends as launched. -/
theorem endVal_main_arg0 (dats : (p : Fin 1) → (c : Dev nD) → Dat τ (Elt F) Unit ℕ (UR sig nD τ) ℕ (cfgs p) c) (c : Dev nD) :
    endVal m dats c main_arg0 = m ((c : Thread nD τ).loc main_arg0) := by
  unfold endVal
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef win' w ≠ main_arg0))]
  exact V_main_arg0 m c

/-- The frame claim's post from the run's: the argument is a buffer that bypasses the region, read back at the end. -/
theorem frame_of (dats : (p : Fin 1) → (c : Dev nD) → Dat τ (Elt F) Unit ℕ (UR sig nD τ) ℕ (cfgs p) c)
    (h : θ_run defs (onTc (τ := τ) (main (F := F))) (s₀ m ρ) (fun r => ∀ c : Dev nD,
       (∀ w, r.2.mem ((spec0 w).arr.view.loc (c.tc : Thread nD τ)) = (dats 0 c).arrAt w cfg0.N)
       ∧ ∀ b ∈ Pipeline.restRefs sig spec0, r.2.mem ((c.tc : Thread nD τ).loc b) = endVal m dats c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (endVal_main_arg0 m dats c))) h

end Cert.KernelIdeal.Hand

end
-- ==== Proof.IdealFrame.Kit.lean ====
/-
  What the case-by-case runs of the kernel body share. A grid point t has the row-block index i = t / 8 and the
  column-block index j = t % 8; the body zeroes the row block's partial sum at j = 0, adds the diagonal tile's sum
  (diagonal entries taken at exp 0 = 1) at j = i, adds twice the tile's sum at j > i (the matrix is symmetric: the
  tile below the diagonal is never visited), and does nothing at 0 < j < i. Stated here: the windows' blocks read
  off the arrays as the region finds them; each input's staging buffer at its block at every point; the three
  branch conditions in closed form over the grid; where the output window is live, idle, written back; the staging
  memrefs as the body is called with them.
-/
import proofs.«153800_j78932908965970_2_alg».proof.Proof.IdealFrame.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: unfetched, the block
    index has not moved. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: unfetched, the block
    index has not moved. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: unfetched, the block
    index has not moved. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: unfetched, the block
    index has not moved. The window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (the partial sum is zeroed): the column-block index is 0. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (the diagonal tile): the column-block index is the row-block index. -/
abbrev cond0_1 (i : grid0.Coords) : Prop := k0_cond2 i = 1#1
theorem hcond0_1 : ∀ t : Fin cfg0.N, cond0_1 (grid0.coords t) ↔ t.val % 8 = t.val / 8 :=
  (by decide +kernel : ∀ t : Fin grid0.N, cond0_1 (grid0.coords t) ↔ t.val % 8 = t.val / 8)

/-- The third branch (a tile strictly above the diagonal): the column-block index exceeds the row-block index. -/
abbrev cond0_2 (i : grid0.Coords) : Prop := k0_cond3 i = 1#1
theorem hcond0_2 : ∀ t : Fin cfg0.N, cond0_2 (grid0.coords t) ↔ t.val / 8 < t.val % 8 :=
  (by decide +kernel : ∀ t : Fin grid0.N, cond0_2 (grid0.coords t) ↔ t.val / 8 < t.val % 8)

/-! ## Where the windows are idle, and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- The output window is idle exactly at the points below the diagonal and off the first column: no branch is taken. -/
theorem idle0_4_iff : ∀ t : Fin cfg0.N, cfg0.idle 4 (grid0.coords t) = true ↔ (¬t.val % 8 = 0 ∧ ¬t.val % 8 = t.val / 8 ∧ ¬t.val / 8 < t.val % 8) :=
  (by decide +kernel : ∀ t : Fin grid0.N, cfg0.idle 4 (grid0.coords t) = true ↔ (¬t.val % 8 = 0 ∧ ¬t.val % 8 = t.val / 8 ∧ ¬t.val / 8 < t.val % 8))

/-- Case A (first column, on the diagonal): the output is stored into. -/
theorem liveAt0_4_A : ∀ t : Fin cfg0.N, cond0_0 (grid0.coords t) → cond0_1 (grid0.coords t) → ¬cond0_2 (grid0.coords t) → cfg0.idle 4 (grid0.coords t) = false := by decide +kernel
/-- Case B (strictly above the diagonal): the output is stored into. -/
theorem liveAt0_4_B : ∀ t : Fin cfg0.N, ¬cond0_0 (grid0.coords t) → ¬cond0_1 (grid0.coords t) → cond0_2 (grid0.coords t) → cfg0.idle 4 (grid0.coords t) = false := by decide +kernel
/-- Case C (first column, below the diagonal): the output is stored into. -/
theorem liveAt0_4_C : ∀ t : Fin cfg0.N, cond0_0 (grid0.coords t) → ¬cond0_1 (grid0.coords t) → ¬cond0_2 (grid0.coords t) → cfg0.idle 4 (grid0.coords t) = false := by decide +kernel
/-- Case D (on the diagonal, off the first column): the output is stored into. -/
theorem liveAt0_4_D : ∀ t : Fin cfg0.N, ¬cond0_0 (grid0.coords t) → cond0_1 (grid0.coords t) → ¬cond0_2 (grid0.coords t) → cfg0.idle 4 (grid0.coords t) = false := by decide +kernel
/-- Case E (below the diagonal, off the first column): nothing is stored, the output is idle, -/
theorem idleAt0_4_E : ∀ t : Fin cfg0.N, ¬cond0_0 (grid0.coords t) → ¬cond0_1 (grid0.coords t) → ¬cond0_2 (grid0.coords t) → cfg0.idle 4 (grid0.coords t) = true := by decide +kernel
/-- and its block is not written back there (the write-back is at the last column, which is on or above the diagonal). -/
theorem noFlush0_4_E : ∀ t : Fin cfg0.N, ¬cond0_0 (grid0.coords t) → ¬cond0_1 (grid0.coords t) → ¬cond0_2 (grid0.coords t) → (cfg0.win 4).flush t = false := by decide +kernel

/-! ## The staging memrefs the body is called with -/

/-- One staging buffer of the output window, through which its contents are stated (the choice does not matter). -/
abbrev VO0_4 : View sig .tc .vmem S1x1x128 .f32 := (Memref.whole cc0_stg4_0 : Memref sig .tc .vmem S1x1x128 .f32).view
/-- Each window's current staging memref at point `t`, spelled as the pipeline passes it, and its wholeness. -/
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

/-- The region's invariant: there is no scratch operand, so the scoped rest is empty and what remains is the
    generator register at some state. -/
theorem PhiA0_eq (c : Dev nD) :
    (Pipeline.ΦA spec0 c : sProp 𝕄) = iprop((BI.emp : sProp 𝕄) ∗ (∃ r, prngReg c r)) := by
  unfold Pipeline.ΦA; rw [scopedRest0_eq]

end Cert.KernelIdeal.Hand

end
-- ==== Proof.IdealFrame.RunA.lean ====
/-
  The kernel body at a point of case A: first column and on the diagonal (the first grid point). The row block's
  partial sum is zeroed, then the diagonal tile's sum is added into lane 0: two stores, each of the whole block, so
  what the buffer held before does not matter.
-/
import proofs.«153800_j78932908965970_2_alg».proof.Proof.IdealFrame.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case A (last first), with the proof that on
    whole staging memrefs, the inputs' at their contents, the body runs to the continuation holding the inputs' as they
    were and the output's buffer with the pieces written. -/
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : cond0_1 i) (hc2 : ¬cond0_2 i)
    (x0 : Vec F S1024x256 .bf16) (x1 : Vec F S1024x256 .bf16) (x2 : Vec F S1024x1 .f32) (x3 : Vec F S1x1024 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.IdealFrame.RunB.lean ====
/-
  The kernel body at a point of case B: a tile strictly above the diagonal. The body loads the running partial sum,
  adds twice the tile's sum into lane 0 (the tile's mirror image below the diagonal is never visited) and stores it:
  one store of the whole block, computed from what the point before left.
-/
import proofs.«153800_j78932908965970_2_alg».proof.Proof.IdealFrame.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case B (last first), with the proof that on
    whole staging memrefs, the inputs' at their contents, the body runs to the continuation holding the inputs' as they
    were and the output's buffer with the pieces written. -/
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : cond0_2 i)
    (x0 : Vec F S1024x256 .bf16) (x1 : Vec F S1024x256 .bf16) (x2 : Vec F S1024x1 .f32) (x3 : Vec F S1x1024 .f32) (xo4 : Vec F S1x1x128 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.IdealFrame.RunC.lean ====
/-
  The kernel body at a point of case C: first column, below the diagonal. The row block's partial sum is zeroed: one
  store of the whole block, whatever the buffer held.
-/
import proofs.«153800_j78932908965970_2_alg».proof.Proof.IdealFrame.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case C (last first), with the proof that on
    whole staging memrefs, the inputs' at their contents, the body runs to the continuation holding the inputs' as they
    were and the output's buffer with the pieces written. -/
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : ¬cond0_1 i) (hc2 : ¬cond0_2 i)
    (x0 : Vec F S1024x256 .bf16) (x1 : Vec F S1024x256 .bf16) (x2 : Vec F S1024x1 .f32) (x3 : Vec F S1x1024 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.IdealFrame.RunD.lean ====
/-
  The kernel body at a point of case D: on the diagonal, off the first column. The body loads the running partial
  sum, adds the diagonal tile's sum (the diagonal entries taken at exp 0 = 1) into lane 0 and stores it: one store of
  the whole block, computed from what the point before left.
-/
import proofs.«153800_j78932908965970_2_alg».proof.Proof.IdealFrame.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case D (last first), with the proof that on
    whole staging memrefs, the inputs' at their contents, the body runs to the continuation holding the inputs' as they
    were and the output's buffer with the pieces written. -/
noncomputable def kernelRun0_D (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : cond0_1 i) (hc2 : ¬cond0_2 i)
    (x0 : Vec F S1024x256 .bf16) (x1 : Vec F S1024x256 .bf16) (x2 : Vec F S1024x1 .f32) (x3 : Vec F S1x1024 .f32) (xo4 : Vec F S1x1x128 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.IdealFrame.RunE.lean ====
/-
  The kernel body at a point of case E: below the diagonal, off the first column. No branch is taken: the body
  touches no buffer, and every staging memref is handed on as it was found.
-/
import proofs.«153800_j78932908965970_2_alg».proof.Proof.IdealFrame.RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output's staging memref in case E (last first), with the proof that on
    whole staging memrefs, the inputs' at their contents, the body runs to the continuation holding the inputs' as they
    were and the output's buffer with the pieces written (none: the buffer is handed on at the contents it was found at). -/
noncomputable def kernelRun0_E (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : ¬cond0_2 i)
    (x0 : Vec F S1024x256 .bf16) (x1 : Vec F S1024x256 .bf16) (x2 : Vec F S1024x1 .f32) (x3 : Vec F S1x1024 .f32) :
    { L4 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4) -∗ K ⟨⟩))
          ⊢ wp frame (wpE (defs₀ (F := F)) Variants.none c none) E (cc0__mmd_kernel i arg2 harg2 arg3 harg3 arg4 harg4 arg5 harg5 arg6 harg6) K } := by
  refine ⟨[], fun xi4 E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4

end Cert.KernelIdeal.Hand

end
-- ==== Proof.IdealFrame.Body.lean ====
/-
  The body side of the frame: what the output's staging buffer holds after the body at every grid point, the proof
  data of the pipeline, and the body obligation. Along a row block i the buffer is zeroed at column block 0 (and, for
  i = 0, the diagonal tile's sum added at once), left alone at 0 < j < i, has the diagonal tile's sum added at j = i and
  twice the tile's sum at each j > i, and is written back after j = 7; so before the body at any point with j ≠ 0 it
  holds what the body left at the point before, through the points where nothing is stored as well.
-/
import proofs.«153800_j78932908965970_2_alg».proof.Proof.IdealFrame.RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves in the output's buffer -/

/-- Case A's pieces for the output tile its block (two stores of the whole block), so they cover it. -/
theorem cover0_A_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : cond0_1 i) (hc2 : ¬cond0_2 i)
    (x0 : Vec F S1024x256 .bf16) (x1 : Vec F S1024x256 .bf16) (x2 : Vec F S1024x1 .f32) (x3 : Vec F S1x1024 .f32) (y : S1x1x128.Idx) :
    ∃ pc ∈ (kernelRun0_A c i arg2 harg2 arg3 harg3 arg4 harg4 arg5 harg5 arg6 harg6 hc0 hc1 hc2 x0 x1 x2 x3).1, y ∈ pc.1.set :=
  View.cover_of_tiledL (kernelRun0_A c i arg2 harg2 arg3 harg3 arg4 harg4 arg5 harg5 arg6 harg6 hc0 hc1 hc2 x0 x1 x2 x3).1 S1x1x128.size (by sl_kernel_rfl) y

/-- What case A leaves in the output's staging buffer: its pieces read back over junk. -/
def out0_A_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : cond0_1 i) (hc2 : ¬cond0_2 i)
    (x0 : Vec F S1024x256 .bf16) (x1 : Vec F S1024x256 .bf16) (x2 : Vec F S1024x1 .f32) (x3 : Vec F S1x1024 .f32) : Vec F S1x1x128 .f32 :=
  VO0_4.read (Elt F) (VO0_4.writes (Elt F) VO0_4.junk (kernelRun0_A c i arg2 harg2 arg3 harg3 arg4 harg4 arg5 harg5 arg6 harg6 hc0 hc1 hc2 x0 x1 x2 x3).1)

/-- Case B's pieces for the output tile its block (one store of the whole block), so they cover it. -/
theorem cover0_B_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : cond0_2 i)
    (x0 : Vec F S1024x256 .bf16) (x1 : Vec F S1024x256 .bf16) (x2 : Vec F S1024x1 .f32) (x3 : Vec F S1x1024 .f32) (xo4 : Vec F S1x1x128 .f32) (y : S1x1x128.Idx) :
    ∃ pc ∈ (kernelRun0_B c i arg2 harg2 arg3 harg3 arg4 harg4 arg5 harg5 arg6 harg6 hc0 hc1 hc2 x0 x1 x2 x3 xo4).1, y ∈ pc.1.set :=
  View.cover_of_tiledL (kernelRun0_B c i arg2 harg2 arg3 harg3 arg4 harg4 arg5 harg5 arg6 harg6 hc0 hc1 hc2 x0 x1 x2 x3 xo4).1 S1x1x128.size (by sl_kernel_rfl) y

/-- What case B leaves in the output's staging buffer: its pieces read back over junk. -/
def out0_B_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : cond0_2 i)
    (x0 : Vec F S1024x256 .bf16) (x1 : Vec F S1024x256 .bf16) (x2 : Vec F S1024x1 .f32) (x3 : Vec F S1x1024 .f32) (xo4 : Vec F S1x1x128 .f32) : Vec F S1x1x128 .f32 :=
  VO0_4.read (Elt F) (VO0_4.writes (Elt F) VO0_4.junk (kernelRun0_B c i arg2 harg2 arg3 harg3 arg4 harg4 arg5 harg5 arg6 harg6 hc0 hc1 hc2 x0 x1 x2 x3 xo4).1)

/-- Case C's pieces for the output tile its block (one store of the whole block), so they cover it. -/
theorem cover0_C_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : ¬cond0_1 i) (hc2 : ¬cond0_2 i)
    (x0 : Vec F S1024x256 .bf16) (x1 : Vec F S1024x256 .bf16) (x2 : Vec F S1024x1 .f32) (x3 : Vec F S1x1024 .f32) (y : S1x1x128.Idx) :
    ∃ pc ∈ (kernelRun0_C c i arg2 harg2 arg3 harg3 arg4 harg4 arg5 harg5 arg6 harg6 hc0 hc1 hc2 x0 x1 x2 x3).1, y ∈ pc.1.set :=
  View.cover_of_tiledL (kernelRun0_C c i arg2 harg2 arg3 harg3 arg4 harg4 arg5 harg5 arg6 harg6 hc0 hc1 hc2 x0 x1 x2 x3).1 S1x1x128.size (by sl_kernel_rfl) y

/-- What case C leaves in the output's staging buffer: its pieces read back over junk. -/
def out0_C_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : ¬cond0_1 i) (hc2 : ¬cond0_2 i)
    (x0 : Vec F S1024x256 .bf16) (x1 : Vec F S1024x256 .bf16) (x2 : Vec F S1024x1 .f32) (x3 : Vec F S1x1024 .f32) : Vec F S1x1x128 .f32 :=
  VO0_4.read (Elt F) (VO0_4.writes (Elt F) VO0_4.junk (kernelRun0_C c i arg2 harg2 arg3 harg3 arg4 harg4 arg5 harg5 arg6 harg6 hc0 hc1 hc2 x0 x1 x2 x3).1)

/-- Case D's pieces for the output tile its block (one store of the whole block), so they cover it. -/
theorem cover0_D_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : cond0_1 i) (hc2 : ¬cond0_2 i)
    (x0 : Vec F S1024x256 .bf16) (x1 : Vec F S1024x256 .bf16) (x2 : Vec F S1024x1 .f32) (x3 : Vec F S1x1024 .f32) (xo4 : Vec F S1x1x128 .f32) (y : S1x1x128.Idx) :
    ∃ pc ∈ (kernelRun0_D c i arg2 harg2 arg3 harg3 arg4 harg4 arg5 harg5 arg6 harg6 hc0 hc1 hc2 x0 x1 x2 x3 xo4).1, y ∈ pc.1.set :=
  View.cover_of_tiledL (kernelRun0_D c i arg2 harg2 arg3 harg3 arg4 harg4 arg5 harg5 arg6 harg6 hc0 hc1 hc2 x0 x1 x2 x3 xo4).1 S1x1x128.size (by sl_kernel_rfl) y

/-- What case D leaves in the output's staging buffer: its pieces read back over junk. -/
def out0_D_4 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : cond0_1 i) (hc2 : ¬cond0_2 i)
    (x0 : Vec F S1024x256 .bf16) (x1 : Vec F S1024x256 .bf16) (x2 : Vec F S1024x1 .f32) (x3 : Vec F S1x1024 .f32) (xo4 : Vec F S1x1x128 .f32) : Vec F S1x1x128 .f32 :=
  VO0_4.read (Elt F) (VO0_4.writes (Elt F) VO0_4.junk (kernelRun0_D c i arg2 harg2 arg3 harg3 arg4 harg4 arg5 harg5 arg6 harg6 hc0 hc1 hc2 x0 x1 x2 x3 xo4).1)

/-! ## What the output holds after each point -/

/-- THE ACCUMULATION. What the output's staging buffer holds after the body at position `n`: the case the closed
    forms select there, run at the point's memrefs and input blocks; a case that adds into the buffer (B, D) takes
    what this gives at `n - 1`, and where nothing is stored (E) the buffer still holds that. An assignment of the
    conditions no point meets is no case. -/
def outsAt0 (c : Dev nD) : (n : ℕ) → n < cfg0.N → Vec F S1x1x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) ((hcond0_1 ⟨0, hn⟩).mpr (by show 0 % 8 = 0 / 8; rfl)) (fun h => absurd ((hcond0_2 ⟨0, hn⟩).mp h) (by show ¬(0 / 8 < 0 % 8); decide)) (iblk m c 0 ⟨0, hn⟩) (iblk m c 1 ⟨0, hn⟩) (iblk m c 2 ⟨0, hn⟩) (iblk m c 3 ⟨0, hn⟩)
  | n + 1, hn =>
    if h0 : (n + 1) % 8 = 0 then
      if h1 : (n + 1) % 8 = (n + 1) / 8 then
        if h2 : (n + 1) / 8 < (n + 1) % 8 then False.elim (by omega)
        else out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩)
      else
        if h2 : (n + 1) / 8 < (n + 1) % 8 then False.elim (by omega)
        else out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 8 = (n + 1) / 8 then
        if h2 : (n + 1) / 8 < (n + 1) % 8 then False.elim (by omega)
        else out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        if h2 : (n + 1) / 8 < (n + 1) % 8 then out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
        else outsAt0 c n (Nat.lt_of_succ_lt hn)

/-- `outsAt0` at a point of case A: the partial sum zeroed, the diagonal tile's sum added. -/
theorem outsAt0_A (c : Dev nD) (t : Fin cfg0.N) (h0 : t.val % 8 = 0) (h1 : t.val % 8 = t.val / 8) (h2 : ¬t.val / 8 < t.val % 8) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) ((hcond0_1 t).mpr h1) (fun h => h2 ((hcond0_2 t).mp h)) (iblk m c 0 t) (iblk m c 1 t) (iblk m c 2 t) (iblk m c 3 t) := by
  obtain ⟨n, hn⟩ := t
  cases n with
  | zero => exact rfl
  | succ n => exact (dif_pos h0).trans ((dif_pos h1).trans ((dif_neg h2).trans (rfl)))

/-- `outsAt0` at a point of case B: twice the tile's sum added to what the point before left. -/
theorem outsAt0_B (c : Dev nD) (t : Fin cfg0.N) (h0 : ¬t.val % 8 = 0) (h1 : ¬t.val % 8 = t.val / 8) (h2 : t.val / 8 < t.val % 8) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; exact h0 (Nat.zero_mod _))
  | succ n => exact (dif_neg h0).trans ((dif_neg h1).trans ((dif_pos h2).trans (rfl)))

/-- `outsAt0` at a point of case C: the partial sum zeroed. -/
theorem outsAt0_C (c : Dev nD) (t : Fin cfg0.N) (h0 : t.val % 8 = 0) (h1 : ¬t.val % 8 = t.val / 8) (h2 : ¬t.val / 8 < t.val % 8) :
    outsAt0 m c t.val t.isLt = out0_C_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (fun h => h2 ((hcond0_2 t).mp h)) (iblk m c 0 t) (iblk m c 1 t) (iblk m c 2 t) (iblk m c 3 t) := by
  obtain ⟨n, hn⟩ := t
  cases n with
  | zero => exact (by exfalso; exact h1 (by show 0 % 8 = 0 / 8; rfl))
  | succ n => exact (dif_pos h0).trans ((dif_neg h1).trans ((dif_neg h2).trans (rfl)))

/-- `outsAt0` at a point of case D: the diagonal tile's sum added to what the point before left. -/
theorem outsAt0_D (c : Dev nD) (t : Fin cfg0.N) (h0 : ¬t.val % 8 = 0) (h1 : t.val % 8 = t.val / 8) (h2 : ¬t.val / 8 < t.val % 8) :
    outsAt0 m c t.val t.isLt = out0_D_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; exact h0 (Nat.zero_mod _))
  | succ n => exact (dif_neg h0).trans ((dif_pos h1).trans ((dif_neg h2).trans (rfl)))

/-- `outsAt0` at a point of case E: nothing stored: what the point before left. -/
theorem outsAt0_E (c : Dev nD) (t : Fin cfg0.N) (h0 : ¬t.val % 8 = 0) (h1 : ¬t.val % 8 = t.val / 8) (h2 : ¬t.val / 8 < t.val % 8) :
    outsAt0 m c t.val t.isLt = outsAt0 m c (t.val - 1) (Nat.lt_of_le_of_lt (Nat.sub_le _ _) t.isLt) := by
  obtain ⟨n, hn⟩ := t
  cases n with
  | zero => exact (by exfalso; exact h0 (Nat.zero_mod _))
  | succ n => exact (dif_neg h0).trans ((dif_neg h1).trans ((dif_neg h2).trans (rfl)))

/-! ## The pipeline's proof data -/

/-- The proof data of the one pipeline on core `c`: the arrays as the region finds them (`V`); after the body at
    point `t` each input's buffer at its block and the output's at `outsAt0`; the invariant the scoped rest and the
    generator register; nothing owed; the input arrays held at the shares `q`. -/
def dats (q : Fin 5 → PosShare TreeShare) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q := q
  owed _ := 0

/-- The proof data's arrays are the region-entry contents. -/
theorem A_eq (q : Fin 5 → PosShare TreeShare) (c : Dev nD) (w : Fin cfg0.W) : (dats m q 0 c).A w = V m c (Pipeline.arrRef spec0 w) := by
  dsimp only [dats]

/-- What the body leaves, window by window. -/
theorem after0_0 (q : Fin 5 → PosShare TreeShare) (c : Dev nD) (t : Fin cfg0.N) : (dats m q 0 c).after 0 t = iblk m c 0 t := by dsimp only [dats]
theorem after0_1 (q : Fin 5 → PosShare TreeShare) (c : Dev nD) (t : Fin cfg0.N) : (dats m q 0 c).after 1 t = iblk m c 1 t := by dsimp only [dats]
theorem after0_2 (q : Fin 5 → PosShare TreeShare) (c : Dev nD) (t : Fin cfg0.N) : (dats m q 0 c).after 2 t = iblk m c 2 t := by dsimp only [dats]
theorem after0_3 (q : Fin 5 → PosShare TreeShare) (c : Dev nD) (t : Fin cfg0.N) : (dats m q 0 c).after 3 t = iblk m c 3 t := by dsimp only [dats]
theorem after0_4 (q : Fin 5 → PosShare TreeShare) (c : Dev nD) (t : Fin cfg0.N) : (dats m q 0 c).after 4 t = outsAt0 m c t.val t.isLt := by dsimp only [dats]

/-- Each input's current staging buffer holds its block at every point, fetched there or not. -/
theorem before0_0 (q : Fin 5 → PosShare TreeShare) (c : Dev nD) (t : Fin cfg0.N) (d) : (dats m q 0 c).before 0 t d = iblk m c 0 t :=
  before0_0_of m (dats m q 0 c) (A_eq m q c 0) (after0_0 m q c) t d
theorem before0_1 (q : Fin 5 → PosShare TreeShare) (c : Dev nD) (t : Fin cfg0.N) (d) : (dats m q 0 c).before 1 t d = iblk m c 1 t :=
  before0_1_of m (dats m q 0 c) (A_eq m q c 1) (after0_1 m q c) t d
theorem before0_2 (q : Fin 5 → PosShare TreeShare) (c : Dev nD) (t : Fin cfg0.N) (d) : (dats m q 0 c).before 2 t d = iblk m c 2 t :=
  before0_2_of m (dats m q 0 c) (A_eq m q c 2) (after0_2 m q c) t d
theorem before0_3 (q : Fin 5 → PosShare TreeShare) (c : Dev nD) (t : Fin cfg0.N) (d) : (dats m q 0 c).before 3 t d = iblk m c 3 t :=
  before0_3_of m (dats m q 0 c) (A_eq m q c 3) (after0_3 m q c) t d

/-! ## The output's buffer before the body, off the first column -/

/-- Off the first column the output's buffer is not fresh: the point is not the first and the point before did not
    write the block back (the write-back is after the last column), so the buffer holds what that point left. -/
theorem before4_step {c : Dev nD} (dat : Dat τ (Elt F) Unit ℕ (UR sig nD τ) ℕ cfg0 c) (t : Fin cfg0.N) (ht : ¬t.val % 8 = 0) (d) :
    dat.before 4 t d = dat.left 4 ⟨t.val - 1, Nat.lt_of_le_of_lt (Nat.sub_le _ _) t.isLt⟩ d := by
  have ht0 : t.val ≠ 0 := fun h => ht (by rw [h])
  rw [dat.before_of_pos 4 t ht0 ((cfg0.win 4).fetch_out rfl t), if_neg]
  intro hfl
  have h7 := (flush0_4 _).mp hfl
  dsimp only at h7
  omega

/-- At a point where the output is stored into, what the body leaves for the next point is all of `after` (the window is uncut). -/
theorem left4_live {c : Dev nD} (dat : Dat τ (Elt F) Unit ℕ (UR sig nD τ) ℕ cfg0 c) (t : Fin cfg0.N) (hl : cfg0.idle 4 (grid0.coords t) = false) (d) :
    dat.left 4 t d = dat.after 4 t := by
  unfold Dat.left; rw [hl]; dsimp only
  unfold Dat.kept
  rw [Pipeline.fill_of_clip_none (cfg := cfg0) 4 _ (fun _ => rfl) d (dat.after 4 t), Window.fill_cut]

/-- At a point where nothing is stored into the output, the body leaves what it found. -/
theorem left4_idle {c : Dev nD} (dat : Dat τ (Elt F) Unit ℕ (UR sig nD τ) ℕ cfg0 c) (t : Fin cfg0.N) (hi : cfg0.idle 4 (grid0.coords t) = true) (d) :
    dat.left 4 t d = dat.before 4 t d := by
  unfold Dat.left; rw [hi]

/-- Off the first column the output's current staging buffer holds `outsAt0` at the point before: directly when that
    point stored into it, and through a run of points that store nothing by induction on the point (such a point is
    itself off the first column, and `outsAt0` there is `outsAt0` at the point before it). -/
theorem before0_4_pos (q : Fin 5 → PosShare TreeShare) (c : Dev nD) (n : ℕ) : ∀ (hn : n < cfg0.N), ¬n % 8 = 0 → ∀ d,
    (dats m q 0 c).before 4 ⟨n, hn⟩ d = outsAt0 m c (n - 1) (Nat.lt_of_le_of_lt (Nat.sub_le _ _) hn) := by
  induction n using Nat.strong_induction_on with
  | _ n ih =>
    intro hn hj d
    rw [before4_step (dats m q 0 c) ⟨n, hn⟩ hj d]
    cases hi : cfg0.idle 4 (grid0.coords ⟨n - 1, Nat.lt_of_le_of_lt (Nat.sub_le _ _) hn⟩)
    · rw [left4_live _ _ hi, after0_4]
    · rw [left4_idle _ _ hi]
      have hc := (idle0_4_iff ⟨n - 1, Nat.lt_of_le_of_lt (Nat.sub_le _ _) hn⟩).mp hi
      dsimp only at hc
      rw [ih (n - 1) (by omega) (Nat.lt_of_le_of_lt (Nat.sub_le _ _) hn) hc.1 d]
      exact (outsAt0_E m c ⟨n - 1, Nat.lt_of_le_of_lt (Nat.sub_le _ _) hn⟩ hc.1 hc.2.1 hc.2.2).symm

theorem before0_4 (q : Fin 5 → PosShare TreeShare) (c : Dev nD) (t : Fin cfg0.N) (h0 : ¬t.val % 8 = 0) (d) :
    (dats m q 0 c).before 4 t d = outsAt0 m c (t.val - 1) (Nat.lt_of_le_of_lt (Nat.sub_le _ _) t.isLt) :=
  before0_4_pos m q c t.val t.isLt h0 d

/-! ## The body obligation, at a generic point -/

/-- What the body is called with at point `t`, the windows one by one, -/
def bodyPre (q : Fin 5 → PosShare TreeShare) (c : Dev nD) (t : Fin cfg0.N) : sProp 𝕄 :=
  iprop((dats m q 0 c).Φ t.castSucc ∗ (dats m q 0 c).owesAt () t.castSucc
    ∗ (∃ d, owns (c : Thread nD τ) (ms0_0 t) fullShare ((dats m q 0 c).before 0 t d))
    ∗ (∃ d, owns (c : Thread nD τ) (ms0_1 t) fullShare ((dats m q 0 c).before 1 t d))
    ∗ (∃ d, owns (c : Thread nD τ) (ms0_2 t) fullShare ((dats m q 0 c).before 2 t d))
    ∗ (∃ d, owns (c : Thread nD τ) (ms0_3 t) fullShare ((dats m q 0 c).before 3 t d))
    ∗ (∃ d, owns (c : Thread nD τ) (ms0_4 t) fullShare ((dats m q 0 c).before 4 t d)))

/-- and what it returns. -/
def bodyPost (q : Fin 5 → PosShare TreeShare) (c : Dev nD) (t : Fin cfg0.N) : sProp 𝕄 :=
  iprop((dats m q 0 c).Φ t.succ ∗ (dats m q 0 c).owesAt () t.succ
    ∗ (dats m q 0 c).leavesExact 0 t
    ∗ (dats m q 0 c).leavesExact 1 t
    ∗ (dats m q 0 c).leavesExact 2 t
    ∗ (dats m q 0 c).leavesExact 3 t
    ∗ (dats m q 0 c).leavesExact 4 t)

set_option maxHeartbeats 4000000 in
/-- The body at any point: the inputs' memrefs hold their blocks; the closed forms say which case the point is in; a
    case that adds into the output finds there what the point before left; so that case's run applies; the invariant
    passes through unread; the core owes nothing throughout. -/
theorem sound_body (q : Fin 5 → PosShare TreeShare) (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before0_0, before0_1, before0_2, before0_3]
  rw [show (dats m q 0 c).Φ t.succ = (dats m q 0 c).Φ t.castSucc from rfl,
    show (dats m q 0 c).owesAt () t.succ = (dats m q 0 c).owesAt () t.castSucc from rfl]
  rw [show (dats m q 0 c).leavesExact 0 t = owns (c : Thread nD τ) (ms0_0 t) fullShare ((dats m q 0 c).after 0 t) from by
    unfold Dat.leavesExact; rw [liveAt0_0 t], after0_0]
  rw [show (dats m q 0 c).leavesExact 1 t = owns (c : Thread nD τ) (ms0_1 t) fullShare ((dats m q 0 c).after 1 t) from by
    unfold Dat.leavesExact; rw [liveAt0_1 t], after0_1]
  rw [show (dats m q 0 c).leavesExact 2 t = owns (c : Thread nD τ) (ms0_2 t) fullShare ((dats m q 0 c).after 2 t) from by
    unfold Dat.leavesExact; rw [liveAt0_2 t], after0_2]
  rw [show (dats m q 0 c).leavesExact 3 t = owns (c : Thread nD τ) (ms0_3 t) fullShare ((dats m q 0 c).after 3 t) from by
    unfold Dat.leavesExact; rw [liveAt0_3 t], after0_3]
  by_cases h0 : t.val % 8 = 0
  · by_cases h1 : t.val % 8 = t.val / 8
    · by_cases h2 : t.val / 8 < t.val % 8
      · exfalso; omega
      · -- case A
        rw [show (dats m q 0 c).leavesExact 4 t = owns (c : Thread nD τ) (ms0_4 t) fullShare ((dats m q 0 c).after 4 t) from by
          unfold Dat.leavesExact; rw [liveAt0_4_A t ((hcond0_0 t).mpr h0) ((hcond0_1 t).mpr h1) (fun h => h2 ((hcond0_2 t).mp h))], after0_4]
        rw [outsAt0_A m c t h0 h1 h2]
        unfold out0_A_4
        iintro ⟨HΦ, Ho, ⟨%d0, H0⟩, ⟨%d1, H1⟩, ⟨%d2, H2⟩, ⟨%d3, H3⟩, ⟨%d4, H4⟩⟩
        iapply ((kernelRun0_A c (grid0.coords t) _ _ _ _ _ _ _ _ _ _ ((hcond0_0 t).mpr h0) ((hcond0_1 t).mpr h1) (fun h => h2 ((hcond0_2 t).mp h)) (iblk m c 0 t) (iblk m c 1 t) (iblk m c 2 t) (iblk m c 3 t)).2 Set.univ _)
        isplitl [H0]; · iexact H0
        isplitl [H1]; · iexact H1
        isplitl [H2]; · iexact H2
        isplitl [H3]; · iexact H3
        isplitl [H4]; · iexists _; iexact H4
        iintro ⟨H0, H1, H2, H3, ⟨%e4, H4⟩⟩
        isplitl [HΦ]; · iexact HΦ
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_A_4 c _ _ _ _ _ _ _ _ _ _ _ _ _ _ _ _ _ _)
    · by_cases h2 : t.val / 8 < t.val % 8
      · exfalso; omega
      · -- case C
        rw [show (dats m q 0 c).leavesExact 4 t = owns (c : Thread nD τ) (ms0_4 t) fullShare ((dats m q 0 c).after 4 t) from by
          unfold Dat.leavesExact; rw [liveAt0_4_C t ((hcond0_0 t).mpr h0) (fun h => h1 ((hcond0_1 t).mp h)) (fun h => h2 ((hcond0_2 t).mp h))], after0_4]
        rw [outsAt0_C m c t h0 h1 h2]
        unfold out0_C_4
        iintro ⟨HΦ, Ho, ⟨%d0, H0⟩, ⟨%d1, H1⟩, ⟨%d2, H2⟩, ⟨%d3, H3⟩, ⟨%d4, H4⟩⟩
        iapply ((kernelRun0_C c (grid0.coords t) _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t)).2 Set.univ _)
        isplitl [H0]; · iexact H0
        isplitl [H1]; · iexact H1
        isplitl [H2]; · iexact H2
        isplitl [H3]; · iexact H3
        isplitl [H4]; · iexists _; iexact H4
        iintro ⟨H0, H1, H2, H3, ⟨%e4, H4⟩⟩
        isplitl [HΦ]; · iexact HΦ
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _)
  · by_cases h1 : t.val % 8 = t.val / 8
    · by_cases h2 : t.val / 8 < t.val % 8
      · exfalso; omega
      · -- case D
        rw [show (dats m q 0 c).leavesExact 4 t = owns (c : Thread nD τ) (ms0_4 t) fullShare ((dats m q 0 c).after 4 t) from by
          unfold Dat.leavesExact; rw [liveAt0_4_D t (fun h => h0 ((hcond0_0 t).mp h)) ((hcond0_1 t).mpr h1) (fun h => h2 ((hcond0_2 t).mp h))], after0_4]
        rw [outsAt0_D m c t h0 h1 h2]
        simp only [before0_4 m q c t h0]
        unfold out0_D_4
        iintro ⟨HΦ, Ho, ⟨%d0, H0⟩, ⟨%d1, H1⟩, ⟨%d2, H2⟩, ⟨%d3, H3⟩, ⟨%d4, H4⟩⟩
        iapply ((kernelRun0_D c (grid0.coords t) _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _).2 Set.univ _)
        isplitl [H0]; · iexact H0
        isplitl [H1]; · iexact H1
        isplitl [H2]; · iexact H2
        isplitl [H3]; · iexact H3
        isplitl [H4]; · iexact H4
        iintro ⟨H0, H1, H2, H3, ⟨%e4, H4⟩⟩
        isplitl [HΦ]; · iexact HΦ
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_D_4 c _ _ _ _ _ _ _ _ _ _ _ _ _ _ _ _ _ _ _)
    · by_cases h2 : t.val / 8 < t.val % 8
      · -- case B
        rw [show (dats m q 0 c).leavesExact 4 t = owns (c : Thread nD τ) (ms0_4 t) fullShare ((dats m q 0 c).after 4 t) from by
          unfold Dat.leavesExact; rw [liveAt0_4_B t (fun h => h0 ((hcond0_0 t).mp h)) (fun h => h1 ((hcond0_1 t).mp h)) ((hcond0_2 t).mpr h2)], after0_4]
        rw [outsAt0_B m c t h0 h1 h2]
        simp only [before0_4 m q c t h0]
        unfold out0_B_4
        iintro ⟨HΦ, Ho, ⟨%d0, H0⟩, ⟨%d1, H1⟩, ⟨%d2, H2⟩, ⟨%d3, H3⟩, ⟨%d4, H4⟩⟩
        iapply ((kernelRun0_B c (grid0.coords t) _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _).2 Set.univ _)
        isplitl [H0]; · iexact H0
        isplitl [H1]; · iexact H1
        isplitl [H2]; · iexact H2
        isplitl [H3]; · iexact H3
        isplitl [H4]; · iexact H4
        iintro ⟨H0, H1, H2, H3, ⟨%e4, H4⟩⟩
        isplitl [HΦ]; · iexact HΦ
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_B_4 c _ _ _ _ _ _ _ _ _ _ _ _ _ _ _ _ _ _ _)
      · -- case E
        rw [Dat.leavesExact_idle (dats m q 0 c) 4 t (idleAt0_4_E t (fun h => h0 ((hcond0_0 t).mp h)) (fun h => h1 ((hcond0_1 t).mp h)) (fun h => h2 ((hcond0_2 t).mp h))) (noFlush0_4_E t (fun h => h0 ((hcond0_0 t).mp h)) (fun h => h1 ((hcond0_1 t).mp h)) (fun h => h2 ((hcond0_2 t).mp h)))]
        iintro ⟨HΦ, Ho, ⟨%d0, H0⟩, ⟨%d1, H1⟩, ⟨%d2, H2⟩, ⟨%d3, H3⟩, ⟨%d4, H4⟩⟩
        iapply ((kernelRun0_E c (grid0.coords t) _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        iintro ⟨H0, H1, H2, H3, H4⟩
        isplitl [HΦ]; · iexact HΦ
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (q : Fin 5 → PosShare TreeShare) (c : Dev nD) : BodyObligation (dats (F := F) m q 0 c) (defs₀ (F := F)) Variants.none () Set.univ := fun t => by
  rw [bigSep_W0, bigSep_W0]
  exact sound_body m q c t

end Cert.KernelIdeal.Hand

end
-- ==== Proof.IdealFrame.Frame.lean ====
/-
  The idealized kernel program's run, assembled: the body's obligation at every grid point and the launch that deals the
  shared array's two halves to its two windows give the run; its frame claim is read off the argument, which bypasses
  the region; and for the value claim the run is restated with the result buffer at what the later host operations
  compute from the region's output array.
-/
import proofs.«153800_j78932908965970_2_alg».proof.Proof.IdealFrame.Launch
import proofs.«153800_j78932908965970_2_alg».proof.Proof.IdealFrame.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every weakly fair execution terminates; at the end each window's array holds what the write-backs left
    and each buffer that bypasses the region what the later host operations computed. -/
theorem run_all : θ_run defs (onTc (τ := τ) (main (F := F))) (s₀ m ρ) (fun r => ∀ c : Dev nD,
       (∀ w, r.2.mem ((spec0 w).arr.view.loc (c.tc : Thread nD τ)) = (dats m qs 0 c).arrAt w cfg0.N)
       ∧ ∀ b ∈ Pipeline.restRefs sig spec0, r.2.mem ((c.tc : Thread nD τ).loc b) = endVal m (dats m qs) c b) :=
  run_main m ρ (dats m qs) (fun c => (body_obligation m qs c).loose) (fun _ => rfl) (fun _ _ => rfl) (A_eq m qs) (fun _ _ => rfl)

/-- The frame claim: the program runs to the end without fault and its argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m qs) (run_all m ρ)

/-- The run with the result named: the result buffer and the argument are buffers that bypass the region. -/
theorem run_result : θ_run defs (onTc (τ := τ) (main (F := F))) ⟨m, fun _ => 0, ρ⟩ (fun r => ∀ c : Dev nD,
      r.2.mem ((c.tc : Thread nD τ).loc main_v18) = endVal m (dats m qs) c main_v18
      ∧ r.2.mem ((c.tc : Thread nD τ).loc main_arg0) = m ((c.tc : Thread nD τ).loc main_arg0)) :=
  (θ_run defs _ _).mono (fun _ h c =>
    ⟨(h c).2 main_v18 (Pipeline.mem_restRefs_of main_v18 (by decide) (by decide)),
     ((h c).2 main_arg0 (Pipeline.mem_restRefs_of main_arg0 (by decide) (by decide))).trans (endVal_main_arg0 m (dats m qs) c)⟩) (run_all m ρ)

end Cert.KernelIdeal.Hand

end
-- ==== Proof.IdealFrame.Tail.lean ====
/-
  The host operations after the region, as one function: the result is the sum of the region's output array divided by
  n², less twice a small multiple of the mean of exp(−¼‖x‖²), plus zero; read off the run's end contents.
-/
import proofs.«153800_j78932908965970_2_alg».proof.Proof.IdealFrame.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- The later host operations as one function of the region's output array and the row sums of squares. -/
def tailF (out : FVec Ideal S8x1x128 .f32) (sq : FVec Ideal S8192 .f32) : FVec Ideal S_ .f32 :=
  addf (subf (Host.divf (Host.reduceAdd (F := Ideal) out (constant (F := Ideal) S_ .f32 0x00000000#32) reducesTo_S8x1x128_S_d0_1_2 h_S_) (constant (F := Ideal) S_ .f32 0x4C800000#32))
    (mulf (constant (F := Ideal) S_ .f32 0x40000000#32) (mulf (constant (F := Ideal) S_ .f32 0x00200000#32)
      (Host.divf (Host.reduceAdd (F := Ideal) (Host.exp (F := Ideal) (mulf (broadcastInDim S8192 ![] bcast_S_S8192 (constant (F := Ideal) S_ .f32 0xBE800000#32)) sq)) (constant (F := Ideal) S_ .f32 0x00000000#32) reducesTo_S8192_S_d0 h_S_) (constant (F := Ideal) S_ .f32 0x46000000#32)))))
    (constant (F := Ideal) S_ .f32 0x00000000#32)

theorem endVal_result (c : Dev nD) :
    endVal m (dats m qs) c main_v18 = tailF ((dats m qs 0 c).arrAt 4 cfg0.N) (V m c main_v1) := by
  unfold endVal
  show StableHlo.after hostOps1 _ (Proc.devRef .tc main_v18) = _
  after_results
  have h7 : Pipeline.withArrays win' c (V0 m c) (fun k => (dats m qs 0 c).arrAt k.succ cfg0.N) (Proc.devRef .tc main_v7)
      = (dats m qs 0 c).arrAt 4 cfg0.N := Pipeline.withArrays_arr win' win'_inj c (V0 m c) _ (3 : Fin 4)
  have h1 : Pipeline.withArrays win' c (V0 m c) (fun k => (dats m qs 0 c).arrAt k.succ cfg0.N) (Proc.devRef .tc main_v1)
      = V m c main_v1 := Pipeline.withArrays_of_ne win' c (V0 m c) _ main_v1 (by decide)
  rw [h7, h1]
  rfl

end Cert.KernelIdeal.Hand

end
-- ==== Proof.Gram.Consts.lean ====
/-
  The float literals the two programs spell, as the extended reals their bit patterns denote: zero, one, one half,
  two, and minus one half.
-/
import Idealize.ShloMosaic.PureOps.Ideal

noncomputable section

namespace Cert.GaussGram.Consts

open Idealize.ShloMosaic

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = ((1 : ℝ) : EReal) := by
  simp [Ideal.ofBits, Ideal.ieee, -EReal.coe_mul]; norm_num

/-- The pattern of 0.5 denotes 1/2. -/
theorem ofBits_half : Ideal.ofBits .f32 0x3F000000#32 = (((1 / 2 : ℝ)) : EReal) := by
  simp [Ideal.ofBits, Ideal.ieee, -EReal.coe_mul]; norm_num

/-- The pattern of 2.0 denotes 2. -/
theorem ofBits_two : Ideal.ofBits .f32 0x40000000#32 = ((2 : ℝ) : EReal) := by
  simp [Ideal.ofBits, Ideal.ieee, -EReal.coe_mul]; norm_num

/-- The pattern of -0.5 denotes −1/2. -/
theorem ofBits_neg_half : Ideal.ofBits .f32 0xBF000000#32 = (((-(1 / 2) : ℝ)) : EReal) := by
  simp [Ideal.ofBits, Ideal.ieee, -EReal.coe_mul]; norm_num

end Cert.GaussGram.Consts

end
-- ==== Proof.IdealFrame.TileValue.lean ====
/-
  The values the kernel body leaves in the output's staging buffer, case by case, read at the ideal instance (a float an
  extended real, every operation its textbook one). First, for any float instance, what each case's stores leave is a
  payload of the body over the input blocks (and, where the case adds into the buffer, over what it held). Then each
  payload is read at a lane: the tile of inner products of the rows of the two blocks of points, less the rows' half
  squared norms, capped at 0 and exponentiated — on a diagonal tile the entries pairing a point with itself taken at
  exp 0 —, summed over the tile and placed in lane 0; the zero block; and the two accumulating forms, the buffer plus
  once or twice that.
-/
import proofs.«153800_j78932908965970_2_alg».proof.Proof.IdealFrame.Body
import Idealize.ShloMosaic.Lib.Pipeline.Value
import Idealize.ShloMosaic.Lib.ValueIdx
import Idealize.ShloMosaic.Lib.ValueLayout
import Idealize.ShloMosaic.PureOps.Ideal.Laws
import proofs.«153800_j78932908965970_2_alg».proof.Proof.Gram.Consts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What each case's stores leave, as the payloads of the body over the blocks -/

/-- Case C (first column, below the diagonal): the zero block. -/
theorem out_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : ¬cond0_1 i) (hc2 : ¬cond0_2 i) (x0 : Vec F S1024x256 .bf16) (x1 : Vec F S1024x256 .bf16) (x2 : Vec F S1024x1 .f32) (x3 : Vec F S1x1024 .f32) :
    out0_C_4 c i arg2 harg2 arg3 harg3 arg4 harg4 arg5 harg5 arg6 harg6 hc0 hc1 hc2 x0 x1 x2 x3 = k0_pay1 (F := F) := by
  unfold out0_C_4
  rw [View.read_writes_eq_canon _ _ _ (cover0_C_4 c i arg2 harg2 arg3 harg3 arg4 harg4 arg5 harg5 arg6 harg6 hc0 hc1 hc2 x0 x1 x2 x3)]
  unfold kernelRun0_C
  dsimp only
  rw [View.canon_unit_zero hz3]

/-- Case A (the first point): the zero block is stored and read back, and the diagonal tile's contribution added to it. -/
theorem out_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : cond0_1 i) (hc2 : ¬cond0_2 i) (x0 : Vec F S1024x256 .bf16) (x1 : Vec F S1024x256 .bf16) (x2 : Vec F S1024x1 .f32) (x3 : Vec F S1x1024 .f32) :
    out0_A_4 c i arg2 harg2 arg3 harg3 arg4 harg4 arg5 harg5 arg6 harg6 hc0 hc1 hc2 x0 x1 x2 x3 = k0_pay2 (k0_pay4 (BitVec.ofNat 32 (i 0).val) (BitVec.ofNat 32 (i 1).val) x0 x1 x2 x3) (k0_pay1 (F := F)) := by
  unfold out0_A_4
  rw [View.read_writes_eq_canon _ _ _ (cover0_A_4 c i arg2 harg2 arg3 harg3 arg4 harg4 arg5 harg5 arg6 harg6 hc0 hc1 hc2 x0 x1 x2 x3)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, View.ld_unit_zero (S := S1024x256) hz2, View.ld_unit_zero (S := S1024x1) hz2, View.ld_unit_zero (S := S1x1024) hz2]

/-- Case B (above the diagonal): twice the tile's contribution added to what the buffer held. -/
theorem out_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : cond0_2 i) (x0 : Vec F S1024x256 .bf16) (x1 : Vec F S1024x256 .bf16) (x2 : Vec F S1024x1 .f32) (x3 : Vec F S1x1024 .f32) (xo4 : Vec F S1x1x128 .f32) :
    out0_B_4 c i arg2 harg2 arg3 harg3 arg4 harg4 arg5 harg5 arg6 harg6 hc0 hc1 hc2 x0 x1 x2 x3 xo4 = k0_pay3 x0 x1 x2 x3 xo4 := by
  unfold out0_B_4
  rw [View.read_writes_eq_canon _ _ _ (cover0_B_4 c i arg2 harg2 arg3 harg3 arg4 harg4 arg5 harg5 arg6 harg6 hc0 hc1 hc2 x0 x1 x2 x3 xo4)]
  unfold kernelRun0_B
  dsimp only
  rw [View.canon_unit_zero hz3]
  simp only [View.readAt_eq_ld, harg2.read_unread, harg3.read_unread, harg4.read_unread, harg5.read_unread, harg6.read_unread, View.ld_unit_zero (S := S1024x256) hz2, View.ld_unit_zero (S := S1024x1) hz2, View.ld_unit_zero (S := S1x1024) hz2, View.ld_unit_zero (S := S1x1x128) hz3]

/-- Case D (on the diagonal, off the first column): the diagonal tile's contribution added to what the buffer held. -/
theorem out_D (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : cond0_1 i) (hc2 : ¬cond0_2 i) (x0 : Vec F S1024x256 .bf16) (x1 : Vec F S1024x256 .bf16) (x2 : Vec F S1024x1 .f32) (x3 : Vec F S1x1024 .f32) (xo4 : Vec F S1x1x128 .f32) :
    out0_D_4 c i arg2 harg2 arg3 harg3 arg4 harg4 arg5 harg5 arg6 harg6 hc0 hc1 hc2 x0 x1 x2 x3 xo4 = k0_pay2 (k0_pay4 (BitVec.ofNat 32 (i 0).val) (BitVec.ofNat 32 (i 1).val) x0 x1 x2 x3) xo4 := by
  unfold out0_D_4
  rw [View.read_writes_eq_canon _ _ _ (cover0_D_4 c i arg2 harg2 arg3 harg3 arg4 harg4 arg5 harg5 arg6 harg6 hc0 hc1 hc2 x0 x1 x2 x3 xo4)]
  unfold kernelRun0_D
  dsimp only
  sl_unfold_words
  rw [View.canon_unit_zero hz3]
  simp only [View.readAt_eq_ld, harg2.read_unread, harg3.read_unread, harg4.read_unread, harg5.read_unread, harg6.read_unread, View.ld_unit_zero (S := S1024x256) hz2, View.ld_unit_zero (S := S1024x1) hz2, View.ld_unit_zero (S := S1x1024) hz2, View.ld_unit_zero (S := S1x1x128) hz3]

open Idealize.ShloMosaic.ValueIdx
open scoped BigOperators

/-! ## Words -/

/-- An integer comparison for equality gives the bit 1 exactly on equal words. -/
theorem cmpi_eq_one_iff (x y : BitVec 32) : IntOp.cmpi .eq x y = 1#1 ↔ x = y := by
  unfold IntOp.cmpi
  by_cases h : x = y
  · subst h; simp
  · have hb : (x == y) = false := beq_eq_false_iff_ne.mpr h
    simp only [hb]
    exact ⟨fun h1 => absurd h1 (by decide), fun h2 => absurd h2 h⟩

/-- Two naturals below 2³² are equal exactly when their 32-bit words are. -/
theorem ofNat32_inj {a b : ℕ} (ha : a < 4294967296) (hb : b < 4294967296) : BitVec.ofNat 32 a = BitVec.ofNat 32 b ↔ a = b := by
  constructor
  · intro h
    have h' := congrArg BitVec.toNat h
    simp only [BitVec.toNat_ofNat] at h'
    omega
  · intro h; rw [h]

/-- A select on a bit that is 1 exactly when `P` holds is the `if` on `P`. -/
theorem select_iff {α : Type} (b : BitVec 1) (P : Prop) [Decidable P] (h : b = 1#1 ↔ P) (x y : α) :
    Scalar.select b x y = if P then x else y := by
  unfold Scalar.select
  by_cases hp : P
  · rw [if_pos hp]; exact if_pos (h.mpr hp)
  · rw [if_neg hp]; exact if_neg (fun hc => hp (h.mp hc))

/-- Lane 0 is the one lane whose index word is zero. -/
theorem lane_word (l : Fin 128) : IntOp.cmpi .eq (BitVec.ofNat 32 l.val) 0#32 = 1#1 ↔ l.val = 0 := by
  rw [cmpi_eq_one_iff, show (0#32 : BitVec 32) = BitVec.ofNat 32 0 from rfl, ofNat32_inj (by have := l.isLt; omega) (by omega)]

/-- The diagonal mask: row block `a`, column block `b`, both below 8; the global row `1024 a + p` and the global column
    `1024 b + q`, computed in 32-bit words (nothing wraps), are equal exactly when the naturals are. -/
theorem diag_word (a b : ℕ) (ha : a < 8) (hb : b < 8) (p q : Fin 1024) :
    IntOp.cmpi .eq (IntOp.addi (Scalar.muli (BitVec.ofNat 32 a) 1024#32) (BitVec.ofNat 32 p.val))
        (IntOp.addi (Scalar.muli (BitVec.ofNat 32 b) 1024#32) (BitVec.ofNat 32 q.val)) = 1#1
      ↔ a * 1024 + p.val = b * 1024 + q.val := by
  have hp := p.isLt; have hq := q.isLt
  rw [cmpi_eq_one_iff]
  unfold IntOp.addi Scalar.muli IntOp.muli
  rw [show (1024#32 : BitVec 32) = BitVec.ofNat 32 1024 from rfl, ← BitVec.ofNat_mul, ← BitVec.ofNat_mul, ← BitVec.ofNat_add, ← BitVec.ofNat_add]
  exact ofNat32_inj (by omega) (by omega)

/-- On the diagonal of the grid the two block indices are equal: the second branch's condition compares their words. -/
theorem coords_eq_of_cond (i : grid0.Coords) (hc1 : cond0_1 i) : (i 1).val = (i 0).val := by
  have h0 : (i 0).val < 8 := (i 0).isLt
  have h1 : (i 1).val < 8 := (i 1).isLt
  have hv : ∀ v : BitVec 1, Scalar.cmpi .ne (Scalar.extui v) 0#32 = 1#1 → v = 1#1 := by decide
  have := hv _ hc1
  exact (ofNat32_inj (by omega) (by omega)).mp ((cmpi_eq_one_iff _ _).mp this)

/-! ## The lane mask: a scalar placed in lane 0, zero elsewhere -/

theorem lane_select (T : FVec Ideal S1x1 .f32) (hio : S1x1x128.Iotas .tc 32 [2]) (hc : S1x1.ShapeCasts S1x1x1) (hb : S1x1x1.Broadcasts S1x1x128) (l : Fin 128) :
    select (cmpi .eq (iota .tc S1x1x128 32 [2] hio) (broadcast S1x1x128 (0#32 : BitVec 32)))
      (broadcastTo S1x1x128 (shapeCast S1x1x1 T hc) hb)
      (broadcast S1x1x128 (Scalar.ofBits (F := Ideal) .f32 0x00000000#32)) (ix3 (0 : Fin 1) (0 : Fin 1) l)
      = if l.val = 0 then T (ix2 (0 : Fin 1) (0 : Fin 1)) else 0 := by
  have e1 : broadcastTo S1x1x128 (shapeCast S1x1x1 T hc) hb (ix3 (0 : Fin 1) (0 : Fin 1) l) = T (ix2 (0 : Fin 1) (0 : Fin 1)) := by
    refine (broadcastTo_apply (shapeCast S1x1x1 T hc) hb (ix3 (0 : Fin 1) (0 : Fin 1) l) (ix3 (0 : Fin 1) (0 : Fin 1) (0 : Fin 1)) (fun a => ?_)).trans ?_
    · match a with
      | ⟨0, _⟩ => rfl
      | ⟨1, _⟩ => rfl
      | ⟨2, _⟩ => rfl
    · exact shapeCast_apply T hc (ix3 (0 : Fin 1) (0 : Fin 1) (0 : Fin 1)) (ix2 (0 : Fin 1) (0 : Fin 1)) rfl
  show Scalar.select (IntOp.cmpi .eq (iota .tc S1x1x128 32 [2] hio (ix3 (0 : Fin 1) (0 : Fin 1) l)) 0#32) _ (Ideal.ofBits .f32 0x00000000#32) = _
  rw [iota_single_apply, e1, Ideal.ofBits_zero_f32]
  exact select_iff _ _ (lane_word l) _ _

/-! ## The two sums: over the columns of each row, then over the rows -/

theorem total_sum (M : FVec Ideal S1024x1024 .f32) (hr1 : S1024x1024.Reduces [1] S1024) (hφ : FKind.Formats .f32)
    (ha : (0x00000000#32 : BitVec 32) = 0x00000000#32) (hc1 : S1024.ShapeCasts S1024x1)
    (hr0 : S1024x1.Reduces [0] S1) (hc2 : S1.ShapeCasts S1x1) :
    shapeCast S1x1 (multiReduction .add [0] S1 (shapeCast S1024x1 (multiReduction .add [1] S1024 M 0x00000000#32 hr1 hφ ha) hc1) 0x00000000#32 hr0 hφ ha) hc2
        (ix2 (0 : Fin 1) (0 : Fin 1))
      = ∑ p : Fin 1024, ∑ q : Fin 1024, M (ix2 p q) := by
  refine (shapeCast_apply _ hc2 (ix2 (0 : Fin 1) (0 : Fin 1)) (ix1 (0 : Fin 1)) rfl).trans ?_
  refine (Ideal.multiReduction_add_single _ 0x00000000#32 hr0 hφ ha (ix1 (0 : Fin 1))).trans ?_
  refine Finset.sum_congr rfl fun p _ => ?_
  have ei : hr0.lift (ix1 (0 : Fin 1)) p = ix2 (⟨p.val, p.isLt⟩ : Fin 1024) (0 : Fin 1) := funext fun a => Fin.ext (by
    match a with
    | ⟨0, _⟩ => rfl
    | ⟨1, _⟩ => rfl)
  rw [ei]
  refine (shapeCast_apply _ hc1 (ix2 (⟨p.val, p.isLt⟩ : Fin 1024) (0 : Fin 1)) (ix1 (⟨p.val, p.isLt⟩ : Fin 1024)) (by
    rw [Shape.rowMajor_val_one, Shape.rowMajor_val_two]; show p.val = p.val * 1 + 0; omega)).trans ?_
  refine (Ideal.multiReduction_add_single M 0x00000000#32 hr1 hφ ha (ix1 (⟨p.val, p.isLt⟩ : Fin 1024))).trans ?_
  refine Finset.sum_congr rfl fun q _ => ?_
  exact congrArg M (funext fun a => Fin.ext (by
    match a with
    | ⟨0, _⟩ => rfl
    | ⟨1, _⟩ => rfl))

/-! ## The matrix unit: one entry of the tile of inner products -/

theorem lhs_row (j : S1024x1024.Idx) (k : dot_S1024x256_S1024x256_S1024x1024_1_1_0_0_n_n.contr.Idx) : (dot_S1024x256_S1024x256_S1024x1024_1_1_0_0_n_n.lhsIdx j k 0).val = (j 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem rhs_row (j : S1024x1024.Idx) (k : dot_S1024x256_S1024x256_S1024x1024_1_1_0_0_n_n.contr.Idx) : (dot_S1024x256_S1024x256_S1024x1024_1_1_0_0_n_n.rhsIdx j k 0).val = (j 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl

/-- Entry (p, q) of the tile of inner products: row p of the first block against row q of the second. -/
theorem gram_entry (x0 x1 : FVec Ideal S1024x256 .bf16) (p q : Fin 1024) :
    matmul dot_S1024x256_S1024x256_S1024x1024_1_1_0_0_n_n none x0 x1 (constant (F := Ideal) S1024x1024 .f32 0x00000000#32) (ix2 p q)
      = ∑ k : Fin 256, x0 (ix2 p k) * x1 (ix2 q k) := by
  refine (Ideal.matmul_constant_zero_apply dot_S1024x256_S1024x256_S1024x1024_1_1_0_0_n_n none x0 x1 (ix2 p q)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_row _ _
    | ⟨1, _⟩ => exact (dot_S1024x256_S1024x256_S1024x1024_1_1_0_0_n_n.lhsIdx_val_of_single rfl _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_row _ _
    | ⟨1, _⟩ => exact (dot_S1024x256_S1024x256_S1024x1024_1_1_0_0_n_n.rhsIdx_val_of_single rfl _ _).trans hk)
  rw [el, er]

/-! ## One entry of the exponent, and of its exponential -/

/-- Entry (p, q) of the clamped exponent: the inner product less the two half squared norms, capped at 0. -/
theorem expo_entry (x0 x1 : FVec Ideal S1024x256 .bf16) (x2 : FVec Ideal S1024x1 .f32) (x3 : FVec Ideal S1x1024 .f32)
    (hb2 : S1024x1.Broadcasts S1024x1024) (hb3 : S1x1024.Broadcasts S1024x1024) (p q : Fin 1024) :
    minimumf (subf (subf (mulf (broadcast S1024x1024 (Scalar.ofBits (F := Ideal) .f32 0x3F800000#32))
          (matmul dot_S1024x256_S1024x256_S1024x1024_1_1_0_0_n_n none x0 x1 (constant (F := Ideal) S1024x1024 .f32 0x00000000#32)))
        (broadcastTo S1024x1024 x2 hb2)) (broadcastTo S1024x1024 x3 hb3))
      (broadcast S1024x1024 (Scalar.ofBits (F := Ideal) .f32 0x00000000#32)) (ix2 p q)
      = min (((1 : ℝ) : EReal) * (∑ k : Fin 256, x0 (ix2 p k) * x1 (ix2 q k)) - x2 (ix2 p (0 : Fin 1)) - x3 (ix2 (0 : Fin 1) q)) 0 := by
  have e2 : broadcastTo S1024x1024 x2 hb2 (ix2 p q) = x2 (ix2 p (0 : Fin 1)) :=
    broadcastTo_apply x2 hb2 (ix2 p q) (ix2 p (0 : Fin 1)) (fun a => by
      match a with
      | ⟨0, _⟩ => show p.val = if (1024 : ℕ) = 1 then 0 else p.val; rw [if_neg (by decide)]
      | ⟨1, _⟩ => show (0 : ℕ) = if (1 : ℕ) = 1 then 0 else q.val; rw [if_pos rfl])
  have e3 : broadcastTo S1024x1024 x3 hb3 (ix2 p q) = x3 (ix2 (0 : Fin 1) q) :=
    broadcastTo_apply x3 hb3 (ix2 p q) (ix2 (0 : Fin 1) q) (fun a => by
      match a with
      | ⟨0, _⟩ => show (0 : ℕ) = if (1 : ℕ) = 1 then 0 else p.val; rw [if_pos rfl]
      | ⟨1, _⟩ => show q.val = if (1024 : ℕ) = 1 then 0 else q.val; rw [if_neg (by decide)])
  rw [minimumf_apply, subf_apply, subf_apply, mulf_apply, broadcast_apply, broadcast_apply, gram_entry, e2, e3]
  show min (Ideal.ofBits .f32 0x3F800000#32 * _ - _ - _) (Ideal.ofBits .f32 0x00000000#32) = _
  rw [Cert.GaussGram.Consts.ofBits_one, Ideal.ofBits_zero_f32]

/-- Entry (p, q) of the exponential under the diagonal mask, the mask still a comparison of words. -/
theorem masked_entry (a0 a1 : BitVec 32) (h0 : S1024x1024.Iotas .tc 32 [0]) (h1 : S1024x1024.Iotas .tc 32 [1])
    (E : FVec Ideal S1024x1024 .f32) (p q : Fin 1024) :
    exp (select (cmpi .eq (addi (broadcast S1024x1024 (Scalar.muli a0 1024#32)) (iota .tc S1024x1024 32 [0] h0))
          (addi (broadcast S1024x1024 (Scalar.muli a1 1024#32)) (iota .tc S1024x1024 32 [1] h1)))
        (broadcast S1024x1024 (Scalar.ofBits (F := Ideal) .f32 0x00000000#32)) E) (ix2 p q)
      = Ideal.exp (Scalar.select (IntOp.cmpi .eq (IntOp.addi (Scalar.muli a0 1024#32) (BitVec.ofNat 32 p.val))
          (IntOp.addi (Scalar.muli a1 1024#32) (BitVec.ofNat 32 q.val))) 0 (E (ix2 p q))) := by
  show Ideal.exp (Scalar.select (IntOp.cmpi .eq (IntOp.addi _ (iota .tc S1024x1024 32 [0] h0 (ix2 p q))) (IntOp.addi _ (iota .tc S1024x1024 32 [1] h1 (ix2 p q))))
    (Ideal.ofBits .f32 0x00000000#32) (E (ix2 p q))) = _
  rw [iota_single_apply, iota_single_apply, Ideal.ofBits_zero_f32]
  rfl

/-- The exponential read at an entry. -/
theorem exp_entry (E : FVec Ideal S1024x1024 .f32) (p q : Fin 1024) : exp E (ix2 p q) = Ideal.exp (E (ix2 p q)) := rfl

/-! ## A tile's sum -/

/-- The sum over a 1024 × 1024 tile of the exponential of the clamped exponent: entry (p, q) pairs row p of the first
    block of points with row q of the second, less their half squared norms; with `diag` the entries p = q (a point
    against itself, at distance exactly zero) are taken at exp 0. -/
def tileOf (diag : Prop) [Decidable diag] (x0 x1 : Vec Ideal S1024x256 .bf16) (x2 : Vec Ideal S1024x1 .f32) (x3 : Vec Ideal S1x1024 .f32) : EReal :=
  ∑ p : Fin 1024, ∑ q : Fin 1024, Ideal.exp (if diag ∧ p = q then 0 else min (((1 : ℝ) : EReal) * (∑ k : Fin 256, x0 (ix2 p k) * x1 (ix2 q k)) - x2 (ix2 p (0 : Fin 1)) - x3 (ix2 (0 : Fin 1) q)) 0)

/-! ## The payloads at a lane -/

theorem pay1_apply (l : Fin 128) : k0_pay1 (F := Ideal) (ix3 (0 : Fin 1) (0 : Fin 1) l) = 0 := by
  unfold k0_pay1
  show Ideal.ofBits .f32 0x00000000#32 = 0
  exact Ideal.ofBits_zero_f32

theorem pay2_apply (v48 : FVec Ideal S1x1x128 .f32) (v49 : Vec Ideal S1x1x128 .f32) (l : Fin 128) :
    k0_pay2 v48 v49 (ix3 (0 : Fin 1) (0 : Fin 1) l) = v49 (ix3 (0 : Fin 1) (0 : Fin 1) l) + ((1 : ℝ) : EReal) * v48 (ix3 (0 : Fin 1) (0 : Fin 1) l) := by
  unfold k0_pay2
  simp only [shapeCast_self]
  rw [addf_apply, mulf_apply, broadcast_apply]
  show _ + Ideal.ofBits .f32 0x3F800000#32 * _ = _
  rw [Cert.GaussGram.Consts.ofBits_one]

theorem pay3_apply (x0 x1 : Vec Ideal S1024x256 .bf16) (x2 : Vec Ideal S1024x1 .f32) (x3 : Vec Ideal S1x1024 .f32) (xo : Vec Ideal S1x1x128 .f32) (l : Fin 128) :
    k0_pay3 (F := Ideal) x0 x1 x2 x3 xo (ix3 (0 : Fin 1) (0 : Fin 1) l)
      = xo (ix3 (0 : Fin 1) (0 : Fin 1) l) + ((2 : ℝ) : EReal) * (if l.val = 0 then tileOf False x0 x1 x2 x3 else 0) := by
  unfold k0_pay3
  simp only [shapeCast_self]
  rw [addf_apply, mulf_apply, broadcast_apply, lane_select, total_sum]
  show _ + Ideal.ofBits .f32 0x40000000#32 * _ = _
  rw [Cert.GaussGram.Consts.ofBits_two]
  by_cases hl : l.val = 0
  · rw [if_pos hl, if_pos hl]; unfold tileOf
    refine congrArg (fun z => xo (ix3 (0 : Fin 1) (0 : Fin 1) l) + ((2 : ℝ) : EReal) * z) ?_
    refine Finset.sum_congr rfl fun p _ => Finset.sum_congr rfl fun q _ => ?_
    rw [if_neg (fun h => h.1)]
    rw [exp_entry, expo_entry]
  · rw [if_neg hl, if_neg hl]

/-- The diagonal payload, the mask still a comparison of words. -/
theorem pay4_apply (a0 a1 : BitVec 32) (x0 x1 : Vec Ideal S1024x256 .bf16) (x2 : Vec Ideal S1024x1 .f32) (x3 : Vec Ideal S1x1024 .f32) (l : Fin 128) :
    k0_pay4 (F := Ideal) a0 a1 x0 x1 x2 x3 (ix3 (0 : Fin 1) (0 : Fin 1) l)
      = if l.val = 0 then ∑ p : Fin 1024, ∑ q : Fin 1024,
          Ideal.exp (Scalar.select (IntOp.cmpi .eq (IntOp.addi (Scalar.muli a0 1024#32) (BitVec.ofNat 32 p.val))
            (IntOp.addi (Scalar.muli a1 1024#32) (BitVec.ofNat 32 q.val))) 0 (min (((1 : ℝ) : EReal) * (∑ k : Fin 256, x0 (ix2 p k) * x1 (ix2 q k)) - x2 (ix2 p (0 : Fin 1)) - x3 (ix2 (0 : Fin 1) q)) 0))
        else 0 := by
  unfold k0_pay4
  simp only [shapeCast_self]
  rw [lane_select, total_sum]
  by_cases hl : l.val = 0
  · rw [if_pos hl, if_pos hl]
    refine Finset.sum_congr rfl fun p _ => Finset.sum_congr rfl fun q _ => ?_
    rw [masked_entry, expo_entry]
  · rw [if_neg hl, if_neg hl]

/-- On the diagonal of the grid the mask is p = q: the two block indices agree and no word wraps. -/
theorem pay4_diag (i : grid0.Coords) (hc1 : cond0_1 i) (x0 x1 : Vec Ideal S1024x256 .bf16) (x2 : Vec Ideal S1024x1 .f32) (x3 : Vec Ideal S1x1024 .f32) (l : Fin 128) :
    k0_pay4 (F := Ideal) (BitVec.ofNat 32 (i 0).val) (BitVec.ofNat 32 (i 1).val) x0 x1 x2 x3 (ix3 (0 : Fin 1) (0 : Fin 1) l)
      = if l.val = 0 then tileOf True x0 x1 x2 x3 else 0 := by
  rw [pay4_apply]
  by_cases hl : l.val = 0
  · rw [if_pos hl, if_pos hl]; unfold tileOf
    refine Finset.sum_congr rfl fun p _ => Finset.sum_congr rfl fun q _ => ?_
    have hcoord := coords_eq_of_cond i hc1
    have h0 : (i 0).val < 8 := (i 0).isLt
    have h1 : (i 1).val < 8 := (i 1).isLt
    have hbit : IntOp.cmpi .eq (IntOp.addi (Scalar.muli (BitVec.ofNat 32 (i 0).val) 1024#32) (BitVec.ofNat 32 p.val))
        (IntOp.addi (Scalar.muli (BitVec.ofNat 32 (i 1).val) 1024#32) (BitVec.ofNat 32 q.val)) = 1#1 ↔ (True ∧ p = q) := by
      rw [diag_word _ _ h0 h1 p q, hcoord]
      constructor
      · intro h; exact ⟨trivial, Fin.ext (by omega)⟩
      · intro h; rw [h.2]
    rw [select_iff _ _ hbit]
  · rw [if_neg hl, if_neg hl]

/-! ## What each case leaves, at a lane -/

/-- Case C: the partial sum is zero. -/
theorem out0_C_4_apply (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : ¬cond0_1 i) (hc2 : ¬cond0_2 i)
    (x0 x1 : Vec Ideal S1024x256 .bf16) (x2 : Vec Ideal S1024x1 .f32) (x3 : Vec Ideal S1x1024 .f32) (l : Fin 128) :
    out0_C_4 (F := Ideal) c i arg2 harg2 arg3 harg3 arg4 harg4 arg5 harg5 arg6 harg6 hc0 hc1 hc2 x0 x1 x2 x3 (ix3 (0 : Fin 1) (0 : Fin 1) l) = 0 := by
  rw [out_C]; exact pay1_apply l

/-- Case A: the diagonal tile's sum in lane 0. -/
theorem out0_A_4_apply (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : cond0_0 i) (hc1 : cond0_1 i) (hc2 : ¬cond0_2 i)
    (x0 x1 : Vec Ideal S1024x256 .bf16) (x2 : Vec Ideal S1024x1 .f32) (x3 : Vec Ideal S1x1024 .f32) (l : Fin 128) :
    out0_A_4 (F := Ideal) c i arg2 harg2 arg3 harg3 arg4 harg4 arg5 harg5 arg6 harg6 hc0 hc1 hc2 x0 x1 x2 x3 (ix3 (0 : Fin 1) (0 : Fin 1) l) = if l.val = 0 then tileOf True x0 x1 x2 x3 else 0 := by
  rw [out_A, pay2_apply, pay1_apply, pay4_diag i hc1, zero_add, EReal.coe_one, one_mul]

/-- Case B: twice the tile's sum added in lane 0. -/
theorem out0_B_4_apply (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : ¬cond0_1 i) (hc2 : cond0_2 i)
    (x0 x1 : Vec Ideal S1024x256 .bf16) (x2 : Vec Ideal S1024x1 .f32) (x3 : Vec Ideal S1x1024 .f32) (xo : Vec Ideal S1x1x128 .f32) (l : Fin 128) :
    out0_B_4 (F := Ideal) c i arg2 harg2 arg3 harg3 arg4 harg4 arg5 harg5 arg6 harg6 hc0 hc1 hc2 x0 x1 x2 x3 xo (ix3 (0 : Fin 1) (0 : Fin 1) l) = xo (ix3 (0 : Fin 1) (0 : Fin 1) l) + ((2 : ℝ) : EReal) * (if l.val = 0 then tileOf False x0 x1 x2 x3 else 0) := by
  rw [out_B, pay3_apply]

/-- Case D: the diagonal tile's sum added in lane 0. -/
theorem out0_D_4_apply (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x128 .f32) (harg6 : arg6.IsWhole) (hc0 : ¬cond0_0 i) (hc1 : cond0_1 i) (hc2 : ¬cond0_2 i)
    (x0 x1 : Vec Ideal S1024x256 .bf16) (x2 : Vec Ideal S1024x1 .f32) (x3 : Vec Ideal S1x1024 .f32) (xo : Vec Ideal S1x1x128 .f32) (l : Fin 128) :
    out0_D_4 (F := Ideal) c i arg2 harg2 arg3 harg3 arg4 harg4 arg5 harg5 arg6 harg6 hc0 hc1 hc2 x0 x1 x2 x3 xo (ix3 (0 : Fin 1) (0 : Fin 1) l) = xo (ix3 (0 : Fin 1) (0 : Fin 1) l) + ((1 : ℝ) : EReal) * (if l.val = 0 then tileOf True x0 x1 x2 x3 else 0) := by
  rw [out_D, pay2_apply, pay4_diag i hc1]

end Cert.KernelIdeal.Hand

end
-- ==== Proof.IdealFrame.Accum.lean ====
/-
  The row-block partial sums. Along row block i of the grid the output's staging buffer, read at a lane, holds 0 up to the
  diagonal, then the diagonal tile's sum, then gains twice each later tile's sum; after the last column it holds, in lane
  0, the sum over the tiles on and right of the diagonal, the diagonal one counted once and the others twice, and 0 in
  every other lane. By induction along the row over the case equations of the accumulation and the cases' values.
-/
import proofs.«153800_j78932908965970_2_alg».proof.Proof.IdealFrame.TileValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open scoped BigOperators

variable (m : (ℓ : Loc nD τ sig) → Buf (Elt Ideal) ℓ)

/-- The sum of the tile at grid point `t`: the input windows' blocks there, the diagonal mask on exactly when the point
    is on the diagonal of the grid. -/
def tileAt (c : Dev nD) (t : Fin cfg0.N) : EReal :=
  tileOf (t.val % 8 = t.val / 8) (iblk m c 0 t) (iblk m c 1 t) (iblk m c 2 t) (iblk m c 3 t)

/-- The weight of tile (i, j): the diagonal tile counts once, a tile above the diagonal twice (for its mirror image). -/
def wgt (i j : ℕ) : EReal := if i = j then ((1 : ℝ) : EReal) else ((2 : ℝ) : EReal)

/-- The mask of a tile's sum depends only on whether it is on. -/
theorem tileOf_congr {P Q : Prop} [Decidable P] [Decidable Q] (h : P ↔ Q)
    (x0 x1 : Vec Ideal S1024x256 .bf16) (x2 : Vec Ideal S1024x1 .f32) (x3 : Vec Ideal S1x1024 .f32) :
    tileOf P x0 x1 x2 x3 = tileOf Q x0 x1 x2 x3 := by
  unfold tileOf
  refine Finset.sum_congr rfl fun p _ => Finset.sum_congr rfl fun q _ => ?_
  exact congrArg Ideal.exp (if_congr (and_congr_left' h) rfl rfl)

/-- Point (i, j) of the grid is a point of the grid. -/
theorem pt_lt (i : Fin 8) (j : ℕ) (hj : j < 8) : 8 * i.val + j < cfg0.N := by
  have hN : cfg0.N = 64 := N_0
  have hi := i.isLt
  omega

/-- `outsAt0` depends on the position only. -/
theorem outsAt0_congr (c : Dev nD) {n n' : ℕ} (h : n = n') (hn : n < cfg0.N) (hn' : n' < cfg0.N) :
    outsAt0 m c n hn = outsAt0 m c n' hn' := by
  subst h; rfl

/-- A sum over the columns i ≤ j' ≤ 0 has at most the term of column 0. -/
theorem sum_upto_zero (f : Fin 8 → EReal) (i : ℕ) :
    (∑ j' : Fin 8, if i ≤ j'.val ∧ j'.val ≤ 0 then f j' else 0) = if i = 0 then f 0 else 0 := by
  rw [Finset.sum_eq_single (0 : Fin 8)]
  · exact if_congr ⟨fun h => Nat.le_zero.mp h.1, fun h => ⟨Nat.le_of_eq h, le_refl _⟩⟩ rfl rfl
  · intro b _ hb
    exact if_neg (fun h => hb (Fin.ext (Nat.le_zero.mp h.2)))
  · intro h; exact absurd (Finset.mem_univ _) h

/-- Extending a sum over the columns i ≤ j' ≤ j by the column j + 1. -/
theorem sum_upto_succ (f : Fin 8 → EReal) (i j : ℕ) (hj : j + 1 < 8) :
    (∑ j' : Fin 8, if i ≤ j'.val ∧ j'.val ≤ j + 1 then f j' else 0)
      = (∑ j' : Fin 8, if i ≤ j'.val ∧ j'.val ≤ j then f j' else 0) + (if i ≤ j + 1 then f ⟨j + 1, hj⟩ else 0) := by
  have e : (if i ≤ j + 1 then f ⟨j + 1, hj⟩ else 0)
      = ∑ j' : Fin 8, if j' = ⟨j + 1, hj⟩ then (if i ≤ j + 1 then f j' else 0) else 0 := by
    rw [Finset.sum_ite_eq' Finset.univ (⟨j + 1, hj⟩ : Fin 8), if_pos (Finset.mem_univ _)]
  rw [e, ← Finset.sum_add_distrib]
  refine Finset.sum_congr rfl fun j' _ => ?_
  by_cases hj' : j' = ⟨j + 1, hj⟩
  · subst hj'
    have hA : (if i ≤ (⟨j + 1, hj⟩ : Fin 8).val ∧ (⟨j + 1, hj⟩ : Fin 8).val ≤ j then f ⟨j + 1, hj⟩ else 0) = 0 :=
      if_neg (fun h => Nat.not_succ_le_self j h.2)
    have hB : (if (⟨j + 1, hj⟩ : Fin 8) = ⟨j + 1, hj⟩ then (if i ≤ j + 1 then f ⟨j + 1, hj⟩ else 0) else 0)
        = (if i ≤ j + 1 then f ⟨j + 1, hj⟩ else 0) := if_pos rfl
    rw [hA, hB, zero_add]
    exact if_congr ⟨fun h => h.1, fun h => ⟨h, le_refl _⟩⟩ rfl rfl
  · have hne : j'.val ≠ j + 1 := fun h => hj' (Fin.ext h)
    rw [if_neg hj', add_zero]
    exact if_congr ⟨fun h => ⟨h.1, by omega⟩, fun h => ⟨h.1, by omega⟩⟩ rfl rfl

/-- The partial sum along row block `i` after column `j`: in lane 0 the weighted sums of the tiles i ≤ j' ≤ j, zero
    in the other lanes. -/
theorem outsAt0_partial (c : Dev nD) (i : Fin 8) (l : Fin 128) : ∀ (j : ℕ) (hj : j < 8),
    outsAt0 m c (8 * i.val + j) (pt_lt i j hj) (ix3 (0 : Fin 1) (0 : Fin 1) l)
      = if l.val = 0 then ∑ j' : Fin 8, (if i.val ≤ j'.val ∧ j'.val ≤ j then wgt i.val j'.val * tileAt m c ⟨8 * i.val + j'.val, pt_lt i j'.val j'.isLt⟩ else 0) else 0 := by
  have hi := i.isLt
  intro j
  induction j with
  | zero =>
    intro hj
    obtain ⟨t, ht⟩ : ∃ t : Fin cfg0.N, t.val = 8 * i.val + 0 := ⟨⟨_, pt_lt i 0 hj⟩, rfl⟩
    have h0 : t.val % 8 = 0 := by omega
    have h2 : ¬t.val / 8 < t.val % 8 := by omega
    have et : (⟨8 * i.val + (0 : Fin 8).val, pt_lt i (0 : Fin 8).val (0 : Fin 8).isLt⟩ : Fin cfg0.N) = t := Fin.ext (by show 8 * i.val + 0 = t.val; omega)
    refine (congrFun (outsAt0_congr m c ht.symm (pt_lt i 0 hj) t.isLt) _).trans ?_
    rw [sum_upto_zero (fun j' : Fin 8 => wgt i.val j'.val * tileAt m c ⟨8 * i.val + j'.val, pt_lt i j'.val j'.isLt⟩) i.val]
    by_cases h1 : t.val % 8 = t.val / 8
    · -- the first point of the grid: zeroed, then the diagonal tile added
      have hi0 : i.val = 0 := by omega
      refine (congrFun (outsAt0_A m c t h0 h1 h2) _).trans ?_
      refine (out0_A_4_apply c (grid0.coords t) (ms0_0 t) (hs0_0 t) (ms0_1 t) (hs0_1 t) (ms0_2 t) (hs0_2 t) (ms0_3 t) (hs0_3 t) (ms0_4 t) (hs0_4 t) ((hcond0_0 t).mpr h0) ((hcond0_1 t).mpr h1) (fun h => h2 ((hcond0_2 t).mp h)) (iblk m c 0 t) (iblk m c 1 t) (iblk m c 2 t) (iblk m c 3 t) l).trans ?_
      rw [if_pos hi0]
      show _ = if l.val = 0 then wgt i.val (0 : Fin 8).val * tileAt m c _ else 0
      rw [et]
      unfold wgt tileAt
      rw [if_pos (show i.val = (0 : Fin 8).val from hi0), EReal.coe_one, one_mul,
        tileOf_congr (show True ↔ t.val % 8 = t.val / 8 from ⟨fun _ => h1, fun _ => trivial⟩)]
    · -- first column, below the diagonal: zeroed
      have hi0 : ¬i.val = 0 := by omega
      refine (congrFun (outsAt0_C m c t h0 h1 h2) _).trans ?_
      refine (out0_C_4_apply c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (fun h => h2 ((hcond0_2 t).mp h)) (iblk m c 0 t) (iblk m c 1 t) (iblk m c 2 t) (iblk m c 3 t) l).trans ?_
      rw [if_neg hi0, ite_self]
  | succ j ih =>
    intro hj
    obtain ⟨t, ht⟩ : ∃ t : Fin cfg0.N, t.val = 8 * i.val + (j + 1) := ⟨⟨_, pt_lt i (j + 1) hj⟩, rfl⟩
    have h0 : ¬t.val % 8 = 0 := by omega
    have hprev : t.val - 1 = 8 * i.val + j := by omega
    have et : (⟨8 * i.val + (⟨j + 1, hj⟩ : Fin 8).val, pt_lt i (⟨j + 1, hj⟩ : Fin 8).val (⟨j + 1, hj⟩ : Fin 8).isLt⟩ : Fin cfg0.N) = t := Fin.ext (by show 8 * i.val + (j + 1) = t.val; omega)
    have eprev : (outsAt0 m c (t.val - 1) (Nat.lt_of_le_of_lt (Nat.sub_le _ _) t.isLt)) (ix3 (0 : Fin 1) (0 : Fin 1) l)
        = if l.val = 0 then ∑ j' : Fin 8, (if i.val ≤ j'.val ∧ j'.val ≤ j then (fun j' : Fin 8 => wgt i.val j'.val * tileAt m c ⟨8 * i.val + j'.val, pt_lt i j'.val j'.isLt⟩) j' else 0) else 0 :=
      (congrFun (outsAt0_congr m c hprev (Nat.lt_of_le_of_lt (Nat.sub_le _ _) t.isLt) (pt_lt i j (by omega))) _).trans (ih (by omega))
    refine (congrFun (outsAt0_congr m c ht.symm (pt_lt i (j + 1) hj) t.isLt) _).trans ?_
    refine Eq.trans ?_ (congrArg (fun z => if l.val = 0 then z else 0) (sum_upto_succ (fun j' : Fin 8 => wgt i.val j'.val * tileAt m c ⟨8 * i.val + j'.val, pt_lt i j'.val j'.isLt⟩) i.val j hj).symm)
    by_cases h1 : t.val % 8 = t.val / 8
    · -- on the diagonal: the diagonal tile's sum added, once
      have h2 : ¬t.val / 8 < t.val % 8 := by omega
      refine (congrFun (outsAt0_D m c t h0 h1 h2) _).trans ?_
      refine (out0_D_4_apply c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)) l).trans ?_
      rw [eprev]
      by_cases hl : l.val = 0
      · simp only [if_pos hl]
        refine congrArg (fun z => _ + z) ?_
        rw [if_pos (show i.val ≤ j + 1 by omega)]
        show _ = wgt i.val (⟨j + 1, hj⟩ : Fin 8).val * tileAt m c _
        rw [et]
        unfold wgt tileAt
        rw [if_pos (show i.val = (⟨j + 1, hj⟩ : Fin 8).val by show i.val = j + 1; omega),
          tileOf_congr (show True ↔ t.val % 8 = t.val / 8 from ⟨fun _ => h1, fun _ => trivial⟩)]
      · simp only [if_neg hl, mul_zero, add_zero]
    · by_cases h2 : t.val / 8 < t.val % 8
      · -- above the diagonal: the tile's sum added, twice
        refine (congrFun (outsAt0_B m c t h0 h1 h2) _).trans ?_
        refine (out0_B_4_apply c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)) l).trans ?_
        rw [eprev]
        by_cases hl : l.val = 0
        · simp only [if_pos hl]
          refine congrArg (fun z => _ + z) ?_
          rw [if_pos (show i.val ≤ j + 1 by omega)]
          show _ = wgt i.val (⟨j + 1, hj⟩ : Fin 8).val * tileAt m c _
          rw [et]
          unfold wgt tileAt
          rw [if_neg (show ¬i.val = (⟨j + 1, hj⟩ : Fin 8).val by show ¬i.val = j + 1; omega),
            tileOf_congr (show False ↔ t.val % 8 = t.val / 8 from ⟨fun h => h.elim, fun h => h1 h⟩)]
        · simp only [if_neg hl, mul_zero, add_zero]
      · -- below the diagonal: nothing stored
        refine (congrFun (outsAt0_E m c t h0 h1 h2) _).trans ?_
        rw [eprev]
        by_cases hl : l.val = 0
        · simp only [if_pos hl]
          rw [if_neg (show ¬i.val ≤ j + 1 by omega), add_zero]
        · simp only [if_neg hl]

/-- THE ROW-BLOCK PARTIAL SUM. After the last column of row block `i` the output's staging buffer holds, in lane 0, the
    sum of the tiles on and right of the diagonal, the diagonal tile once and each other twice; the other lanes hold 0. -/
theorem outsAt0_row (c : Dev nD) (i : Fin 8) (l : Fin 128) :
    outsAt0 m c (8 * i.val + 7) (pt_lt i 7 (by omega)) (ix3 (0 : Fin 1) (0 : Fin 1) l)
      = if l.val = 0 then ∑ j : Fin 8, (if i ≤ j then wgt i.val j.val * tileAt m c ⟨8 * i.val + j.val, pt_lt i j.val j.isLt⟩ else 0) else 0 := by
  rw [outsAt0_partial m c i l 7 (by omega)]
  by_cases hl : l.val = 0
  · rw [if_pos hl, if_pos hl]
    refine Finset.sum_congr rfl fun j _ => ?_
    exact if_congr ⟨fun h => Fin.le_def.mpr h.1, fun h => ⟨Fin.le_def.mp h, by have := j.isLt; omega⟩⟩ rfl rfl
  · rw [if_neg hl, if_neg hl]

end Cert.KernelIdeal.Hand

end
-- ==== Proof.Gram.Spec.lean ====
/-
  The quantity both programs compute, stated once over the argument array alone: n = 8192 points of dimension 256; the
  sum over all pairs of points of exp(−½·‖x − y‖²), the squared distance taken as ‖x‖² + ‖y‖² − 2⟨x, y⟩ and clamped at
  zero (the reference's form), and the same sum taken tile by tile over the 8 × 8 tiles of 1024 × 1024 pairs, only the
  tiles on and above the diagonal visited, an off-diagonal tile counted twice, the exponent written ⟨x, y⟩ − ½‖x‖² − ½‖y‖²
  clamped at zero from above, and the entries of a point with itself set to exp 0 (the kernel's form).
-/
import Idealize.ShloMosaic.PureOps.Ideal
import Idealize.ShloMosaic.Lib.ValueIdx

noncomputable section

open scoped BigOperators

namespace Cert.GaussGram

open Idealize.ShloMosaic Idealize.ShloMosaic.ValueIdx

/-- The argument array: 8192 points, 256 coordinates each, as extended reals. -/
abbrev Pts : Type := (⟨2, ![8192, 256]⟩ : Shape).Idx → EReal

/-- The squared norm of point `r`. -/
def sqn (x : Pts) (r : Fin 8192) : EReal := ∑ k : Fin 256, x (ix2 r k) * x (ix2 r k)

/-- The inner product of points `r` and `c`. -/
def gram (x : Pts) (r c : Fin 8192) : EReal := ∑ k : Fin 256, x (ix2 r k) * x (ix2 c k)

/-- Point `p` of tile `i`: tiles are 1024 consecutive points. -/
def row (i : Fin 8) (p : Fin 1024) : Fin 8192 := ⟨1024 * i.val + p.val, by omega⟩

/-- One pair's term in the kernel's form: exp of ⟨x, y⟩ − ½‖x‖² − ½‖y‖² clamped at zero from above, a point with itself at exp 0. -/
def tileEntry (x : Pts) (i j : Fin 8) (p q : Fin 1024) : EReal :=
  Ideal.exp (if i = j ∧ p = q then 0
    else min (((1 : ℝ) : EReal) * gram x (row i p) (row j q) - (((1 / 2 : ℝ)) : EReal) * sqn x (row i p) - (((1 / 2 : ℝ)) : EReal) * sqn x (row j q)) 0)

/-- The sum over one tile of pairs. -/
def tile (x : Pts) (i j : Fin 8) : EReal := ∑ p : Fin 1024, ∑ q : Fin 1024, tileEntry x i j p q

/-- The kernel's total: tiles on and above the diagonal, an off-diagonal tile twice. -/
def kerSum (x : Pts) : EReal :=
  ∑ i : Fin 8, ∑ j : Fin 8, if i ≤ j then (((if i = j then (1 : ℝ) else 2 : ℝ)) : EReal) * tile x i j else 0

/-- The reference's total: every pair, exp of −½ times the squared distance clamped at zero from below. -/
def refSum (x : Pts) : EReal :=
  ∑ r : Fin 8192, ∑ c : Fin 8192,
    Ideal.exp (((-(1 / 2) : ℝ) : EReal) * max (sqn x r + sqn x c - ((2 : ℝ) : EReal) * gram x r c) 0)

/-- Every coordinate of every point is a real number. -/
def AllReal (x : Pts) : Prop := ∀ j, ∃ v : ℝ, x j = (v : EReal)

end Cert.GaussGram

end
-- ==== Proof.IdealFrame.BlockReads.lean ====
/-
  What the kernel's four input windows hold at a grid point, in terms of the argument array. Before the region the
  host computes, from the argument x of 8192 points in 256 coordinates: the row sums of squares, their halves as a
  column and as a row, and x itself in the narrower format (at the ideal instance: x). A grid point t has the tile
  row t / 8 and the tile column t % 8; tile i holds the points 1024 i … 1024 i + 1023. At point t the two point windows
  hold the points of tile t / 8 and of tile t % 8, and the column and row windows hold half the squared norms of the
  same points.
-/
import proofs.«153800_j78932908965970_2_alg».proof.Proof.IdealFrame.Kit
import proofs.«153800_j78932908965970_2_alg».proof.Proof.Gram.Spec
import proofs.«153800_j78932908965970_2_alg».proof.Proof.Gram.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe
open Idealize.ShloMosaic.ValueIdx Cert.GaussGram

variable (m : (ℓ : Loc nD τ sig) → Buf (Elt Ideal) ℓ)

/-! ## What the host operations before the region leave in the windows' arrays -/

/-- The argument array as core c finds it. -/
abbrev x0 (c : Dev nD) : Pts := m ((c : Thread nD τ).loc main_arg0)

/-- Half the row sums of squares of an array, spelled as the host operations compute them: the constant one half
    broadcast along the rows, times the sum over each row of the squares of its entries starting from zero. -/
def hsq (x : Pts) : FVec Ideal S8192 .f32 :=
  mulf (broadcastInDim S8192 ![] bcast_S_S8192 (constant (F := Ideal) S_ .f32 0x3F000000#32) : FVec Ideal S8192 .f32)
    (Host.reduceAdd (F := Ideal) (mulf (x : FVec Ideal S8192x256 .f32) x)
      (constant (F := Ideal) S_ .f32 0x00000000#32) reducesTo_S8192x256_S8192_d1 h_S_)

/-- The row sums of squares, exactly as the host spells them. -/
theorem V_v1 (c : Dev nD) :
    (V m c main_v1 : S8192.Idx → EReal) =
      Host.reduceAdd (F := Ideal) (mulf (x0 m c) (x0 m c))
        (constant (F := Ideal) S_ .f32 0x00000000#32) reducesTo_S8192x256_S8192_d1 h_S_ := by
  show StableHlo.after hostOps0 (fun b => m (c, b)) (Proc.devRef .tc main_v1) = _
  after_results

/-- The array the two point windows read is the argument changed to the narrower format: at the ideal instance, the argument. -/
theorem V_v6 (c : Dev nD) :
    (V m c main_v6 : S8192x256.Idx → EReal) =
      (truncf .bf16 (x0 m c : FVec Ideal S8192x256 .f32) bitsLt_bf16_f32 : FVec Ideal S8192x256 .bf16) := by
  show StableHlo.after hostOps0 (fun b => m (c, b)) (Proc.devRef .tc main_v6) = _
  after_results

/-- The array the column window reads: the halved row sums of squares as a column. -/
theorem V_v4 (c : Dev nD) :
    (V m c main_v4 : S8192x1.Idx → EReal) = shapeCast S8192x1 (hsq (x0 m c)) shapeCasts_S8192_S8192x1 := by
  show StableHlo.after hostOps0 (fun b => m (c, b)) (Proc.devRef .tc main_v4) = _
  after_results
  rfl

/-- The array the row window reads: the halved row sums of squares as a row. -/
theorem V_v5 (c : Dev nD) :
    (V m c main_v5 : S1x8192.Idx → EReal) = shapeCast S1x8192 (hsq (x0 m c)) shapeCasts_S8192_S1x8192 := by
  show StableHlo.after hostOps0 (fun b => m (c, b)) (Proc.devRef .tc main_v5) = _
  after_results
  rfl

/-! ## The host terms read at an index -/

/-- The host's sum over row r of the squares is the squared norm of point r. -/
theorem rowsq_apply (x : Pts) (r : Fin 8192) :
    (Host.reduceAdd (F := Ideal) (mulf (x : FVec Ideal S8192x256 .f32) x) (constant (F := Ideal) S_ .f32 0x00000000#32)
      reducesTo_S8192x256_S8192_d1 h_S_ : S8192.Idx → EReal) (ix1 r) = sqn x r := by
  simp only [Host.reduceAdd, Ideal.hostReduceAdd_def]
  rw [Ideal.hostReduceAdd_single reducesTo_S8192x256_S8192_d1 (by decide)]
  rw [constant_apply, Consts.ofBits_zero, zero_add]
  unfold sqn
  refine Finset.sum_congr rfl fun k _ => ?_
  exact congrArg (fun i => x i * x i) (funext fun a => Fin.ext (by match a with | ⟨0, _⟩ => rfl | ⟨1, _⟩ => rfl))

/-- The halved row sum of squares at row r is one half times the squared norm of point r. -/
theorem hsq_apply (x : Pts) (r : Fin 8192) : hsq x (ix1 r) = (((1 / 2 : ℝ)) : EReal) * sqn x r := by
  unfold hsq
  rw [mulf_apply, rowsq_apply]
  congr 1
  refine (broadcastInDim_apply _ bcast_S_S8192 _ (ix1 r) ix0 (fun a => a.elim0)).trans ?_
  rw [constant_apply, Consts.ofBits_half]

/-- The column of halved row sums of squares at row r. -/
theorem hsq_col_apply (x : Pts) (r : Fin 8192) :
    shapeCast S8192x1 (hsq x) shapeCasts_S8192_S8192x1 (ix2 r (0 : Fin 1)) = (((1 / 2 : ℝ)) : EReal) * sqn x r := by
  refine (shapeCast_apply _ shapeCasts_S8192_S8192x1 (ix2 r (0 : Fin 1)) (ix1 r) ?_).trans (hsq_apply x r)
  rw [Shape.rowMajor_val_one, Shape.rowMajor_val_two]
  show r.val = r.val * 1 + 0
  omega

/-- The row of halved row sums of squares at column r. -/
theorem hsq_row_apply (x : Pts) (r : Fin 8192) :
    shapeCast S1x8192 (hsq x) shapeCasts_S8192_S1x8192 (ix2 (0 : Fin 1) r) = (((1 / 2 : ℝ)) : EReal) * sqn x r := by
  refine (shapeCast_apply _ shapeCasts_S8192_S1x8192 (ix2 (0 : Fin 1) r) (ix1 r) ?_).trans (hsq_apply x r)
  rw [Shape.rowMajor_val_one, Shape.rowMajor_val_two]
  show r.val = 0 * 8192 + r.val
  omega

/-! ## The grid point's tile coordinates, and the windows' block indices there -/

/-- Grid point t is tile row t / 8 … -/
theorem tdiv_lt (t : Fin cfg0.N) : t.val / 8 < 8 := by
  have h : t.val < 64 := Nat.lt_of_lt_of_eq t.isLt N_0
  omega
/-- … and tile column t % 8. -/
theorem tmod_lt (t : Fin cfg0.N) : t.val % 8 < 8 := Nat.mod_lt _ (by decide)

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)

/-! ## The blocks read off the arrays -/

/-- Window 0's block at point t is rows 1024 (t / 8) … of its array. -/
theorem blk0_read (c : Dev nD) (t : Fin cfg0.N) (y : S1024x256.Idx) (i : S8192x256.Idx)
    (h0 : (i 0).val = 1024 * (t.val / 8) + (y 0).val) (h1 : (i 1).val = (y 1).val) :
    (iblk m c 0 t : Vec Ideal S1024x256 .bf16) y = (V m c main_v6 : S8192x256.Idx → EReal) i := by
  unfold iblk
  rw [View.read_apply]
  show V m c main_v6 _ = V m c main_v6 _
  congr 1
  funext a
  apply Fin.ext
  match a with
  | ⟨0, _⟩ => show win0_0.index t 0 * 1024 + 1 * (y 0).val = (i 0).val; rw [(idx0 t).1, h0]; omega
  | ⟨1, _⟩ => show win0_0.index t 1 * 256 + 1 * (y 1).val = (i 1).val; rw [(idx0 t).2, h1]; omega

/-- Window 1's block at point t is rows 1024 (t % 8) … of its array. -/
theorem blk1_read (c : Dev nD) (t : Fin cfg0.N) (y : S1024x256.Idx) (i : S8192x256.Idx)
    (h0 : (i 0).val = 1024 * (t.val % 8) + (y 0).val) (h1 : (i 1).val = (y 1).val) :
    (iblk m c 1 t : Vec Ideal S1024x256 .bf16) y = (V m c main_v6 : S8192x256.Idx → EReal) i := by
  unfold iblk
  rw [View.read_apply]
  show V m c main_v6 _ = V m c main_v6 _
  congr 1
  funext a
  apply Fin.ext
  match a with
  | ⟨0, _⟩ => show win0_1.index t 0 * 1024 + 1 * (y 0).val = (i 0).val; rw [(idx1 t).1, h0]; omega
  | ⟨1, _⟩ => show win0_1.index t 1 * 256 + 1 * (y 1).val = (i 1).val; rw [(idx1 t).2, h1]; omega

/-- Window 2's block at point t is rows 1024 (t / 8) … of the column. -/
theorem blk2_read (c : Dev nD) (t : Fin cfg0.N) (y : S1024x1.Idx) (i : S8192x1.Idx)
    (h0 : (i 0).val = 1024 * (t.val / 8) + (y 0).val) (h1 : (i 1).val = (y 1).val) :
    (iblk m c 2 t : Vec Ideal S1024x1 .f32) y = (V m c main_v4 : S8192x1.Idx → EReal) i := by
  unfold iblk
  rw [View.read_apply]
  show V m c main_v4 _ = V m c main_v4 _
  congr 1
  funext a
  apply Fin.ext
  match a with
  | ⟨0, _⟩ => show win0_2.index t 0 * 1024 + 1 * (y 0).val = (i 0).val; rw [(idx2 t).1, h0]; omega
  | ⟨1, _⟩ => show win0_2.index t 1 * 1 + 1 * (y 1).val = (i 1).val; rw [(idx2 t).2, h1]; omega

/-- Window 3's block at point t is columns 1024 (t % 8) … of the row. -/
theorem blk3_read (c : Dev nD) (t : Fin cfg0.N) (y : S1x1024.Idx) (i : S1x8192.Idx)
    (h0 : (i 0).val = (y 0).val) (h1 : (i 1).val = 1024 * (t.val % 8) + (y 1).val) :
    (iblk m c 3 t : Vec Ideal S1x1024 .f32) y = (V m c main_v5 : S1x8192.Idx → EReal) i := by
  unfold iblk
  rw [View.read_apply]
  show V m c main_v5 _ = V m c main_v5 _
  congr 1
  funext a
  apply Fin.ext
  match a with
  | ⟨0, _⟩ => show win0_3.index t 0 * 1 + 1 * (y 0).val = (i 0).val; rw [(idx3 t).1, h0]; omega
  | ⟨1, _⟩ => show win0_3.index t 1 * 1024 + 1 * (y 1).val = (i 1).val; rw [(idx3 t).2, h1]; omega

/-! ## The four input blocks in terms of the argument array -/

/-- The first point window at point t holds the points of tile t / 8. -/
theorem iblk0_apply (c : Dev nD) (t : Fin cfg0.N) (p : Fin 1024) (k : Fin 256) :
    (iblk m c 0 t : Vec Ideal S1024x256 .bf16) (ix2 p k) = x0 m c (ix2 (row ⟨t.val / 8, tdiv_lt t⟩ p) k) :=
  (blk0_read m c t (ix2 p k) (ix2 (row ⟨t.val / 8, tdiv_lt t⟩ p) k) rfl rfl).trans (by rw [V_v6]; rfl)

/-- The second point window at point t holds the points of tile t % 8. -/
theorem iblk1_apply (c : Dev nD) (t : Fin cfg0.N) (q : Fin 1024) (k : Fin 256) :
    (iblk m c 1 t : Vec Ideal S1024x256 .bf16) (ix2 q k) = x0 m c (ix2 (row ⟨t.val % 8, tmod_lt t⟩ q) k) :=
  (blk1_read m c t (ix2 q k) (ix2 (row ⟨t.val % 8, tmod_lt t⟩ q) k) rfl rfl).trans (by rw [V_v6]; rfl)

/-- The column window at point t holds half the squared norms of the points of tile t / 8. -/
theorem iblk2_apply (c : Dev nD) (t : Fin cfg0.N) (p : Fin 1024) :
    (iblk m c 2 t : Vec Ideal S1024x1 .f32) (ix2 p (0 : Fin 1))
      = (((1 / 2 : ℝ)) : EReal) * sqn (x0 m c) (row ⟨t.val / 8, tdiv_lt t⟩ p) :=
  (blk2_read m c t (ix2 p (0 : Fin 1)) (ix2 (row ⟨t.val / 8, tdiv_lt t⟩ p) (0 : Fin 1)) rfl rfl).trans
    (by rw [V_v4]; exact hsq_col_apply (x0 m c) _)

/-- The row window at point t holds half the squared norms of the points of tile t % 8. -/
theorem iblk3_apply (c : Dev nD) (t : Fin cfg0.N) (q : Fin 1024) :
    (iblk m c 3 t : Vec Ideal S1x1024 .f32) (ix2 (0 : Fin 1) q)
      = (((1 / 2 : ℝ)) : EReal) * sqn (x0 m c) (row ⟨t.val % 8, tmod_lt t⟩ q) :=
  (blk3_read m c t (ix2 (0 : Fin 1) q) (ix2 (0 : Fin 1) (row ⟨t.val % 8, tmod_lt t⟩ q)) rfl rfl).trans
    (by rw [V_v5]; exact hsq_row_apply (x0 m c) _)

end Cert.KernelIdeal.Hand

end
-- ==== Proof.IdealFrame.OutSum.lean ====
/-
  The total of an array of shape [8, 1, 128]. Its middle axis has one coordinate, so its index set is the product of
  the first and the last coordinate ranges and a sum over it is the double sum over those two; a row that is zero
  away from its coordinate 0 sums to that one entry; and the sum of the whole array into a scalar, from the literal
  zero, is that literal plus the sum over every index.
-/
import proofs.«153800_j78932908965970_2_alg».proof.KernelIdeal
import Idealize.ShloMosaic.Lib.ValueIdx
import Idealize.ShloMosaic.PureOps.Ideal.Laws

noncomputable section

open scoped BigOperators

namespace Cert.KernelIdeal.Hand

open Cert.KernelIdeal Idealize.ShloMosaic Idealize.ShloMosaic.ValueIdx

/-- An index of shape [8, 1, 128] is its first and last coordinates: the middle one can only be 0. -/
def idxEquiv3Mid1 : (⟨3, ![8, 1, 128]⟩ : Shape).Idx ≃ Fin 8 × Fin 128 where
  toFun idx := (idx 0, idx 2)
  invFun p := ix3 p.1 (0 : Fin 1) p.2
  left_inv idx := by
    have h1 : (idx 1).val < 1 := (idx 1).isLt
    funext a
    match a with
    | ⟨0, _⟩ => rfl
    | ⟨1, _⟩ => exact Fin.ext (by show (0 : Nat) = (idx 1).val; omega)
    | ⟨2, _⟩ => rfl
  right_inv _ := rfl

/-- A sum over the indices of shape [8, 1, 128] is the double sum over the first and the last coordinate. -/
theorem sum_idx3_mid1 {M : Type*} [AddCommMonoid M] (f : (⟨3, ![8, 1, 128]⟩ : Shape).Idx → M) :
    ∑ idx, f idx = ∑ i : Fin 8, ∑ l : Fin 128, f (ix3 i (0 : Fin 1) l) := by
  rw [← Equiv.sum_comp idxEquiv3Mid1.symm f, Fintype.sum_prod_type]
  rfl

/-- A row of 128 entries that is `a` at coordinate 0 and zero elsewhere sums to `a`. -/
theorem sum_lane0 (a : EReal) : (∑ l : Fin 128, if l.val = 0 then a else 0) = a := by
  refine (Finset.sum_eq_single (0 : Fin 128) (fun l _ hl => if_neg fun h => hl (Fin.ext h))
    (fun h => absurd (Finset.mem_univ _) h)).trans ?_
  exact if_pos rfl

variable [Cert.KernelIdeal.Facts]
open Cert.KernelIdeal.Facts₀ Cert.KernelIdeal.Facts

/-- The sum of the whole [8, 1, 128] array into a scalar, started from the literal zero: that literal plus the sum over
    every index. -/
theorem out_total (out : FVec Ideal S8x1x128 .f32) (i : S_.Idx) :
    (Host.reduceAdd (F := Ideal) out (constant (F := Ideal) S_ .f32 0x00000000#32) reducesTo_S8x1x128_S_d0_1_2 h_S_) i
      = Ideal.ofBits .f32 0x00000000#32 + ∑ j : S8x1x128.Idx, out j := by
  simp only [Host.reduceAdd, Ideal.hostReduceAdd_def]
  exact Ideal.hostReduceAdd_total reducesTo_S8x1x128_S_d0_1_2 (fun b => b.elim0) out _ i

end Cert.KernelIdeal.Hand

end
-- ==== Proof.IdealFrame.Final.lean ====
/-
  The output array, [8, 1, 128], as one function. The grid runs through the 8 × 8 tiles row of tiles by row of tiles;
  the output window's block at a point of row i is the one row i of the array, [1, 1, 128], and it is written back at
  the last point of the row of tiles, t = 8 i + 7. If what the staging buffer holds there is the row total R i at
  coordinate 0 and zero at the other 127, the array ends holding R i at (i, 0, 0) and zero elsewhere: every row of
  the array is the block of exactly one point that writes back.
-/
import proofs.«153800_j78932908965970_2_alg».proof.Proof.IdealFrame.Body
import proofs.«153800_j78932908965970_2_alg».proof.Proof.IdealFrame.Launch
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The array that holds the row totals: `R i` at (i, 0, 0), zero at every other coordinate of the last axis. -/
abbrev rowsArr (R : Fin 8 → EReal) : S8x1x128.Idx → EReal :=
  fun idx => if (idx 2).val = 0 then R ⟨(idx 0).val, (idx 0).isLt⟩ else 0

/-- The output window's block index at point t is (t / 8, 0, 0): the row of tiles. -/
theorem idx_facts4 : ∀ t : Fin cfg0.N, win0_4.index t (0 : Fin 3) = t.val / 8 ∧ win0_4.index t (1 : Fin 3) = 0
    ∧ win0_4.index t (2 : Fin 3) = 0 :=
  (by decide +kernel : ∀ t : Fin grid0.N, win0_4.index t (0 : Fin 3) = t.val / 8 ∧ win0_4.index t (1 : Fin 3) = 0
    ∧ win0_4.index t (2 : Fin 3) = 0)

/-- The hypothesis on the last point of each row of tiles, at any position equal to 8 i + 7. -/
theorem outsAt0_rowAt (c : Dev nD) (R : Fin 8 → EReal)
    (hrow : ∀ (i : Fin 8) (l : Fin 128) (h : 8 * i.val + 7 < cfg0.N),
      outsAt0 m c (8 * i.val + 7) h (ix3 (0 : Fin 1) (0 : Fin 1) l) = if l.val = 0 then R i else 0)
    (n : ℕ) (hn : n < cfg0.N) (i : Fin 8) (e : n = 8 * i.val + 7) (l : Fin 128) :
    outsAt0 m c n hn (ix3 (0 : Fin 1) (0 : Fin 1) l) = if l.val = 0 then R i else 0 := by
  subst e; exact hrow i l hn

/-- What a point that writes back writes is its block of `rowsArr R`. -/
theorem flushed4_eq (c : Dev nD) (R : Fin 8 → EReal)
    (hrow : ∀ (i : Fin 8) (l : Fin 128) (h : 8 * i.val + 7 < cfg0.N),
      outsAt0 m c (8 * i.val + 7) h (ix3 (0 : Fin 1) (0 : Fin 1) l) = if l.val = 0 then R i else 0)
    (t : Fin cfg0.N) (hf : (cfg0.win 4).flush t = true) :
    (dats m qs 0 c).flushed 4 t = ((cfg0.win 4).blk t).view.read (Elt Ideal) (rowsArr R) := by
  have h7 : t.val % 8 = 7 := (flush0_4 t).mp hf
  have hN : cfg0.N = 64 := N_0
  have ht : t.val < 64 := Nat.lt_of_lt_of_eq t.isLt hN
  obtain ⟨e0, e1, e2⟩ := idx_facts4 t
  show (cfg0.win 4).cut (grid0.coords t) ((dats m qs 0 c).after 4 t) = _
  rw [after0_4]
  funext j
  have hj0 : (j 0).val < 1 := (j 0).isLt
  have hj1 : (j 1).val < 1 := (j 1).isLt
  have hj2 : (j 2).val < 128 := (j 2).isLt
  have hx : (cfg0.win 4).xinj (grid0.coords t) j = ix3 (0 : Fin 1) (0 : Fin 1) (⟨(j 2).val, hj2⟩ : Fin 128) := by
    funext a; apply Fin.ext
    match a with
    | ⟨0, _⟩ => show (j 0).val = 0; omega
    | ⟨1, _⟩ => show (j 1).val = 0; omega
    | ⟨2, _⟩ => rfl
  have hE0 : ((((cfg0.win 4).blk t).view.emb j) 0).val = t.val / 8 := by
    show win0_4.index t (0 : Fin 3) * 1 + 1 * (j 0).val = t.val / 8
    rw [e0]; omega
  have hE2 : ((((cfg0.win 4).blk t).view.emb j) 2).val = (j 2).val := by
    show win0_4.index t (2 : Fin 3) * 128 + 1 * (j 2).val = (j 2).val
    rw [e2]; omega
  show outsAt0 m c t.val t.isLt ((cfg0.win 4).xinj (grid0.coords t) j) = rowsArr R (((cfg0.win 4).blk t).view.emb j)
  rw [hx, outsAt0_rowAt m c R hrow t.val t.isLt ⟨t.val / 8, by omega⟩ (by show t.val = 8 * (t.val / 8) + 7; omega) _]
  exact if_congr (by rw [hE2]) (congrArg R (Fin.ext hE0.symm)) rfl

/-- An index of the array is in point t's block iff each coordinate is in the block's range on its axis. -/
theorem mem_blk4 (t : Fin cfg0.N) (i : S8x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v7).slice (win0_4.rect t)).set ↔ _
  rw [View.set_slice_whole, Rect.mem_set_unit]
  exact Iff.rfl

/-- Every index of the array is in the block of the last point of its row of tiles, which writes back. -/
theorem cover4 (i : S8x1x128.Idx) :
    ∃ t : Fin cfg0.N, (cfg0.win 4).flush t = true ∧ i ∈ ((cfg0.win 4).blk t).view.set := by
  have hN : cfg0.N = 64 := N_0
  have h0 : (i 0).val < 8 := (i 0).isLt
  have h1 : (i 1).val < 1 := (i 1).isLt
  have h2 : (i 2).val < 128 := (i 2).isLt
  have hb : 8 * (i 0).val + 7 < cfg0.N := Nat.lt_of_lt_of_eq (by omega : 8 * (i 0).val + 7 < 64) hN.symm
  refine ⟨⟨8 * (i 0).val + 7, hb⟩, (flush0_4 _).mpr (by show (8 * (i 0).val + 7) % 8 = 7; omega), ?_⟩
  obtain ⟨e0, e1, e2⟩ := idx_facts4 ⟨8 * (i 0).val + 7, hb⟩
  have e0' : win0_4.index ⟨8 * (i 0).val + 7, hb⟩ (0 : Fin 3) = (8 * (i 0).val + 7) / 8 := e0
  rw [mem_blk4]
  intro a
  match a with
  | ⟨0, _⟩ =>
    show win0_4.index _ (0 : Fin 3) * 1 ≤ (i 0).val ∧ (i 0).val < win0_4.index _ (0 : Fin 3) * 1 + 1
    rw [e0']; omega
  | ⟨1, _⟩ =>
    show win0_4.index _ (1 : Fin 3) * 1 ≤ (i 1).val ∧ (i 1).val < win0_4.index _ (1 : Fin 3) * 1 + 1
    rw [e1]; omega
  | ⟨2, _⟩ =>
    show win0_4.index _ (2 : Fin 3) * 128 ≤ (i 2).val ∧ (i 2).val < win0_4.index _ (2 : Fin 3) * 128 + 128
    rw [e2]; omega

/-- THE OUTPUT ARRAY after the region: the row totals at (i, 0, 0), zero elsewhere. -/
theorem final4 (c : Dev nD) (R : Fin 8 → EReal)
    (hrow : ∀ (i : Fin 8) (l : Fin 128) (h : 8 * i.val + 7 < cfg0.N),
      outsAt0 m c (8 * i.val + 7) h (ix3 (0 : Fin 1) (0 : Fin 1) l) = if l.val = 0 then R i else 0) :
    (dats m qs 0 c).arrAt 4 cfg0.N
      = fun idx : S8x1x128.Idx => if (idx 2).val = 0 then R ⟨(idx 0).val, (idx 0).isLt⟩ else 0 :=
  (dats m qs 0 c).arrAt_eq_of_cover 4 (rowsArr R) (flushed4_eq m c R hrow) cover4

end Cert.KernelIdeal.Hand

end
-- ==== Proof.Gram.RefSide.lean ====
/-
  The reference's array of pair terms, read at a pair of points (r, c): the exponential of −½ times the squared
  distance clamped at zero from below, the squared distance spelt ‖x_r‖² + ‖x_c‖² − 2⟨x_r, x_c⟩; and the total of
  that array over all pairs, as the double sum over the two points.

  The row sums of the squares (one per point) are the squared norms, the product of the argument with its own
  transpose is the table of inner products, and the two broadcasts of the row sums place ‖x_r‖² and ‖x_c‖² at (r, c).
-/
import proofs.«153800_j78932908965970_2_alg».proof.Proof.Gen.ReferenceIdeal.Read
import proofs.«153800_j78932908965970_2_alg».proof.Proof.Gram.Spec
import proofs.«153800_j78932908965970_2_alg».proof.Proof.Gram.Consts

noncomputable section

open scoped BigOperators

namespace Cert.ReferenceIdeal.RefValue

open Cert.ReferenceIdeal Idealize.ShloMosaic Idealize.ShloMosaic.ValueIdx Cert.GaussGram

/-- Entry `r` of the row sums of the squares is the squared norm of point `r`: the sum starts from the literal zero. -/
theorem sq_entry (x0 : (⟨S8192x256, .f32⟩ : BufTy).Contents (Elt Ideal)) (r : Fin 8192) :
    Read.val_main_v1 (F := Ideal) x0 (ix1 r) = sqn x0 r := by
  rw [Read.val_main_v1_apply, Read.val_main_cst_apply, Ideal.ofBits_def, Consts.ofBits_zero, zero_add]
  unfold sqn
  refine Finset.sum_congr rfl fun k _ => ?_
  have e : Read.idx_main_v1 (ix1 r) k = ix2 r k :=
    funext fun a => Fin.ext (by match a with | ⟨0, _⟩ => rfl | ⟨1, _⟩ => rfl)
  rw [Read.val_main_v0_apply, e, Ideal.mulf_def]

/-- Entry (r, c) of the argument times its transpose is the inner product of points `r` and `c`. -/
theorem gram_entry (x0 : (⟨S8192x256, .f32⟩ : BufTy).Contents (Elt Ideal)) (r c : Fin 8192) :
    Read.val_main_v3 (F := Ideal) x0 (ix2 r c) = gram x0 r c := by
  rw [Read.val_main_v3_apply]
  unfold gram
  refine Finset.sum_congr rfl fun k _ => ?_
  have el : Read.lidx_main_v3 (ix2 r c) k = ix2 r k :=
    funext fun a => Fin.ext (by match a with | ⟨0, _⟩ => rfl | ⟨1, _⟩ => rfl)
  have er : Read.idx_main_v2 (Read.ridx_main_v3 (ix2 r c) k) = ix2 c k :=
    funext fun a => Fin.ext (by match a with | ⟨0, _⟩ => rfl | ⟨1, _⟩ => rfl)
  rw [Read.val_main_v2_apply, el, er]

/-- The pair term at (r, c): exp (−½ · max (‖x_r‖² + ‖x_c‖² − 2⟨x_r, x_c⟩) 0). -/
theorem ref_entry (x0 : (⟨S8192x256, .f32⟩ : BufTy).Contents (Elt Ideal)) (r c : Fin 8192) :
    Read.val_main_v16 (F := Ideal) x0 (ix2 r c)
      = Ideal.exp (((-(1/2) : ℝ) : EReal) * max (sqn x0 r + sqn x0 c - ((2:ℝ) : EReal) * gram x0 r c) 0) := by
  have e6 : Read.idx_main_v4 (Read.idx_main_v6 (ix2 r c)) = ix1 r :=
    funext fun a => Fin.ext (by match a with | ⟨0, _⟩ => rfl)
  have e7 : Read.idx_main_v5 (Read.idx_main_v7 (ix2 r c)) = ix1 c :=
    funext fun a => Fin.ext (by match a with | ⟨0, _⟩ => rfl)
  rw [Read.val_main_v16_apply, Read.val_main_v15_apply, Read.val_main_v14_apply, Read.val_main_cst_2_apply,
    Read.val_main_v13_apply, Read.val_main_v12_apply, Read.val_main_cst_1_apply, Read.val_main_v11_apply,
    Read.val_main_v10_apply, Read.val_main_v9_apply, Read.val_main_cst_0_apply, Read.val_main_v8_apply,
    Read.val_main_v7_apply, Read.val_main_v6_apply, Read.val_main_v5_apply, Read.val_main_v4_apply, e6, e7,
    sq_entry, sq_entry, gram_entry]
  simp only [Ideal.hostUnary_exp_def, Ideal.mulf_def, Ideal.maximumf_def, Ideal.subf_def, Ideal.addf_def,
    Ideal.ofBits_def, Consts.ofBits_zero, Consts.ofBits_two, Consts.ofBits_neg_half]

/-- The total over all pairs is the double sum of the pair terms. -/
theorem ref_pairs (x0 : (⟨S8192x256, .f32⟩ : BufTy).Contents (Elt Ideal)) :
    (∑ j : S8192x8192.Idx, Read.val_main_v16 (F := Ideal) x0 j) = refSum x0 := by
  refine (sum_idx2 (fun j => Read.val_main_v16 (F := Ideal) x0 j)).trans ?_
  unfold refSum
  exact Finset.sum_congr rfl fun r _ => Finset.sum_congr rfl fun c _ => ref_entry x0 r c

end Cert.ReferenceIdeal.RefValue

end
-- ==== Proof.Gram.TileLaw.lean ====
import Mathlib.Tactic
import Idealize.ShloMosaic.PureOps.Ideal

/-!
# A Gaussian-kernel Gram sum, computed tile by tile

The points are indexed by a tile index in a finite linear order and a row index inside the
tile.  s i p is the squared norm of the point (i, p), and g i p j q the inner product of the
points (i, p) and (j, q); g is symmetric, and g i p i p = s i p.

The full sum adds exp (-(1/2) * max (|x|^2 + |y|^2 - 2 <x, y>) 0) over all ordered pairs of
points.  The tiled sum visits only the tiles i ≤ j, adds exp (min (<x, y> - |x|^2/2 - |y|^2/2) 0)
over the tile, with the entries on the exact diagonal (i = j and p = q) set to exp 0, and counts
every tile strictly above the diagonal twice.  The two sums are equal:

* on the exact diagonal |x|^2 + |x|^2 - 2 <x, x> = 0;
* away from it -(1/2) * max t 0 = min (-t / 2) 0;
* the tile (j, i) is the transpose of the tile (i, j), so it has the same sum.
-/

namespace Cert.GaussGram

open scoped BigOperators

/-- Halving and negating turns a clamp from below at 0 into a clamp from above at 0. -/
theorem neg_half_mul_max (x : ℝ) : -(1/2) * max x 0 = min (-(x / 2)) 0 := by
  rcases le_total x 0 with h | h
  · rw [max_eq_right h, min_eq_right (by linarith)]; ring
  · rw [max_eq_left h, min_eq_left (by linarith)]; ring

variable {ι κ : Type} [Fintype ι] [Fintype κ] [LinearOrder ι] [DecidableEq κ]

/-- One entry: the exponent of the full sum equals the exponent of the tiled sum.  On the exact
diagonal the squared distance is 0; off it the clamp identity applies. -/
theorem exponent_eq (s : ι → κ → ℝ) (g : ι → κ → ι → κ → ℝ)
    (hdiag : ∀ i p, g i p i p = s i p) (i : ι) (p : κ) (j : ι) (q : κ) :
    -(1/2) * max (s i p + s j q - 2 * g i p j q) 0
      = if i = j ∧ p = q then 0
        else min (1 * g i p j q - (1/2) * s i p - (1/2) * s j q) 0 := by
  split_ifs with h
  · obtain ⟨rfl, rfl⟩ := h
    have h0 : s i p + s i p - 2 * g i p i p = 0 := by rw [hdiag]; ring
    rw [h0, max_self, mul_zero]
  · rw [neg_half_mul_max]
    congr 1
    ring

/-- The sum of the full-sum entries over the tile (i, j) equals the sum over the tile (j, i):
the second tile is the transpose of the first. -/
theorem tile_symm (s : ι → κ → ℝ) (g : ι → κ → ι → κ → ℝ)
    (hsym : ∀ i p j q, g i p j q = g j q i p) (i j : ι) :
    (∑ p, ∑ q, Real.exp (-(1/2) * max (s i p + s j q - 2 * g i p j q) 0))
      = ∑ p, ∑ q, Real.exp (-(1/2) * max (s j p + s i q - 2 * g j p i q) 0) := by
  rw [Finset.sum_comm]
  refine Finset.sum_congr rfl (fun q _ => Finset.sum_congr rfl (fun p _ => ?_))
  rw [hsym i p j q, add_comm (s i p) (s j q)]

/-- Folding a symmetric array onto its upper triangle: the sum over all ordered pairs equals the
sum over the pairs i ≤ j with the diagonal counted once and every other pair twice. -/
theorem sum_fold_upper (T : ι → ι → ℝ) (hT : ∀ i j, T i j = T j i) :
    ∑ i, ∑ j, T i j
      = ∑ i, ∑ j, if i ≤ j then (if i = j then (1:ℝ) else 2) * T i j else 0 := by
  -- Adding the folded entry at (i, j) to the folded entry at (j, i) gives T i j + T j i.
  have key : ∀ i j,
      (if i ≤ j then (if i = j then (1:ℝ) else 2) * T i j else 0)
        + (if j ≤ i then (if j = i then (1:ℝ) else 2) * T j i else 0) = T i j + T j i := by
    intro i j
    rcases lt_trichotomy i j with h | h | h
    · rw [if_pos h.le, if_neg h.ne, if_neg (not_le.mpr h), hT j i]; ring
    · subst h; simp
    · rw [if_neg (not_le.mpr h), if_pos h.le, if_neg h.ne, hT i j]; ring
  -- Summing over all ordered pairs, each of the two sides is counted twice.
  have hR : (∑ i, ∑ j, if j ≤ i then (if j = i then (1:ℝ) else 2) * T j i else 0)
      = ∑ i, ∑ j, if i ≤ j then (if i = j then (1:ℝ) else 2) * T i j else 0 :=
    Finset.sum_comm
  have hS : (∑ i, ∑ j, T j i) = ∑ i, ∑ j, T i j := Finset.sum_comm
  have h2 : (∑ i, ∑ j, if i ≤ j then (if i = j then (1:ℝ) else 2) * T i j else 0)
      + (∑ i, ∑ j, if j ≤ i then (if j = i then (1:ℝ) else 2) * T j i else 0)
      = (∑ i, ∑ j, T i j) + ∑ i, ∑ j, T j i := by
    simp only [← Finset.sum_add_distrib]
    exact Finset.sum_congr rfl (fun i _ => Finset.sum_congr rfl (fun j _ => key i j))
  rw [hR, hS] at h2
  linarith

/-- The full Gaussian-kernel Gram sum over all ordered pairs of points equals the tiled sum over
the tiles i ≤ j, with the exact diagonal set to exp 0 and the tiles above the diagonal counted
twice. -/
theorem tile_sum_law (s : ι → κ → ℝ) (g : ι → κ → ι → κ → ℝ)
    (hsym : ∀ i p j q, g i p j q = g j q i p) (hdiag : ∀ i p, g i p i p = s i p) :
    (∑ i, ∑ p, ∑ j, ∑ q, Real.exp (-(1/2) * max (s i p + s j q - 2 * g i p j q) 0))
      = ∑ i, ∑ j, if i ≤ j then (if i = j then (1:ℝ) else 2) * ∑ p, ∑ q, Real.exp (if i = j ∧ p = q then 0 else min (1 * g i p j q - (1/2) * s i p - (1/2) * s j q) 0) else 0 := by
  calc (∑ i, ∑ p, ∑ j, ∑ q, Real.exp (-(1/2) * max (s i p + s j q - 2 * g i p j q) 0))
      = ∑ i, ∑ j, ∑ p, ∑ q, Real.exp (-(1/2) * max (s i p + s j q - 2 * g i p j q) 0) :=
        Finset.sum_congr rfl (fun i _ => Finset.sum_comm)
    _ = ∑ i, ∑ j, if i ≤ j then (if i = j then (1:ℝ) else 2)
          * ∑ p, ∑ q, Real.exp (-(1/2) * max (s i p + s j q - 2 * g i p j q) 0) else 0 :=
        sum_fold_upper
          (fun i j => ∑ p, ∑ q, Real.exp (-(1/2) * max (s i p + s j q - 2 * g i p j q) 0))
          (tile_symm s g hsym)
    _ = _ := by
        refine Finset.sum_congr rfl (fun i _ => Finset.sum_congr rfl (fun j _ => ?_))
        have hE : (∑ p, ∑ q, Real.exp (-(1/2) * max (s i p + s j q - 2 * g i p j q) 0))
            = ∑ p, ∑ q, Real.exp (if i = j ∧ p = q then 0
                else min (1 * g i p j q - (1/2) * s i p - (1/2) * s j q) 0) :=
          Finset.sum_congr rfl (fun p _ => Finset.sum_congr rfl (fun q _ => by
            rw [exponent_eq s g hdiag i p j q]))
        rw [hE]

/-! ## The same law over the extended reals

Every quantity above is a real number, so the law transports along the embedding of the reals
into the extended reals: the embedding commutes with sums, differences, products, max, min and
finite sums, and the extended exponential agrees with the real one on real arguments. -/

/-- The embedding of the reals into the extended reals commutes with finite sums. -/
theorem coe_sum {α : Type} (t : Finset α) (f : α → ℝ) :
    ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- The embedding of the reals into the extended reals is monotone, so it commutes with max. -/
theorem coe_max (x y : ℝ) : ((max x y : ℝ) : EReal) = max (x : EReal) (y : EReal) :=
  EReal.coe_strictMono.monotone.map_max

/-- The embedding of the reals into the extended reals is monotone, so it commutes with min. -/
theorem coe_min (x y : ℝ) : ((min x y : ℝ) : EReal) = min (x : EReal) (y : EReal) :=
  EReal.coe_strictMono.monotone.map_min

/-- An entry of the full sum, computed in the extended reals from real data, is the embedding of
the real entry. -/
theorem full_entry_coe (a b c : ℝ) :
    Idealize.ShloMosaic.Ideal.exp
        (((-(1/2) : ℝ) : EReal) * max ((a : EReal) + (b : EReal) - ((2:ℝ) : EReal) * (c : EReal)) 0)
      = ((Real.exp (-(1/2) * max (a + b - 2 * c) 0) : ℝ) : EReal) := by
  rw [← EReal.coe_add, ← EReal.coe_mul, ← EReal.coe_sub, ← EReal.coe_zero, ← coe_max,
    ← EReal.coe_mul, Idealize.ShloMosaic.Ideal.exp_coe]

/-- An entry of the tiled sum, computed in the extended reals from real data, is the embedding of
the real entry. -/
theorem tile_entry_coe (P : Prop) [Decidable P] (a b c : ℝ) :
    Idealize.ShloMosaic.Ideal.exp
        (if P then 0 else min (((1:ℝ) : EReal) * (c : EReal) - (((1/2 : ℝ)) : EReal) * (a : EReal)
          - (((1/2:ℝ)) : EReal) * (b : EReal)) 0)
      = ((Real.exp (if P then 0 else min (1 * c - (1/2) * a - (1/2) * b) 0) : ℝ) : EReal) := by
  split_ifs
  · rw [← EReal.coe_zero, Idealize.ShloMosaic.Ideal.exp_coe]
  · rw [← EReal.coe_mul, ← EReal.coe_mul, ← EReal.coe_mul, ← EReal.coe_sub, ← EReal.coe_sub,
      ← EReal.coe_zero, ← coe_min, Idealize.ShloMosaic.Ideal.exp_coe]

/-- The tile-sum law with every operation carried out in the extended reals. -/
theorem tile_sum_law_ereal (s : ι → κ → ℝ) (g : ι → κ → ι → κ → ℝ)
    (hsym : ∀ i p j q, g i p j q = g j q i p) (hdiag : ∀ i p, g i p i p = s i p) :
    (∑ i, ∑ p, ∑ j, ∑ q, Idealize.ShloMosaic.Ideal.exp (((-(1/2) : ℝ) : EReal) * max ((s i p : EReal) + (s j q : EReal) - ((2:ℝ) : EReal) * (g i p j q : EReal)) 0))
      = ∑ i, ∑ j, if i ≤ j then (((if i = j then (1:ℝ) else 2 : ℝ)) : EReal) * ∑ p, ∑ q, Idealize.ShloMosaic.Ideal.exp (if i = j ∧ p = q then 0 else min (((1:ℝ) : EReal) * (g i p j q : EReal) - (((1/2 : ℝ)) : EReal) * (s i p : EReal) - (((1/2:ℝ)) : EReal) * (s j q : EReal)) 0) else 0 := by
  calc (∑ i, ∑ p, ∑ j, ∑ q, Idealize.ShloMosaic.Ideal.exp (((-(1/2) : ℝ) : EReal) * max ((s i p : EReal) + (s j q : EReal) - ((2:ℝ) : EReal) * (g i p j q : EReal)) 0))
      = ∑ i, ∑ p, ∑ j, ∑ q,
          ((Real.exp (-(1/2) * max (s i p + s j q - 2 * g i p j q) 0) : ℝ) : EReal) :=
        Finset.sum_congr rfl (fun i _ => Finset.sum_congr rfl (fun p _ =>
          Finset.sum_congr rfl (fun j _ => Finset.sum_congr rfl (fun q _ =>
            full_entry_coe (s i p) (s j q) (g i p j q)))))
    _ = ((∑ i, ∑ p, ∑ j, ∑ q,
          Real.exp (-(1/2) * max (s i p + s j q - 2 * g i p j q) 0) : ℝ) : EReal) := by
        simp only [coe_sum]
    _ = ((∑ i, ∑ j, if i ≤ j then (if i = j then (1:ℝ) else 2) * ∑ p, ∑ q, Real.exp (if i = j ∧ p = q then 0 else min (1 * g i p j q - (1/2) * s i p - (1/2) * s j q) 0) else 0 : ℝ) : EReal) := by
        rw [tile_sum_law s g hsym hdiag]
    _ = _ := by
        rw [coe_sum]
        refine Finset.sum_congr rfl (fun i _ => ?_)
        rw [coe_sum]
        refine Finset.sum_congr rfl (fun j _ => ?_)
        by_cases h : i ≤ j
        · rw [if_pos h, if_pos h, EReal.coe_mul, coe_sum]
          congr 1
          refine Finset.sum_congr rfl (fun p _ => ?_)
          rw [coe_sum]
          exact Finset.sum_congr rfl (fun q _ =>
            (tile_entry_coe (i = j ∧ p = q) (s i p) (s j q) (g i p j q)).symm)
        · rw [if_neg h, if_neg h, EReal.coe_zero]

end Cert.GaussGram
-- ==== Proof.Gram.Law.lean ====
import proofs.«153800_j78932908965970_2_alg».proof.Proof.Gram.Spec
import proofs.«153800_j78932908965970_2_alg».proof.Proof.Gram.TileLaw

/-!
# The tiled sum of the specification equals its full sum

For an argument array whose coordinates are all real, the squared norms and inner products are
real, the 8192 points are the 8 x 1024 points (tile i, row p) with index 1024 * i + p, and the
tile-sum law applies with tiles indexed by Fin 8 and rows by Fin 1024.
-/

noncomputable section

open scoped BigOperators

namespace Cert.GaussGram

open Idealize.ShloMosaic Idealize.ShloMosaic.ValueIdx

/-- The squared norm of point r of a real array. -/
def sqnR (v : (⟨2, ![8192, 256]⟩ : Shape).Idx → ℝ) (r : Fin 8192) : ℝ :=
  ∑ k : Fin 256, v (ix2 r k) * v (ix2 r k)

/-- The inner product of points r and c of a real array. -/
def gramR (v : (⟨2, ![8192, 256]⟩ : Shape).Idx → ℝ) (r c : Fin 8192) : ℝ :=
  ∑ k : Fin 256, v (ix2 r k) * v (ix2 c k)

/-- The inner product is symmetric. -/
theorem gramR_comm (v : (⟨2, ![8192, 256]⟩ : Shape).Idx → ℝ) (r c : Fin 8192) :
    gramR v r c = gramR v c r :=
  Finset.sum_congr rfl (fun k _ => mul_comm _ _)

/-- The inner product of a point with itself is its squared norm. -/
theorem gramR_self (v : (⟨2, ![8192, 256]⟩ : Shape).Idx → ℝ) (r : Fin 8192) :
    gramR v r r = sqnR v r := rfl

/-- On an array of reals the squared norm is the embedding of the real squared norm. -/
theorem sqn_coe (x : Pts) (v : (⟨2, ![8192, 256]⟩ : Shape).Idx → ℝ)
    (hv : ∀ j, x j = (v j : EReal)) (r : Fin 8192) : sqn x r = ((sqnR v r : ℝ) : EReal) := by
  unfold sqn sqnR
  rw [coe_sum]
  refine Finset.sum_congr rfl (fun k _ => ?_)
  rw [hv, EReal.coe_mul]

/-- On an array of reals the inner product is the embedding of the real inner product. -/
theorem gram_coe (x : Pts) (v : (⟨2, ![8192, 256]⟩ : Shape).Idx → ℝ)
    (hv : ∀ j, x j = (v j : EReal)) (r c : Fin 8192) :
    gram x r c = ((gramR v r c : ℝ) : EReal) := by
  unfold gram gramR
  rw [coe_sum]
  refine Finset.sum_congr rfl (fun k _ => ?_)
  rw [hv, hv, EReal.coe_mul]

/-- Every point index below 8192 is 1024 * i + p for exactly one tile i < 8 and row p < 1024. -/
def rowEquiv : Fin 8 × Fin 1024 ≃ Fin 8192 where
  toFun x := row x.1 x.2
  invFun r := (⟨r.val / 1024, by omega⟩, ⟨r.val % 1024, by omega⟩)
  left_inv := by
    rintro ⟨i, p⟩
    have h1 : (1024 * i.val + p.val) / 1024 = i.val := by omega
    have h2 : (1024 * i.val + p.val) % 1024 = p.val := by omega
    exact Prod.ext (Fin.ext h1) (Fin.ext h2)
  right_inv := by
    intro r
    have h : 1024 * (r.val / 1024) + r.val % 1024 = r.val := by omega
    exact Fin.ext h

/-- A sum over all points is the sum over the tiles of the sums over the rows of a tile. -/
theorem sum_row {M : Type} [AddCommMonoid M] (F : Fin 8192 → M) :
    ∑ r : Fin 8192, F r = ∑ i : Fin 8, ∑ p : Fin 1024, F (row i p) := by
  rw [← Fintype.sum_prod_type' (fun i p => F (row i p))]
  exact (Fintype.sum_equiv rowEquiv (fun x => F (row x.1 x.2)) F (fun _ => rfl)).symm

/-- On an array of reals the tiled sum equals the full sum. -/
theorem kerSum_eq_refSum (x : Pts) (hx : AllReal x) : kerSum x = refSum x := by
  choose v hv using hx
  have law := tile_sum_law_ereal (ι := Fin 8) (κ := Fin 1024)
    (fun i p => sqnR v (row i p)) (fun i p j q => gramR v (row i p) (row j q))
    (fun i p j q => gramR_comm v (row i p) (row j q)) (fun i p => gramR_self v (row i p))
  unfold kerSum tile tileEntry refSum
  simp only [sqn_coe x v hv, gram_coe x v hv, sum_row]
  exact law.symm

end Cert.GaussGram

end
-- ==== Proof.IdealFrame.Result.lean ====
/-
  The idealized kernel program's result is the reference's: each tile's sum as the body computes it from its blocks is
  the specification's tile; a row of tiles accumulates into lane 0 of its output block; the output array's total is the
  kernel-form sum over tiles, which is the sum over all pairs (the tile law, for real arguments); and both programs then
  apply the same host operations.
-/
import proofs.«153800_j78932908965970_2_alg».proof.Proof.IdealFrame.Frame
import proofs.«153800_j78932908965970_2_alg».proof.Proof.IdealFrame.Tail
import proofs.«153800_j78932908965970_2_alg».proof.Proof.IdealFrame.Accum
import proofs.«153800_j78932908965970_2_alg».proof.Proof.IdealFrame.BlockReads
import proofs.«153800_j78932908965970_2_alg».proof.Proof.IdealFrame.OutSum
import proofs.«153800_j78932908965970_2_alg».proof.Proof.IdealFrame.Final
import proofs.«153800_j78932908965970_2_alg».proof.Proof.Gram.RefSide
import proofs.«153800_j78932908965970_2_alg».proof.Proof.Gram.Law

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GaussGram

variable (m : (ℓ : Loc nD τ sig) → Buf (Elt Ideal) ℓ)

/-- Both programs end with the same host operations on the same row sums of squares: they agree once the sums they divide agree. -/
theorem tail_ref (x0 : (⟨S8192x256, .f32⟩ : BufTy).Contents (Elt Ideal)) (out : FVec Ideal S8x1x128 .f32)
    (key : Host.reduceAdd (F := Ideal) out (constant (F := Ideal) S_ .f32 0x00000000#32) reducesTo_S8x1x128_S_d0_1_2 h_S_
      = Cert.ReferenceIdeal.Read.val_main_v17 (F := Ideal) x0) :
    tailF out (Host.reduceAdd (F := Ideal) (mulf x0 x0) (constant (F := Ideal) S_ .f32 0x00000000#32) reducesTo_S8192x256_S8192_d1 h_S_)
      = Cert.ReferenceIdeal.Read.val_main_v27 (F := Ideal) x0 := by
  unfold tailF
  rw [key]
  rfl

/-- A tile's sum computed from blocks that are the argument's rows and half squared norms is the specification's tile. -/
theorem tileOf_spec (x : Pts) (i j : Fin 8) (diag : Prop) [Decidable diag] (hd : diag ↔ i = j)
    (b0 b1 : Vec Ideal S1024x256 .bf16) (b2 : Vec Ideal S1024x1 .f32) (b3 : Vec Ideal S1x1024 .f32)
    (h0 : ∀ p k, b0 (ix2 p k) = x (ix2 (row i p) k)) (h1 : ∀ q k, b1 (ix2 q k) = x (ix2 (row j q) k))
    (h2 : ∀ p, b2 (ix2 p (0 : Fin 1)) = (((1 / 2 : ℝ)) : EReal) * sqn x (row i p))
    (h3 : ∀ q, b3 (ix2 (0 : Fin 1) q) = (((1 / 2 : ℝ)) : EReal) * sqn x (row j q)) :
    tileOf diag b0 b1 b2 b3 = tile x i j := by
  unfold tileOf tile tileEntry gram
  refine Finset.sum_congr rfl fun p _ => Finset.sum_congr rfl fun q _ => ?_
  simp only [h0, h1, h2, h3]
  refine congrArg Ideal.exp ?_
  by_cases hij : i = j
  · have hdg : diag := hd.mpr hij
    simp only [hdg, hij, true_and]
  · have hdg : ¬diag := fun h => hij (hd.mp h)
    simp only [hdg, hij, false_and, if_false]

/-- The tile visited at grid point 8·i + j is tile (i, j) of the argument. -/
theorem tileAt_eq (c : Dev nD) (i j : Fin 8) :
    tileAt m c ⟨8 * i.val + j.val, pt_lt i j.val j.isLt⟩ = tile (x0 m c) i j := by
  have hi : (8 * i.val + j.val) / 8 = i.val := by have := j.isLt; omega
  have hj : (8 * i.val + j.val) % 8 = j.val := by have := j.isLt; omega
  have ei : (⟨(8 * i.val + j.val) / 8, tdiv_lt ⟨8 * i.val + j.val, pt_lt i j.val j.isLt⟩⟩ : Fin 8) = i := Fin.ext hi
  have ej : (⟨(8 * i.val + j.val) % 8, tmod_lt ⟨8 * i.val + j.val, pt_lt i j.val j.isLt⟩⟩ : Fin 8) = j := Fin.ext hj
  unfold tileAt
  refine tileOf_spec (x0 m c) i j _ ?_ _ _ _ _ (fun p k => ?_) (fun q k => ?_) (fun p => ?_) (fun q => ?_)
  · show (8 * i.val + j.val) % 8 = (8 * i.val + j.val) / 8 ↔ i = j
    rw [hi, hj]
    exact ⟨fun h => Fin.ext h.symm, fun h => by rw [h]⟩
  · exact (iblk0_apply m c _ p k).trans (congrArg (fun r => x0 m c (ix2 (row r p) k)) ei)
  · exact (iblk1_apply m c _ q k).trans (congrArg (fun r => x0 m c (ix2 (row r q) k)) ej)
  · exact (iblk2_apply m c _ p).trans (congrArg (fun r => (((1 / 2 : ℝ)) : EReal) * sqn (x0 m c) (row r p)) ei)
  · exact (iblk3_apply m c _ q).trans (congrArg (fun r => (((1 / 2 : ℝ)) : EReal) * sqn (x0 m c) (row r q)) ej)

/-- What a row of tiles leaves in lane 0 of its output block: the tiles from the diagonal on, an off-diagonal one twice. -/
def rowTot (c : Dev nD) (i : Fin 8) : EReal :=
  ∑ j : Fin 8, (if i ≤ j then wgt i.val j.val * tileAt m c ⟨8 * i.val + j.val, pt_lt i j.val j.isLt⟩ else 0)

/-- The region's output array after the run, as a function of its index. -/
abbrev outArr (c : Dev nD) : S8x1x128.Idx → EReal := (dats m qs 0 c).arrAt 4 cfg0.N

/-- The output array's total is the kernel-form sum over tiles. -/
theorem sum_out (c : Dev nD) : ∑ idx : S8x1x128.Idx, outArr m c idx = kerSum (x0 m c) := by
  have hf : outArr m c = fun idx : S8x1x128.Idx => if (idx 2).val = 0 then rowTot m c ⟨(idx 0).val, (idx 0).isLt⟩ else 0 :=
    final4 m c (rowTot m c) (fun i l h => outsAt0_row m c i l)
  rw [hf, sum_idx3_mid1]
  have hl : ∀ i : Fin 8, (∑ l : Fin 128, (fun idx : S8x1x128.Idx => if (idx 2).val = 0 then rowTot m c ⟨(idx 0).val, (idx 0).isLt⟩ else 0) (ix3 i (0 : Fin 1) l))
      = rowTot m c i := fun i => sum_lane0 (rowTot m c i)
  rw [Finset.sum_congr rfl fun i _ => hl i]
  unfold kerSum rowTot
  refine Finset.sum_congr rfl fun i _ => Finset.sum_congr rfl fun j _ => ?_
  by_cases hij : i ≤ j
  · rw [if_pos hij, if_pos hij, tileAt_eq]
    refine congrArg (· * tile (x0 m c) i j) ?_
    unfold wgt
    by_cases e : i = j
    · rw [if_pos (congrArg Fin.val e), if_pos e]
    · rw [if_neg (fun h => e (Fin.ext h)), if_neg e]
  · rw [if_neg hij, if_neg hij]

/-- THE RESULT: for a real argument the idealized kernel program's result is the reference's. -/
theorem result_eq (c : Dev nD) (hx : AllReal (x0 m c)) :
    endVal m (dats m qs) c main_v18 = Cert.ReferenceIdeal.Read.val_main_v27 (F := Ideal) (x0 m c) := by
  rw [endVal_result, V_v1]
  refine tail_ref (x0 m c) _ (funext fun i => ?_)
  refine (out_total _ i).trans ?_
  rw [Cert.ReferenceIdeal.Read.val_main_v17_apply, Cert.ReferenceIdeal.RefValue.ref_pairs, ← kerSum_eq_refSum _ hx]
  exact congrArg (_ + ·) (sum_out m c)

end Cert.KernelIdeal.Hand

end
-- ==== Proof.Gram.Finite.lean ====
/-
  The stated precondition read back. It says: the conjunction, over every coordinate of every point, of "the absolute
  value of this entry is strictly below +∞" is true. On the extended reals the absolute value is max x (−x), which is
  +∞ at both infinities; so every entry is a real number.
-/
import proofs.«153800_j78932908965970_2_alg».proof.Pre_finite_inputs
import proofs.«153800_j78932908965970_2_alg».proof.Proof.Gram.Spec
import Idealize.ShloMosaic.Lib.ReduceAll
import Idealize.ShloMosaic.Lib.ValueIdx

noncomputable section

namespace Cert.GaussGram

open Idealize.ShloMosaic Idealize.ShloMosaic.ValueIdx

/-- The pattern of +∞ denotes the top element. -/
theorem ofBits_inf : Ideal.ofBits .f32 0x7F800000#32 = (⊤ : EReal) := by
  simp [Ideal.ofBits, Ideal.ieee]

/-- An extended real whose absolute value max x (−x) is strictly below the top element is a real number. -/
theorem real_of_abs_lt_top (x : EReal) (h : max x (-x) < ⊤) : ∃ v : ℝ, x = (v : EReal) := by
  induction x using EReal.rec with
  | bot => exact absurd h (by simp)
  | coe v => exact ⟨v, rfl⟩
  | top => exact absurd h (by simp)

/-- A one-bit word made from a Boolean is 1 only if the Boolean is true. -/
theorem ofBool_eq_one {b : Bool} (h : BitVec.ofBool b = 1#1) : b = true := by
  cases b
  · exact absurd h (by decide)
  · rfl

/-- If the precondition's conjunction over all entries is true, every coordinate of every point is a real number. -/
theorem allReal_of_pre [Cert.Pre_finite_inputs.Facts] (x : FVec Ideal Cert.Pre_finite_inputs.S8192x256 .f32)
    (h : Cert.Pre_finite_inputs.fn (F := Ideal) x = fun _ => 1#1) : AllReal x := by
  intro j
  haveI : Subsingleton Cert.Pre_finite_inputs.S_.Idx := ⟨fun a b => funext fun d => d.elim0⟩
  have h0 := congrFun h ix0
  dsimp only [Cert.Pre_finite_inputs.fn] at h0
  have hj := Host.reduce_andi_all _ _ _ _ _ h0 j
  have hc : BitVec.ofBool (decide (max (x j) (-(x j)) < Ideal.ofBits .f32 0x7F800000#32)) = 1#1 := hj
  rw [ofBits_inf] at hc
  exact real_of_abs_lt_top (x j) (of_decide_eq_true (ofBool_eq_one hc))

end Cert.GaussGram

end
-- ==== Proof.lean ====
/-
  The certificate's five claims. A Gaussian-kernel mean over all pairs of 8192 points: the reference forms the whole
  matrix of squared distances ‖x‖² + ‖y‖² − 2⟨x, y⟩, clamps it at zero, and averages exp(−½·); the kernel walks the
  8 × 8 tiles of 1024 × 1024 pairs, skips the tiles below the diagonal, counts each tile above it twice (the matrix is
  symmetric), sets a point's term with itself to exp 0 (its squared distance is exactly zero over the reals), and clamps
  the exponent ⟨x, y⟩ − ½‖x‖² − ½‖y‖² from above (−½·max(d, 0) = min(−½d, 0)). Over the extended reals, for real
  arguments, the two totals are one number, and both programs then apply the same scalar corrections.
  Two of the kernel's input windows read one array (the rounded argument, by row block and by column block): its full
  share is dealt in halves to the two windows at the region's entry and rejoined at the exit, where the later host
  operations run. The three frames are the two kernel programs' runs with their argument read back, and the
  reference's run; the idealization rewrote nothing, so there is nothing to preserve.
-/
import proofs.«153800_j78932908965970_2_alg».proof.Defs
import proofs.«153800_j78932908965970_2_alg».proof.Proof.Gen.Kernel
import proofs.«153800_j78932908965970_2_alg».proof.Proof.Gen.KernelIdeal
import proofs.«153800_j78932908965970_2_alg».proof.Proof.Gen.ReferenceIdeal
import proofs.«153800_j78932908965970_2_alg».proof.Proof.Gen.Pre_finite_inputs
import proofs.«153800_j78932908965970_2_alg».proof.Proof.Gen.ReferenceIdeal.Run
import proofs.«153800_j78932908965970_2_alg».proof.Proof.Gen.ReferenceIdeal.Read
import proofs.«153800_j78932908965970_2_alg».proof.Proof.BitsFrame.Frame
import proofs.«153800_j78932908965970_2_alg».proof.Proof.IdealFrame.Result
import proofs.«153800_j78932908965970_2_alg».proof.Proof.Gram.Finite
import Idealize.ShloMosaic.Adequacy
import Idealize.ShloMosaic.Init

noncomputable section

namespace Cert.Proof

open Idealize.ShloMosaic Idealize.SL.Sem

/-- The kernel program as printed runs to the end and leaves its argument as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument, both idealized programs run, the kernel's result buffer ending at what the
    later host operations make of the tile sums and the reference's at its own term: one number, the argument being
    real by the precondition. -/
theorem algebraic : Cert.algebraic_KernelIdeal_ReferenceIdeal := by
  intro m ρ m' ρ' hpre hagree
  refine ⟨fun c => Cert.KernelIdeal.Hand.endVal m (Cert.KernelIdeal.Hand.dats m Cert.KernelIdeal.Hand.qs) c Cert.KernelIdeal.main_v18,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v27_eq _).trans
    (Cert.KernelIdeal.Hand.result_eq m c (Cert.GaussGram.allReal_of_pre _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
